-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x48x48x384 : Shape := ⟨4, ![2, 48, 48, 384]⟩
abbrev S2x48x48x16 : Shape := ⟨4, ![2, 48, 48, 16]⟩
abbrev S1 : Shape := ⟨1, ![1]⟩
abbrev S_ : Shape := ⟨0, ![]⟩

class Facts : Prop where
  bcast_S_S2x48x48x384 : S_.BroadcastsInDim S2x48x48x384 (![] : Fin 0 → Fin S2x48x48x384.rank)
  reducesTo_S2x48x48x384_S_d0_1_2_3 : S2x48x48x384.ReducesTo [0, 1, 2, 3] S_
  h_S_ : 0 < S_.numel
  bcast_S_S2x48x48x16 : S_.BroadcastsInDim S2x48x48x16 (![] : Fin 0 → Fin S2x48x48x16.rank)
  reducesTo_S2x48x48x16_S_d0_1_2_3 : S2x48x48x16.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S2x48x48x384 .f32) (main_arg1 : FVec F S2x48x48x16 .f32) (main_arg2 : FVec F S1 .f32) (main_arg3 : FVec F S1 .f32) : IVec S_ 1 :=
  let main_v0 : FVec F S2x48x48x384 .f32 := Host.absf main_arg0
  let main_cst : FVec F S_ .f32 := constant S_ .f32 0x7F800000#32
  let main_v1 : FVec F S2x48x48x384 .f32 := broadcastInDim S2x48x48x384 ![] bcast_S_S2x48x48x384 main_cst
  let main_v2 : IVec S2x48x48x384 1 := cmpf .olt main_v0 main_v1
  let main_c : IVec S_ 1 := constantI S_ 1 1#1
  let main_v3 : IVec S_ 1 := (fun x v => Host.reduce IntOp.andi x v reducesTo_S2x48x48x384_S_d0_1_2_3 h_S_) main_v2 main_c
  let main_v4 : FVec F S2x48x48x16 .f32 := Host.absf main_arg1
  let main_cst_0 : FVec F S_ .f32 := constant S_ .f32 0x7F800000#32
  let main_v5 : FVec F S2x48x48x16 .f32 := broadcastInDim S2x48x48x16 ![] bcast_S_S2x48x48x16 main_cst_0
  let main_v6 : IVec S2x48x48x16 1 := cmpf .olt main_v4 main_v5
  let main_c_1 : IVec S_ 1 := constantI S_ 1 1#1
  let main_v7 : IVec S_ 1 := (fun x v => Host.reduce IntOp.andi x v reducesTo_S2x48x48x16_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S2x48x48x384 : Shape := ⟨4, ![2, 48, 48, 384]⟩
abbrev S2x48x48x16 : Shape := ⟨4, ![2, 48, 48, 16]⟩
abbrev S1 : Shape := ⟨1, ![1]⟩
abbrev S2x2304x384 : Shape := ⟨3, ![2, 2304, 384]⟩
abbrev S2x2304x16 : Shape := ⟨3, ![2, 2304, 16]⟩
abbrev S2x1x128 : Shape := ⟨3, ![2, 1, 128]⟩
abbrev S1x2304x384 : Shape := ⟨3, ![1, 2304, 384]⟩
abbrev S1x2304x16 : Shape := ⟨3, ![1, 2304, 16]⟩
abbrev S1x1x128 : Shape := ⟨3, ![1, 1, 128]⟩
abbrev S2304x384 : Shape := ⟨2, ![2304, 384]⟩
abbrev S2304x16 : Shape := ⟨2, ![2304, 16]⟩
abbrev S2304x1 : Shape := ⟨2, ![2304, 1]⟩
abbrev S2304 : Shape := ⟨1, ![2304]⟩
abbrev S1x128 : Shape := ⟨2, ![1, 128]⟩
abbrev S384x384 : Shape := ⟨2, ![384, 384]⟩
abbrev S1x384x16 : Shape := ⟨3, ![1, 384, 16]⟩
abbrev S384x16 : Shape := ⟨2, ![384, 16]⟩
abbrev S16x384 : Shape := ⟨2, ![16, 384]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 35
  | .vmem => 13
  | .smem => 0
  | _ => 0

abbrev bufTy : (tb : Table) → Fin (tcTables nBuf tb) → BufTy
  | .hbm, ⟨0, _⟩ => ⟨S2x48x48x384, .f32⟩
  | .hbm, ⟨1, _⟩ => ⟨S2x48x48x16, .f32⟩
  | .hbm, ⟨2, _⟩ => ⟨S1, .f32⟩
  | .hbm, ⟨3, _⟩ => ⟨S1, .f32⟩
  | .hbm, ⟨4, _⟩ => ⟨S2x2304x384, .f32⟩
  | .hbm, ⟨5, _⟩ => ⟨S2x2304x16, .f32⟩
  | .hbm, ⟨6, _⟩ => ⟨S2x1x128, .f32⟩
  | .hbm, ⟨7, _⟩ => ⟨S2x1x128, .f32⟩
  | .hbm, ⟨8, _⟩ => ⟨S2x1x128, .f32⟩
  | .hbm, ⟨9, _⟩ => ⟨S2x1x128, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S2x1x1, .f32⟩
  | .hbm, ⟨15, _⟩ => ⟨S2, .f32⟩
  | .hbm, ⟨16, _⟩ => ⟨S_, .f32⟩
  | .hbm, ⟨17, _⟩ => ⟨S_, .f32⟩
  | .hbm, ⟨18, _⟩ => ⟨S2x1x1, .f32⟩
  | .hbm, ⟨19, _⟩ => ⟨S2, .f32⟩
  | .hbm, ⟨20, _⟩ => ⟨S_, .f32⟩
  | .hbm, ⟨21, _⟩ => ⟨S_, .f32⟩
  | .hbm, ⟨22, _⟩ => ⟨S2x1x1, .f32⟩
  | .hbm, ⟨23, _⟩ => ⟨S2, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x2304x384, .f32⟩
  | .local _ .vmem, ⟨1, _⟩ => ⟨S1x2304x16, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S2304x384, .bf16⟩
  | .local _ .vmem, ⟨11, _⟩ => ⟨S2304x16, .f32⟩
  | .local _ .vmem, ⟨12, _⟩ => ⟨S2304x1, .f32⟩
  | _, _ => ⟨S2x48x48x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 6], ![false, false]⟩

def k0_mult1 (i : grid0.Coords) : BitVec 32 :=
  let arg1 : BitVec 32 := BitVec.ofNat 32 (i 1).val
  let c384_i32 : BitVec 32 := 384#32
  let v3 : BitVec 32 := Scalar.muli arg1 c384_i32
  v3
def k0_off1 (i : grid0.Coords) : Fin 2 → Nat :=
  let arg1 : BitVec 32 := BitVec.ofNat 32 (i 1).val
  let c384_i32 : BitVec 32 := 384#32
  let v3 : BitVec 32 := Scalar.muli arg1 c384_i32
  let v4 : BitVec 32 := v3
  let v5 : Index := Scalar.indexCast v4
  let c0 : Index := 0#32
  ![v5.toNat, 0]
def k0_off2 (i : grid0.Coords) : Fin 3 → Nat :=
  let c0_1 : Index := 0#32
  let arg1 : BitVec 32 := BitVec.ofNat 32 (i 1).val
  let c384_i32 : BitVec 32 := 384#32
  let v3 : BitVec 32 := Scalar.muli arg1 c384_i32
  let v4 : BitVec 32 := v3
  let v7 : Index := Scalar.indexCast v4
  let c0_2 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2304x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2304x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x48x48x384_S2x2304x384 : S2x48x48x384.ShapeCasts S2x2304x384
  shapeCasts_S2x48x48x16_S2x2304x16 : S2x48x48x16.ShapeCasts S2x2304x16
  inb_S1x2304x384_S1x2304x384_0_0_0 : ∀ a, (![0, 0, 0] : Fin 3 → Nat) a + S1x2304x384.size a ≤ S1x2304x384.size a
  h_S1x2304x384 : 0 < S1x2304x384.numel
  shapeCasts_S1x2304x384_S2304x384 : S1x2304x384.ShapeCasts S2304x384
  reduces_S2304x384_S2304 : S2304x384.Reduces [1] S2304
  shapeCasts_S2304_S2304x1 : S2304.ShapeCasts S2304x1
  broadcasts_S2304x1_S2304x384 : S2304x1.Broadcasts S2304x384
  bitsLt_bf16_f32 : FTy.bits .bf16 < FTy.bits .f32
  inb_S2304x384_S2304x384_0_0 : ∀ a, (![0, 0] : Fin 2 → Nat) a + S2304x384.size a ≤ S2304x384.size a
  h_S2304x384 : 0 < S2304x384.numel
  shapeCasts_S2304x384_S2304x384 : S2304x384.ShapeCasts S2304x384
  packedbf16_S2304x384_S2304x384_0_0 : (Rect.unit (s := S2304x384) ![0, 0] S2304x384.size inb_S2304x384_S2304x384_0_0).PackedRows (EltTy.packing .bf16)
  inb_S1x2304x16_S1x2304x16_0_0_0 : ∀ a, (![0, 0, 0] : Fin 3 → Nat) a + S1x2304x16.size a ≤ S1x2304x16.size a
  h_S1x2304x16 : 0 < S1x2304x16.numel
  shapeCasts_S1x2304x16_S2304x16 : S1x2304x16.ShapeCasts S2304x16
  inb_S2304x16_S2304x16_0_0 : ∀ a, (![0, 0] : Fin 2 → Nat) a + S2304x16.size a ≤ S2304x16.size a
  h_S2304x16 : 0 < S2304x16.numel
  shapeCasts_S2304x16_S2304x16 : S2304x16.ShapeCasts S2304x16
  reduces_S2304x16_S2304 : S2304x16.Reduces [1] S2304
  inb_S2304x1_S2304x1_0_0 : ∀ a, (![0, 0] : Fin 2 → Nat) a + S2304x1.size a ≤ S2304x1.size a
  h_S2304x1 : 0 < S2304x1.numel
  shapeCasts_S2304x1_S2304x1 : S2304x1.ShapeCasts S2304x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  h_S384x384 : 0 < S384x384.numel
  h_S1x384x16 : 0 < S1x384x16.numel
  shapeCasts_S1x384x16_S384x16 : S1x384x16.ShapeCasts S384x16
  transposes_S384x384_p1_0_S384x384 : S384x384.Transposes [1, 0] S384x384
  transposes_S384x16_p1_0_S16x384 : S384x16.Transposes [1, 0] S16x384
  reduces_S2304x1_S1 : S2304x1.Reduces [0] S1
  shapeCasts_S1_S1x1 : S1.ShapeCasts S1x1
  natLt_1_32 : 1 < 32
  shapeCasts_S1x1_S1x1 : S1x1.ShapeCasts S1x1
  broadcasts_S1x1_S1x128 : S1x1.Broadcasts S1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  shapeCasts_S1_S_ : S1.ShapeCasts S_
  dot_S2304x384_S384x384_S2304x384_1_0_0_1_n_n_wf : DotDims.WF S2304x384 S384x384 S2304x384 [1] [0] [0] [1] [] []
  dot_S2304x16_S16x384_S2304x384_1_0_0_1_n_n_wf : DotDims.WF S2304x16 S16x384 S2304x384 [1] [0] [0] [1] [] []
  hrank0 : 0 < grid0.rank
  k0_mult1_dvd : ∀ i : grid0.Coords, 384 ∣ (k0_mult1 i).toNat
  k0_off1_inb : ∀ i : grid0.Coords, ∀ a, (k0_off1 i) a + S384x384.size a ≤ S2304x384.size a
  k0_off2_inb : ∀ i : grid0.Coords, ∀ a, (k0_off2 i) a + S1x384x16.size a ≤ S1x2304x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2304x384.size a ≤ S2x2304x384.size a
  hwx0_0 : ∀ i : grid0.Coords, EltTy.bits .f32 = 32 ∨ (Rect.block (s := S2x2304x384) S1x2304x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2304x16.size a ≤ S2x2304x16.size a
  hwx0_1 : ∀ i : grid0.Coords, EltTy.bits .f32 = 32 ∨ (Rect.block (s := S2x2304x16) S1x2304x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def dot_S2304x384_S384x384_S2304x384_1_0_0_1_n_n : DotDims S2304x384 S384x384 S2304x384 where
  lhsContracting := [1]
  rhsContracting := [0]
  lhsNonContracting := [0]
  rhsNonContracting := [1]
  lhsBatch := []
  rhsBatch := []
  wf := dot_S2304x384_S384x384_S2304x384_1_0_0_1_n_n_wf
def dot_S2304x16_S16x384_S2304x384_1_0_0_1_n_n : DotDims S2304x16 S16x384 S2304x384 where
  lhsContracting := [1]
  rhsContracting := [0]
  lhsNonContracting := [0]
  rhsNonContracting := [1]
  lhsBatch := []
  rhsBatch := []
  wf := dot_S2304x16_S16x384_S2304x384_1_0_0_1_n_n_wf

abbrev win0_0 : Pipeline.Window sig grid0 :=
  Pipeline.Window.ofSpec (Memref.whole main_v0) S1x2304x384.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2304x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x48x48x384 : Shape := ⟨4, ![2, 48, 48, 384]⟩
abbrev S2x48x48x16 : Shape := ⟨4, ![2, 48, 48, 16]⟩
abbrev S1 : Shape := ⟨1, ![1]⟩
abbrev S2x2304x384 : Shape := ⟨3, ![2, 2304, 384]⟩
abbrev S2x2304x16 : Shape := ⟨3, ![2, 2304, 16]⟩
abbrev S_ : Shape := ⟨0, ![]⟩
abbrev S2x2304 : Shape := ⟨2, ![2, 2304]⟩
abbrev S2x2304x1 : Shape := ⟨3, ![2, 2304, 1]⟩
abbrev S2x2304x2304 : Shape := ⟨3, ![2, 2304, 2304]⟩

abbrev nBuf : Space → Nat
  | .hbm => 90
  | .vmem => 0
  | .smem => 0
  | _ => 0

abbrev bufTy : (tb : Table) → Fin (tcTables nBuf tb) → BufTy
  | .hbm, ⟨0, _⟩ => ⟨S2x48x48x384, .f32⟩
  | .hbm, ⟨1, _⟩ => ⟨S2x48x48x16, .f32⟩
  | .hbm, ⟨2, _⟩ => ⟨S1, .f32⟩
  | .hbm, ⟨3, _⟩ => ⟨S1, .f32⟩
  | .hbm, ⟨4, _⟩ => ⟨S2x2304x384, .f32⟩
  | .hbm, ⟨5, _⟩ => ⟨S2x2304x16, .f32⟩
  | .hbm, ⟨6, _⟩ => ⟨S2x2304x384, .f32⟩
  | .hbm, ⟨7, _⟩ => ⟨S_, .f32⟩
  | .hbm, ⟨8, _⟩ => ⟨S2x2304, .f32⟩
  | .hbm, ⟨9, _⟩ => ⟨S2x2304x1, .f32⟩
  | .hbm, ⟨10, _⟩ => ⟨S2x2304x1, .f32⟩
  | .hbm, ⟨11, _⟩ => ⟨S_, .f32⟩
  | .hbm, ⟨12, _⟩ => ⟨S2x2304x1, .f32⟩
  | .hbm, ⟨13, _⟩ => ⟨S2x2304x1, .f32⟩
  | .hbm, ⟨14, _⟩ => ⟨S2x2304x384, .f32⟩
  | .hbm, ⟨15, _⟩ => ⟨S2x2304x384, .f32⟩
  | .hbm, ⟨16, _⟩ => ⟨S2x2304x2304, .f32⟩
  | .hbm, ⟨17, _⟩ => ⟨S_, .f32⟩
  | .hbm, ⟨18, _⟩ => ⟨S2x2304x2304, .f32⟩
  | .hbm, ⟨19, _⟩ => ⟨S2x2304x2304, .f32⟩
  | .hbm, ⟨20, _⟩ => ⟨S_, .f32⟩
  | .hbm, ⟨21, _⟩ => ⟨S2x2304x2304, .f32⟩
  | .hbm, ⟨22, _⟩ => ⟨S2x2304x2304, .f32⟩
  | .hbm, ⟨23, _⟩ => ⟨S_, .f32⟩
  | .hbm, ⟨24, _⟩ => ⟨S2x2304x2304, .f32⟩
  | .hbm, ⟨25, _⟩ => ⟨S2x2304x2304, .f32⟩
  | .hbm, ⟨26, _⟩ => ⟨S2x2304x16, .f32⟩
  | .hbm, ⟨27, _⟩ => ⟨S2x2304x16, .f32⟩
  | .hbm, ⟨28, _⟩ => ⟨S2x2304x16, .i1⟩
  | .hbm, ⟨29, _⟩ => ⟨S2x2304x16, .f32⟩
  | .hbm, ⟨30, _⟩ => ⟨S2x2304x16, .f32⟩
  | .hbm, ⟨31, _⟩ => ⟨S2x2304x16, .f32⟩
  | .hbm, ⟨32, _⟩ => ⟨S2x2304x16, .f32⟩
  | .hbm, ⟨33, _⟩ => ⟨S2x2304x16, .f32⟩
  | .hbm, ⟨34, _⟩ => ⟨S2x2304x16, .f32⟩
  | .hbm, ⟨35, _⟩ => ⟨S2x2304x16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x2304x16, .f32⟩
  | .hbm, ⟨40, _⟩ => ⟨S2x2304x16, .f32⟩
  | .hbm, ⟨41, _⟩ => ⟨S2x2304x16, .f32⟩
  | .hbm, ⟨42, _⟩ => ⟨S2x2304x16, .f32⟩
  | .hbm, ⟨43, _⟩ => ⟨S_, .f32⟩
  | .hbm, ⟨44, _⟩ => ⟨S2x2304, .f32⟩
  | .hbm, ⟨45, _⟩ => ⟨S2x2304x1, .f32⟩
  | .hbm, ⟨46, _⟩ => ⟨S2x2304x2304, .f32⟩
  | .hbm, ⟨47, _⟩ => ⟨S2x2304x2304, .f32⟩
  | .hbm, ⟨48, _⟩ => ⟨S2x2304x2304, .f32⟩
  | .hbm, ⟨49, _⟩ => ⟨S2x2304x16, .f32⟩
  | .hbm, ⟨50, _⟩ => ⟨S2x2304x16, .f32⟩
  | .hbm, ⟨51, _⟩ => ⟨S_, .f32⟩
  | .hbm, ⟨52, _⟩ => ⟨S2x2304, .f32⟩
  | .hbm, ⟨53, _⟩ => ⟨S2x2304x1, .f32⟩
  | .hbm, ⟨54, _⟩ => ⟨S2x2304x2304, .f32⟩
  | .hbm, ⟨55, _⟩ => ⟨S2x2304x2304, .f32⟩
  | .hbm, ⟨56, _⟩ => ⟨S2x2304x2304, .f32⟩
  | .hbm, ⟨57, _⟩ => ⟨S2x2304x2304, .f32⟩
  | .hbm, ⟨58, _⟩ => ⟨S_, .f32⟩
  | .hbm, ⟨59, _⟩ => ⟨S2x2304x2304, .f32⟩
  | .hbm, ⟨60, _⟩ => ⟨S2x2304x2304, .f32⟩
  | .hbm, ⟨61, _⟩ => ⟨S_, .f32⟩
  | .hbm, ⟨62, _⟩ => ⟨S2x2304x2304, .f32⟩
  | .hbm, ⟨63, _⟩ => ⟨S2x2304x2304, .i1⟩
  | .hbm, ⟨64, _⟩ => ⟨S2x2304x2304, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S2x2304x2304, .f32⟩
  | .hbm, ⟨70, _⟩ => ⟨S2x2304x2304, .i1⟩
  | .hbm, ⟨71, _⟩ => ⟨S2x2304x2304, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S2x2304x2304, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S2x2304x2304, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S2x48x48x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_c : Ref sig .tc := ⟨.hbm, 65, rfl⟩
abbrev main_v48 : Ref sig .tc := ⟨.hbm, 66, rfl⟩
abbrev main_v49 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_c : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_10 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  shapeCasts_S2x48x48x384_S2x2304x384 : S2x48x48x384.ShapeCasts S2x2304x384
  shapeCasts_S2x48x48x16_S2x2304x16 : S2x48x48x16.ShapeCasts S2x2304x16
  reducesTo_S2x2304x384_S2x2304_d2 : S2x2304x384.ReducesTo [2] S2x2304
  h_S_ : 0 < S_.numel
  bcast_S2x2304_S2x2304x1_0_1 : S2x2304.BroadcastsInDim S2x2304x1 (![0, 1] : Fin 2 → Fin S2x2304x1.rank)
  bcast_S_S2x2304x1 : S_.BroadcastsInDim S2x2304x1 (![] : Fin 0 → Fin S2x2304x1.rank)
  bcast_S2x2304x1_S2x2304x384_0_1_2 : S2x2304x1.BroadcastsInDim S2x2304x384 (![0, 1, 2] : Fin 3 → Fin S2x2304x384.rank)
  bcast_S_S2x2304x2304 : S_.BroadcastsInDim S2x2304x2304 (![] : Fin 0 → Fin S2x2304x2304.rank)
  bcast_S_S2x2304x16 : S_.BroadcastsInDim S2x2304x16 (![] : Fin 0 → Fin S2x2304x16.rank)
  reducesTo_S2x2304x16_S2x2304_d2 : S2x2304x16.ReducesTo [2] S2x2304
  bcast_S2x2304x1_S2x2304x2304_0_1_2 : S2x2304x1.BroadcastsInDim S2x2304x2304 (![0, 1, 2] : Fin 3 → Fin S2x2304x2304.rank)
  natLt_1_32 : 1 < 32
  reducesTo_S2x2304x2304_S_d0_1_2 : S2x2304x2304.ReducesTo [0, 1, 2] S_
  shapeCasts_S1_S_ : S1.ShapeCasts S_
  dot_S2x2304x384_S2x2304x384_S2x2304x2304_2_2_1_1_0_0_wf : DotDims.WF S2x2304x384 S2x2304x384 S2x2304x2304 [2] [2] [1] [1] [0] [0]
  dot_S2x2304x16_S2x2304x16_S2x2304x2304_2_2_1_1_0_0_wf : DotDims.WF S2x2304x16 S2x2304x16 S2x2304x2304 [2] [2] [1] [1] [0] [0]

variable [Facts₀]

def dot_S2x2304x384_S2x2304x384_S2x2304x2304_2_2_1_1_0_0 : DotDims S2x2304x384 S2x2304x384 S2x2304x2304 where
  lhsContracting := [2]
  rhsContracting := [2]
  lhsNonContracting := [1]
  rhsNonContracting := [1]
  lhsBatch := [0]
  rhsBatch := [0]
  wf := dot_S2x2304x384_S2x2304x384_S2x2304x2304_2_2_1_1_0_0_wf
def dot_S2x2304x16_S2x2304x16_S2x2304x2304_2_2_1_1_0_0 : DotDims S2x2304x16 S2x2304x16 S2x2304x2304 where
  lhsContracting := [2]
  rhsContracting := [2]
  lhsNonContracting := [1]
  rhsNonContracting := [1]
  lhsBatch := [0]
  rhsBatch := [0]
  wf := dot_S2x2304x16_S2x2304x16_S2x2304x2304_2_2_1_1_0_0_wf

class Facts : Prop extends Facts₀ where

variable [Facts]
-- ==== Proof.KernelPoint.lean ====
/-
  Where each grid point reads. The grid has 12 points t = 6·n + j: batch n = t / 6, tile j = t % 6. The two input windows
  stage batch n whole (block (n, 0, 0) of the [2, 2304, ·] arrays); every output window stages row n of its [2, 1, 128]
  array; the body's two partial loads start at row 384·j. These are facts about twelve points, decided once.
-/
import proofs.«138893_j63505386438847_2_alg».proof.Proof.KernelIdealFrameP
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Point

open Cert.KernelIdeal Cert.KernelIdeal.Gen Cert.KernelIdeal.GenP

variable {F : FTy → Type} [FloatOps F]
variable (m : (ℓ : Loc nD τ sig) → Buf (Elt F) ℓ)

theorem hN : cfg0.N = 12 := N_0

/-- The batch of a point. -/
def bat (t : ℕ) (h : t < cfg0.N) : Fin 2 := ⟨t / 6, by have := hN; omega⟩
/-- The tile of a point. -/
def til (t : ℕ) : Fin 6 := ⟨t % 6, Nat.mod_lt _ (by decide)⟩

/-- Every window's block index at point t is (t / 6, 0, 0). -/
theorem index_facts : ∀ t : Fin cfg0.N,
    (win0_0.index t 0 = t.val / 6 ∧ win0_0.index t 1 = 0 ∧ win0_0.index t 2 = 0)
    ∧ (win0_1.index t 0 = t.val / 6 ∧ win0_1.index t 1 = 0 ∧ win0_1.index t 2 = 0)
    ∧ (win0_2.index t 0 = t.val / 6 ∧ win0_2.index t 1 = 0 ∧ win0_2.index t 2 = 0)
    ∧ (win0_3.index t 0 = t.val / 6 ∧ win0_3.index t 1 = 0 ∧ win0_3.index t 2 = 0)
    ∧ (win0_4.index t 0 = t.val / 6 ∧ win0_4.index t 1 = 0 ∧ win0_4.index t 2 = 0)
    ∧ (win0_5.index t 0 = t.val / 6 ∧ win0_5.index t 1 = 0 ∧ win0_5.index t 2 = 0) :=
  (by decide +kernel : ∀ t : Fin grid0.N, _)

/-- The two partial loads of the body start at row 384 · (t % 6). -/
theorem off_facts : ∀ t : Fin cfg0.N,
    (k0_off1 (grid0.coords t) 0 = 384 * (t.val % 6) ∧ k0_off1 (grid0.coords t) 1 = 0)
    ∧ (k0_off2 (grid0.coords t) 0 = 0 ∧ k0_off2 (grid0.coords t) 1 = 384 * (t.val % 6) ∧ k0_off2 (grid0.coords t) 2 = 0) :=
  (by decide +kernel : ∀ t : Fin grid0.N, _)

/-- Window 0's block at point t is batch t / 6 of the reshaped features. -/
theorem iblk0_apply (c : Dev nD) (t : Fin cfg0.N) (s : Fin 2304) (k : Fin 384) :
    (iblk m c 0 t : Vec F S1x2304x384 .f32) (ix3 0 s k) = V m c main_v0 (ix3 (bat t.val t.isLt) s k) := by
  have hi := (index_facts t).1
  unfold iblk
  rw [View.read_apply]
  show V m c main_v0 _ = V m c main_v0 _
  congr 1
  funext a
  apply Fin.ext
  match a with
  | ⟨0, _⟩ => show win0_0.index t 0 * 1 + 1 * 0 = t.val / 6; rw [hi.1]; omega
  | ⟨1, _⟩ => show win0_0.index t 1 * 2304 + 1 * s.val = s.val; rw [hi.2.1]; omega
  | ⟨2, _⟩ => show win0_0.index t 2 * 384 + 1 * k.val = k.val; rw [hi.2.2]; omega

/-- Window 1's block at point t is batch t / 6 of the reshaped log-probabilities. -/
theorem iblk1_apply (c : Dev nD) (t : Fin cfg0.N) (s : Fin 2304) (k : Fin 16) :
    (iblk m c 1 t : Vec F S1x2304x16 .f32) (ix3 0 s k) = V m c main_v1 (ix3 (bat t.val t.isLt) s k) := by
  have hi := (index_facts t).2.1
  unfold iblk
  rw [View.read_apply]
  show V m c main_v1 _ = V m c main_v1 _
  congr 1
  funext a
  apply Fin.ext
  match a with
  | ⟨0, _⟩ => show win0_1.index t 0 * 1 + 1 * 0 = t.val / 6; rw [hi.1]; omega
  | ⟨1, _⟩ => show win0_1.index t 1 * 2304 + 1 * s.val = s.val; rw [hi.2.1]; omega
  | ⟨2, _⟩ => show win0_1.index t 2 * 16 + 1 * k.val = k.val; rw [hi.2.2]; omega

end Cert.KernelIdeal.Point

end
-- ==== Proof.PairLoss.lean ====
/-
  The pairwise loss both programs compute, as functions on the extended reals.

  X is a [2, 2304, 384] array of features and Y a [2, 2304, 16] array of log-probabilities. For a batch n and two
  positions s, l:
    * the unit row  u(n,s,·) = X(n,s,·) / max(√(Σ_c X(n,s,c)²), ε);
    * the shifted cosine  fcorr(n,s,l) = Σ_c u(n,s,c)·u(n,l,c) − shift;
    * the cross term  pcorr(n,s,l) = Σ_k e^{Y(n,s,k)}·Y(n,s,k) − Σ_k e^{Y(n,s,k)}·Y(n,l,k).
  The four totals over all (n,s,l): the positive part of fcorr times pcorr, the negative part times pcorr, and the
  numbers of pairs with fcorr > 0 and with fcorr < 0. The result is
    ((posTot / nPos)·w₂ + (negTot / nNeg)·w₃)·1.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.PairLoss

open Idealize.ShloMosaic Idealize.ShloMosaic.ValueIdx

abbrev SX : Shape := ⟨3, ![2, 2304, 384]⟩
abbrev SY : Shape := ⟨3, ![2, 2304, 16]⟩
abbrev S0 : Shape := ⟨0, ![]⟩
abbrev S1 : Shape := ⟨1, ![1]⟩

/-- ε, the lower bound of a norm (the word of 1e-12 in f32). -/
def epsW : EReal := Ideal.ofBits .f32 0x2B8CBCCC#32
/-- The shift subtracted from every cosine (the word of 0.7 in f32). -/
def shiftW : EReal := Ideal.ofBits .f32 0x3F333333#32

variable (X : SX.Idx → EReal) (Y : SY.Idx → EReal)

/-- max(‖X(n,s,·)‖, ε). -/
def nrm (n : Fin 2) (s : Fin 2304) : EReal :=
  max (Ideal.sqrt (∑ c : Fin 384, X (ix3 n s c) * X (ix3 n s c))) epsW

/-- The unit row. -/
def unitRow (n : Fin 2) (s : Fin 2304) (c : Fin 384) : EReal := Ideal.div (X (ix3 n s c)) (nrm X n s)

/-- The shifted cosine of rows s and l. -/
def fcorr (n : Fin 2) (s l : Fin 2304) : EReal := (∑ c : Fin 384, unitRow X n s c * unitRow X n l c) - shiftW

/-- e^{Y}. -/
def ex (n : Fin 2) (s : Fin 2304) (k : Fin 16) : EReal := Ideal.exp (Y (ix3 n s k))

/-- Σ_k e^{Y(n,s,k)}·Y(n,s,k). -/
def ent (n : Fin 2) (s : Fin 2304) : EReal := ∑ k : Fin 16, ex Y n s k * Y (ix3 n s k)

/-- Σ_k e^{Y(n,s,k)}·Y(n,l,k). -/
def cross (n : Fin 2) (s l : Fin 2304) : EReal := ∑ k : Fin 16, ex Y n s k * Y (ix3 n l k)

/-- The cross term of positions s and l. -/
def pcorr (n : Fin 2) (s l : Fin 2304) : EReal := ent Y n s - cross Y n s l

/-- Σ max(fcorr, 0)·pcorr. -/
def posTot : EReal := ∑ n : Fin 2, ∑ s : Fin 2304, ∑ l : Fin 2304, max (fcorr X n s l) 0 * pcorr Y n s l
/-- Σ min(fcorr, 0)·pcorr. -/
def negTot : EReal := ∑ n : Fin 2, ∑ s : Fin 2304, ∑ l : Fin 2304, min (fcorr X n s l) 0 * pcorr Y n s l
/-- The number of pairs with fcorr > 0. -/
def nPos : EReal := ∑ n : Fin 2, ∑ s : Fin 2304, ∑ l : Fin 2304, if 0 < fcorr X n s l then (1 : EReal) else 0
/-- The number of pairs with fcorr < 0. -/
def nNeg : EReal := ∑ n : Fin 2, ∑ s : Fin 2304, ∑ l : Fin 2304, if fcorr X n s l < 0 then (1 : EReal) else 0

/-- The last operations of both programs: the two quotients, weighted by the two scalar weights, added, times the
    constant whose word is that of 1. -/
def combine (h : S1.ShapeCasts S0) (P Ng Np Nn : FVec Ideal S0 .f32) (w2 w3 : FVec Ideal S1 .f32) : FVec Ideal S0 .f32 :=
  mulf (addf (mulf (Host.divf P Np) (shapeCast S0 w2 h)) (mulf (Host.divf Ng Nn) (shapeCast S0 w3 h)))
    (constant S0 .f32 0x3F800000#32)

/-- The whole result, from the two arrays and the two weights. -/
def result (h : S1.ShapeCasts S0) (w2 w3 : FVec Ideal S1 .f32) : FVec Ideal S0 .f32 :=
  combine h (fun _ => posTot X Y) (fun _ => negTot X Y) (fun _ => nPos X) (fun _ => nNeg X) w2 w3

/-! ## One tile of 384 positions l against all 2304 positions s

Within one batch: U holds the 2304 unit rows, E the exponentials e^{Y}, H the sums Σ_k e^{Y}·Y, and the tile's own 384
rows are Ul (unit rows) and Yl (log-probabilities). -/

section Tile

variable (U : Fin 2304 → Fin 384 → EReal) (Ul : Fin 384 → Fin 384 → EReal)
  (E : Fin 2304 → Fin 16 → EReal) (H : Fin 2304 → EReal) (Yl : Fin 384 → Fin 16 → EReal)

/-- The shifted cosine of row s and the tile's row l. -/
def fcT (s : Fin 2304) (l : Fin 384) : EReal := (∑ c : Fin 384, U s c * Ul l c) - shiftW
/-- The cross term of row s and the tile's row l. -/
def pcT (s : Fin 2304) (l : Fin 384) : EReal := H s - ∑ k : Fin 16, E s k * Yl l k
/-- Σ_s Σ_l max(fcT, 0)·pcT over the tile. -/
def posT : EReal := ∑ s : Fin 2304, ∑ l : Fin 384, max (fcT U Ul s l) 0 * pcT E H Yl s l
/-- Σ_s Σ_l fcT·pcT over the tile. -/
def totT : EReal := ∑ s : Fin 2304, ∑ l : Fin 384, fcT U Ul s l * pcT E H Yl s l
/-- The number of (s, l) in the tile with fcT > 0. -/
def cntPosT : EReal := ∑ s : Fin 2304, ∑ l : Fin 384, if 0 < fcT U Ul s l then (1 : EReal) else 0
/-- The number of (s, l) in the tile with fcT < 0. -/
def cntNegT : EReal := ∑ s : Fin 2304, ∑ l : Fin 384, if fcT U Ul s l < 0 then (1 : EReal) else 0

end Tile

/-- Position l of tile j among the 2304 positions. -/
def tileIdx (j : Fin 6) (l : Fin 384) : Fin 2304 := ⟨384 * j.val + l.val, by have := j.isLt; have := l.isLt; omega⟩

end Cert.PairLoss

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.LibTileRange.lean ====
/-
  A sum over Fin N as a sum of J tiles of T consecutive terms, when T · J = N.

  With f extended by zero past N, the sum of the first J tiles — tile s holds the terms T·s, T·s + 1, …, T·s + T − 1 —
  is the partial sum of the first T·J terms (induction on J, one tile at a time), and for T · J = N that partial sum
  is the whole sum. Only the commutative monoid laws of + are used.
-/
import proofs.«138893_j63505386438847_2_alg».proof.Proof.LibSumTiles

open scoped BigOperators

namespace Cert.SumTiles

variable {β : Type*} [AddCommMonoid β] {N : ℕ}

/-- The first J tiles of T terms each add up to the partial sum of the first T · J terms. -/
theorem range_tiles (f : Fin N → β) (T : ℕ) : ∀ J : ℕ, T * J ≤ N →
    ∑ s ∈ Finset.range J, ∑ p : Fin T, ext0 f (T * s + p.val) = psum f (T * J)
  | 0, _ => by rw [Finset.sum_range_zero, Nat.mul_zero, psum_zero]
  | J + 1, h => by
    have hJ : T * J + T ≤ N := by rw [← Nat.mul_succ]; exact h
    rw [Finset.sum_range_succ, range_tiles f T J (le_trans (Nat.le_add_right _ _) hJ), Nat.mul_succ,
      psum_add_tile f (T * J) T hJ]
    exact congrArg _ (Finset.sum_congr rfl fun p _ => ext0_of_lt f _ _)

/-- J tiles of T terms that exhaust Fin N add up to the sum over Fin N. -/
theorem sum_tiles (f : Fin N → β) (T J : ℕ) (h : T * J = N) :
    ∑ s ∈ Finset.range J, ∑ p : Fin T, ext0 f (T * s + p.val) = ∑ r : Fin N, f r := by
  rw [range_tiles f T J (le_of_eq h), h, psum_full]

end Cert.SumTiles
-- ==== Proof.PairMath.lean ====
/-
  The algebra of the pairwise loss on the extended reals.

  (a) The finiteness test of the inputs, read back: every entry of the two arrays is a real number.
  (b) With real entries, every quantity of the specification is a real number: the bounded norm (a positive real), the unit row,
      the shifted cosine, the exponentials and the two sums that make the cross term.
  (c) The four totals accumulated tile by tile: for each batch, six tiles of 384 positions l against all 2304 positions s,
      added left to right from zero, and then over the two batches. For the positive part and the two counts only the
      commutative monoid laws of + are used. The negative part is accumulated as (Σ f·p) − (Σ max(f,0)·p) per tile; that this is
      Σ min(f,0)·p uses f − max(f,0) = min(f,0), a computation in ℝ, so there the entries must be real.
-/
import proofs.«138893_j63505386438847_2_alg».proof.Proof.PairLoss
import proofs.«138893_j63505386438847_2_alg».proof.Proof.LibExtReals
import proofs.«138893_j63505386438847_2_alg».proof.Proof.LibFinite
import proofs.«138893_j63505386438847_2_alg».proof.Proof.LibTileRange
import proofs.«138893_j63505386438847_2_alg».proof.Pre_finite_inputs
import Idealize.ShloMosaic.Lib.Affine

noncomputable section

open scoped BigOperators

namespace Cert.PairMath

open Idealize.ShloMosaic Idealize.ShloMosaic.ValueIdx Cert.PairLoss Cert.Net

/-! ## (a) The finiteness test read back -/

/-- If the test all(|a0| < +inf) ∧ all(|a1| < +inf) ∧ all(|a2| < +inf) ∧ all(|a3| < +inf) is 1, the entries of a0 and a1 are reals. -/
theorem finite_of_pre [Cert.Pre_finite_inputs.Facts]
    (a0 : FVec Ideal Cert.Pre_finite_inputs.S2x48x48x384 .f32) (a1 : FVec Ideal Cert.Pre_finite_inputs.S2x48x48x16 .f32)
    (a2 a3 : FVec Ideal Cert.Pre_finite_inputs.S1 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1, andi] at h0
  obtain ⟨h13, _⟩ := IntOp.andi_eq_one.1 h0
  obtain ⟨h8, _⟩ := IntOp.andi_eq_one.1 h13
  obtain ⟨h3, h7⟩ := IntOp.andi_eq_one.1 h8
  exact ⟨Cert.LibFinite.real_of_all a0 _ _ _ _ h3, Cert.LibFinite.real_of_all a1 _ _ _ _ h7⟩

/-! ## (b) With real entries every quantity is a real number -/

/-- The shift (the word of 0.7) is a real number. -/
theorem shift_real : ∃ r : ℝ, shiftW = (r : EReal) := by
  refine ⟨11744051 * (2 ^ 24)⁻¹, ?_⟩
  simp [shiftW, Ideal.ofBits, Ideal.ieee]

/-- The difference of two reals is a real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

section Real

variable (X : SX.Idx → EReal) (Y : SY.Idx → EReal)

/-- The bounded norm is a positive real. -/
theorem nrm_real_pos (hX : ∀ i, ∃ r : ℝ, X i = (r : EReal)) (n : Fin 2) (s : Fin 2304) :
    ∃ r : ℝ, 0 < r ∧ nrm X n s = (r : EReal) := by
  choose X' hX' using hX
  obtain ⟨e, he, hw⟩ := eps_word
  have hsq : ∑ c : Fin 384, X (ix3 n s c) * X (ix3 n s c) = ((∑ c : Fin 384, X' (ix3 n s c) * X' (ix3 n s c) : ℝ) : EReal) := by
    rw [coe_sum]
    exact Finset.sum_congr rfl fun c _ => by rw [hX', EReal.coe_mul]
  have hnn : (0 : ℝ) ≤ ∑ c : Fin 384, X' (ix3 n s c) * X' (ix3 n s c) :=
    Finset.sum_nonneg fun c _ => mul_self_nonneg _
  refine ⟨max (Real.sqrt (∑ c : Fin 384, X' (ix3 n s c) * X' (ix3 n s c))) e, lt_max_of_lt_right he, ?_⟩
  unfold nrm epsW
  rw [hsq, real_sqrt hnn, hw, coe_max]

/-- An entry of a unit row is a real. -/
theorem unitRow_real (hX : ∀ i, ∃ r : ℝ, X i = (r : EReal)) (n : Fin 2) (s : Fin 2304) (c : Fin 384) :
    ∃ r : ℝ, unitRow X n s c = (r : EReal) := by
  obtain ⟨r, hr, hn⟩ := nrm_real_pos X hX n s
  unfold unitRow
  rw [hn]
  exact real_div (hX _) (ne_of_gt hr)

/-- The shifted cosine is a real. -/
theorem fcorr_real (hX : ∀ i, ∃ r : ℝ, X i = (r : EReal)) (n : Fin 2) (s l : Fin 2304) :
    ∃ r : ℝ, fcorr X n s l = (r : EReal) := by
  unfold fcorr
  exact real_sub (real_sum _ _ fun c => real_mul (unitRow_real X hX n s c) (unitRow_real X hX n l c)) shift_real

/-- The exponential of a real is a real. -/
theorem ex_real (hY : ∀ i, ∃ r : ℝ, Y i = (r : EReal)) (n : Fin 2) (s : Fin 2304) (k : Fin 16) :
    ∃ r : ℝ, ex Y n s k = (r : EReal) := by
  obtain ⟨y, hy⟩ := hY (ix3 n s k)
  exact ⟨Real.exp y, by unfold ex; rw [hy, Ideal.exp_coe]⟩

theorem ent_real (hY : ∀ i, ∃ r : ℝ, Y i = (r : EReal)) (n : Fin 2) (s : Fin 2304) :
    ∃ r : ℝ, ent Y n s = (r : EReal) := by
  unfold ent
  exact real_sum _ _ fun k => real_mul (ex_real Y hY n s k) (hY _)

theorem cross_real (hY : ∀ i, ∃ r : ℝ, Y i = (r : EReal)) (n : Fin 2) (s l : Fin 2304) :
    ∃ r : ℝ, cross Y n s l = (r : EReal) := by
  unfold cross
  exact real_sum _ _ fun k => real_mul (ex_real Y hY n s k) (hY _)

/-- The cross term is a real. -/
theorem pcorr_real (hY : ∀ i, ∃ r : ℝ, Y i = (r : EReal)) (n : Fin 2) (s l : Fin 2304) :
    ∃ r : ℝ, pcorr Y n s l = (r : EReal) := by
  unfold pcorr
  exact real_sub (ent_real Y hY n s) (cross_real Y hY n s l)

end Real

/-! ## (c) The accumulation over tiles -/

/-- Six terms added left to right, from zero. -/
def chain6 (t : Fin 6 → EReal) : EReal := (((((0 + t 0) + t 1) + t 2) + t 3) + t 4) + t 5

theorem chain6_eq (t : Fin 6 → EReal) : chain6 t = ∑ j : Fin 6, t j := by
  unfold chain6
  rw [Fin.sum_univ_six, zero_add]

/-- Six tiles of 384 positions exhaust the 2304 positions. -/
theorem sum_tiles6 {β : Type*} [AddCommMonoid β] (f : Fin 2304 → β) :
    ∑ j : Fin 6, ∑ l : Fin 384, f (tileIdx j l) = ∑ r : Fin 2304, f r := by
  rw [← Cert.SumTiles.sum_tiles f 384 6 (by norm_num),
    ← Fin.sum_univ_eq_sum_range (fun j => ∑ p : Fin 384, Cert.SumTiles.ext0 f (384 * j + p.val)) 6]
  refine Finset.sum_congr rfl fun j _ => Finset.sum_congr rfl fun l _ => ?_
  rw [Cert.SumTiles.ext0_of_lt f _ (by have := j.isLt; have := l.isLt; omega)]
  rfl

/-- A double sum over (s, l) accumulated tile by tile in l. -/
theorem tiles_double (g : Fin 2304 → Fin 2304 → EReal) :
    chain6 (fun j => ∑ s : Fin 2304, ∑ l : Fin 384, g s (tileIdx j l)) = ∑ s : Fin 2304, ∑ l : Fin 2304, g s l := by
  rw [chain6_eq, Finset.sum_comm]
  exact Finset.sum_congr rfl fun s _ => sum_tiles6 (g s)

section Tables

variable (X : SX.Idx → EReal) (Y : SY.Idx → EReal)

/-- The unit rows of batch n. -/
def Un (n : Fin 2) : Fin 2304 → Fin 384 → EReal := fun s c => unitRow X n s c
/-- The unit rows of tile j of batch n. -/
def Uln (n : Fin 2) (j : Fin 6) : Fin 384 → Fin 384 → EReal := fun l c => unitRow X n (tileIdx j l) c
/-- The exponentials of batch n. -/
def En (n : Fin 2) : Fin 2304 → Fin 16 → EReal := fun s k => ex Y n s k
/-- The sums Σ_k e^{Y}·Y of batch n. -/
def Hn (n : Fin 2) : Fin 2304 → EReal := fun s => ent Y n s
/-- The log-probabilities of tile j of batch n. -/
def Yln (n : Fin 2) (j : Fin 6) : Fin 384 → Fin 16 → EReal := fun l k => Y (ix3 n (tileIdx j l) k)

theorem fcT_eq (n : Fin 2) (j : Fin 6) (s : Fin 2304) (l : Fin 384) :
    fcT (Un X n) (Uln X n j) s l = fcorr X n s (tileIdx j l) := rfl

theorem pcT_eq (n : Fin 2) (j : Fin 6) (s : Fin 2304) (l : Fin 384) :
    pcT (En Y n) (Hn Y n) (Yln Y n j) s l = pcorr Y n s (tileIdx j l) := rfl

/-- The positive total, accumulated. -/
theorem kernel_pos :
    0 + ∑ n : Fin 2, chain6 (fun j => posT (Un X n) (Uln X n j) (En Y n) (Hn Y n) (Yln Y n j)) = posTot X Y := by
  rw [zero_add]
  unfold posTot
  refine Finset.sum_congr rfl fun n _ => ?_
  simp only [posT, fcT_eq, pcT_eq]
  exact tiles_double (fun s l => max (fcorr X n s l) 0 * pcorr Y n s l)

/-- The number of positive pairs, accumulated. -/
theorem kernel_npos : 0 + ∑ n : Fin 2, chain6 (fun j => cntPosT (Un X n) (Uln X n j)) = nPos X := by
  rw [zero_add]
  unfold nPos
  refine Finset.sum_congr rfl fun n _ => ?_
  simp only [cntPosT, fcT_eq]
  exact tiles_double (fun s l => if 0 < fcorr X n s l then (1 : EReal) else 0)

/-- The number of negative pairs, accumulated. -/
theorem kernel_nneg : 0 + ∑ n : Fin 2, chain6 (fun j => cntNegT (Un X n) (Uln X n j)) = nNeg X := by
  rw [zero_add]
  unfold nNeg
  refine Finset.sum_congr rfl fun n _ => ?_
  simp only [cntNegT, fcT_eq]
  exact tiles_double (fun s l => if fcorr X n s l < 0 then (1 : EReal) else 0)

end Tables

/-! ### The negative part -/

theorem coe_max0 (a : ℝ) : max (a : EReal) 0 = ((max a 0 : ℝ) : EReal) := by rw [coe_max, EReal.coe_zero]

/-- The inclusion of ℝ commutes with the smaller of two. -/
theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

theorem coe_min0 (a : ℝ) : min (a : EReal) 0 = ((min a 0 : ℝ) : EReal) := by rw [coe_min, EReal.coe_zero]

/-- For real f and p: (Σ f·p) − (Σ max(f,0)·p) = Σ min(f,0)·p, since f − max(f,0) = min(f,0). -/
theorem neg_part_law {ι κ : Type} [Fintype ι] [Fintype κ] (f p : ι → κ → EReal)
    (hf : ∀ s l, ∃ r : ℝ, f s l = (r : EReal)) (hp : ∀ s l, ∃ r : ℝ, p s l = (r : EReal)) :
    (∑ s, ∑ l, f s l * p s l) - (∑ s, ∑ l, max (f s l) 0 * p s l) = ∑ s, ∑ l, min (f s l) 0 * p s l := by
  choose f' hf' using hf
  choose p' hp' using hp
  simp only [hf', hp', coe_max0, coe_min0, ← EReal.coe_mul, ← coe_sum, ← EReal.coe_sub]
  refine congrArg _ ?_
  rw [← Finset.sum_sub_distrib]
  refine Finset.sum_congr rfl fun s _ => ?_
  rw [← Finset.sum_sub_distrib]
  refine Finset.sum_congr rfl fun l _ => ?_
  rcases le_total (f' s l) 0 with h | h
  · rw [max_eq_right h, min_eq_left h]; ring
  · rw [max_eq_left h, min_eq_right h]; ring

/-- The negative total, accumulated as the whole minus the positive part, tile by tile. -/
theorem kernel_neg (X : SX.Idx → EReal) (Y : SY.Idx → EReal)
    (hX : ∀ i, ∃ r : ℝ, X i = (r : EReal)) (hY : ∀ i, ∃ r : ℝ, Y i = (r : EReal)) :
    0 + ∑ n : Fin 2, chain6 (fun j => totT (Un X n) (Uln X n j) (En Y n) (Hn Y n) (Yln Y n j)
        - posT (Un X n) (Uln X n j) (En Y n) (Hn Y n) (Yln Y n j)) = negTot X Y := by
  rw [zero_add]
  unfold negTot
  refine Finset.sum_congr rfl fun n _ => ?_
  have e : ∀ j : Fin 6, totT (Un X n) (Uln X n j) (En Y n) (Hn Y n) (Yln Y n j)
      - posT (Un X n) (Uln X n j) (En Y n) (Hn Y n) (Yln Y n j)
      = ∑ s : Fin 2304, ∑ l : Fin 384, min (fcorr X n s (tileIdx j l)) 0 * pcorr Y n s (tileIdx j l) := fun j => by
    simp only [totT, posT, fcT_eq, pcT_eq]
    exact neg_part_law (fun s l => fcorr X n s (tileIdx j l)) (fun s l => pcorr Y n s (tileIdx j l))
      (fun s l => fcorr_real X hX n s _) (fun s l => pcorr_real Y hY n s _)
  simp only [e]
  exact tiles_double (fun s l => min (fcorr X n s l) 0 * pcorr Y n s l)

end Cert.PairMath

end
-- ==== Proof.KernelInvDef.lean ====
/-
  The statement of what the carried buffers hold after each grid point.

  The 12 grid points are t = 6·n + j (batch n, tile j). After point t:
    * the three scratch buffers hold batch n's unit rows, exponentials e^{Y} and sums Σ_k e^{Y}·Y (stored at j = 0, kept after);
    * each of the four output rows holds, in every lane, the partial chain ((0 + c(n,0)) + c(n,1)) + … + c(n,j) of the tiles'
      contributions c: the positive total, the negative total, and the two counts.
-/
import proofs.«138893_j63505386438847_2_alg».proof.Proof.KernelPoint
import proofs.«138893_j63505386438847_2_alg».proof.Proof.PairMath

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point
open Cert.PairLoss Cert.PairMath

variable (m : (ℓ : Loc nD τ sig) → Buf (Elt Ideal) ℓ) (c : Dev nD)

/-- The reshaped features as the region finds them. -/
abbrev XX : SX.Idx → EReal := V m c main_v0
/-- The reshaped log-probabilities as the region finds them. -/
abbrev YY : SY.Idx → EReal := V m c main_v1

/-- The partial chain ((0 + f 0) + f 1) + … + f k of a tile-indexed family. -/
def part (f : Fin 6 → EReal) : ℕ → EReal
  | 0 => 0 + f (til 0)
  | k + 1 => part f k + f (til (k + 1))

/-- After the last tile the partial chain is the whole chain. -/
theorem part_five (f : Fin 6 → EReal) : part f 5 = chain6 f := rfl

/-- Tile j's contribution to the positive total of batch n. -/
def cPos (n : Fin 2) (j : Fin 6) : EReal :=
  posT (Un (XX m c) n) (Uln (XX m c) n j) (En (YY m c) n) (Hn (YY m c) n) (Yln (YY m c) n j)
/-- Tile j's contribution to the negative total of batch n: the whole total minus the positive one. -/
def cNeg (n : Fin 2) (j : Fin 6) : EReal :=
  totT (Un (XX m c) n) (Uln (XX m c) n j) (En (YY m c) n) (Hn (YY m c) n) (Yln (YY m c) n j)
    - posT (Un (XX m c) n) (Uln (XX m c) n j) (En (YY m c) n) (Hn (YY m c) n) (Yln (YY m c) n j)
/-- Tile j's number of pairs with a positive shifted cosine. -/
def cNp (n : Fin 2) (j : Fin 6) : EReal := cntPosT (Un (XX m c) n) (Uln (XX m c) n j)
/-- Tile j's number of pairs with a negative shifted cosine. -/
def cNn (n : Fin 2) (j : Fin 6) : EReal := cntNegT (Un (XX m c) n) (Uln (XX m c) n j)

/-- The invariant after point t. -/
structure Holds (t : ℕ) (h : t < cfg0.N) : Prop where
  s0 : ∀ s k, (outsAt0 m c t h).2.2.2.2.1 (ix2 s k) = Un (XX m c) (bat t h) s k
  s1 : ∀ s k, (outsAt0 m c t h).2.2.2.2.2.1 (ix2 s k) = En (YY m c) (bat t h) s k
  s2 : ∀ s, (outsAt0 m c t h).2.2.2.2.2.2 (ix2 s 0) = Hn (YY m c) (bat t h) s
  o2 : ∀ lane, (outsAt0 m c t h).1 (ix3 0 0 lane) = part (cPos m c (bat t h)) (t % 6)
  o3 : ∀ lane, (outsAt0 m c t h).2.1 (ix3 0 0 lane) = part (cNeg m c (bat t h)) (t % 6)
  o4 : ∀ lane, (outsAt0 m c t h).2.2.1 (ix3 0 0 lane) = part (cNp m c (bat t h)) (t % 6)
  o5 : ∀ lane, (outsAt0 m c t h).2.2.2.1 (ix3 0 0 lane) = part (cNn m c (bat t h)) (t % 6)

end Cert.KernelIdeal.Inv

end
-- ==== Proof.KernelTailSum.lean ====
/-
  The operations after the region: each [2, 1, 128] output array is cut to its first lane, flattened to [2] and summed from
  zero. On the extended reals that is 0 + Σ_n A(n, 0, 0): the slice at offsets (0, 0, 0) of shape [2, 1, 1] reads A at
  (n, 0, 0), the flattening keeps the row-major position n, the zero word denotes 0, and the sum over the one axis of a
  [2] array into a scalar is the initial value plus the sum of the two entries.
-/
import proofs.«138893_j63505386438847_2_alg».proof.Proof.Gen.KernelIdeal
import proofs.«138893_j63505386438847_2_alg».proof.Proof.PairLoss
import Idealize.ShloMosaic.Lib.Pipeline.Value
import Idealize.ShloMosaic.Lib.ValueIdx
import Idealize.ShloMosaic.PureOps.Ideal.Laws

noncomputable section

open scoped BigOperators

namespace Cert.KernelIdeal.TailSum

open Cert.KernelIdeal Cert.KernelIdeal.Gen Idealize.ShloMosaic Idealize.ShloMosaic.ValueIdx

/-- The first lane of a [2, 1, 128] array, flattened to [2] and summed from the zero word. -/
def firstLaneSum {F : FTy → Type} [FloatOps F] (A : FVec F S2x1x128 .f32) : FVec F S_ .f32 :=
  Host.reduceAdd (shapeCast S2 (extractStridedSlice S2x1x1 ![0, 0, 0] A slices_S2x1x128_S2x1x1_0_0_0) shapeCasts_S2x1x1_S2)
    (constant S_ .f32 0x00000000#32) reducesTo_S2_S_d0 h_S_

/-- The flattened first lane at n is the array at (n, 0, 0). -/
theorem firstLane_apply {α : Type} (A : S2x1x128.Idx → α) (n : Fin 2) :
    shapeCast S2 (extractStridedSlice S2x1x1 ![0, 0, 0] A slices_S2x1x128_S2x1x1_0_0_0) shapeCasts_S2x1x1_S2 (ix1 n)
      = A (ix3 n 0 0) := by
  rw [shapeCast_apply _ shapeCasts_S2x1x1_S2 (ix1 n) (ix3 n 0 0)
    (by rw [Shape.rowMajor_val_three, Shape.rowMajor_val_one]; show (n.val * 1 + 0) * 1 + 0 = n.val; omega)]
  exact extractStridedSlice_apply ![0, 0, 0] A slices_S2x1x128_S2x1x1_0_0_0 (ix3 n 0 0) (ix3 n 0 0)
    (fun a => by match a with | ⟨0, _⟩ => exact (Nat.zero_add _).symm | ⟨1, _⟩ => rfl | ⟨2, _⟩ => rfl)

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the extended reals the sum is 0 + Σ_n A(n, 0, 0). -/
theorem firstLaneSum_apply (A : FVec Ideal S2x1x128 .f32) :
    firstLaneSum (F := Ideal) A = fun _ => 0 + ∑ n : Fin 2, A (ix3 n 0 0) := by
  funext i
  unfold firstLaneSum
  generalize hy : shapeCast S2 (extractStridedSlice S2x1x1 ![0, 0, 0] A slices_S2x1x128_S2x1x1_0_0_0) shapeCasts_S2x1x1_S2 = y
  simp only [Host.reduceAdd, Ideal.hostReduceAdd_def]
  rw [Ideal.hostReduceAdd_total reducesTo_S2_S_d0 (fun b => b.elim0), sum_idx1]
  have h0 : constant (F := Ideal) S_ .f32 0x00000000#32 (Shape.Idx.first h_S_) = 0 := Ideal.ofBits_zero_f32
  rw [h0]
  refine congrArg (0 + ·) (Finset.sum_congr rfl fun k _ => ?_)
  subst hy
  exact firstLane_apply A k

/-- The same when every lane of row n holds g(n). -/
theorem firstLaneSum_chain (A : FVec Ideal S2x1x128 .f32) (g : Fin 2 → EReal) (hA : ∀ n lane, A (ix3 n 0 lane) = g n) :
    firstLaneSum (F := Ideal) A = fun _ => 0 + ∑ n : Fin 2, g n := by
  rw [firstLaneSum_apply]
  funext _
  exact congrArg (0 + ·) (Finset.sum_congr rfl fun n _ => hA n 0)

end Cert.KernelIdeal.TailSum

end
-- ==== Proof.KernelFinal.lean ====
/-
  The four output arrays after the last grid point, and their totals.

  Each [2, 1, 128] output array is written back twice, at the last tile of each batch (points 5 and 11), from a staging
  row that holds in every lane the batch's six contributions added left to right from zero. The two blocks are the two
  rows of the array, so the array ends holding those chains; its first lane summed over the two batches is the
  corresponding total of the pairwise loss.
-/
import proofs.«138893_j63505386438847_2_alg».proof.Proof.KernelInvDef
import proofs.«138893_j63505386438847_2_alg».proof.Proof.KernelTailSum
import proofs.«138893_j63505386438847_2_alg».proof.Proof.PairMath
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.GenP Cert.KernelIdeal.Point Cert.KernelIdeal.Inv
open Cert.PairLoss Cert.PairMath

/-- A [1, 1, 128] row whose every lane holds v holds v at every index: the two unit axes have one coordinate. -/
theorem row_const (X : Vec Ideal S1x1x128 .f32) (v : EReal) (hX : ∀ lane, X (ix3 0 0 lane) = v) (i : S1x1x128.Idx) :
    X i = v := by
  obtain ⟨a, b, lane, rfl⟩ : ∃ (a : Fin 1) (b : Fin 1) (lane : Fin 128), i = ix3 a b lane := ⟨i 0, i 1, i 2, eq_ix3 i⟩
  obtain rfl : a = 0 := Subsingleton.elim _ _
  obtain rfl : b = 0 := Subsingleton.elim _ _
  exact hX lane

variable (m : (ℓ : Loc nD τ sig) → Buf (Elt Ideal) ℓ) (c : Dev nD) (hold : ∀ t h, Inv.Holds m c t h)

/-! ### Output 1: the positive total -/

/-- What the array ends holding: row n holds, in every lane, batch n's six contributions added left to right from zero. -/
def G2 : Buf (Elt Ideal) ((c : Thread nD τ).loc main_v2_0) :=
  (fun (i : S2x1x128.Idx) => chain6 (cPos m c (i 0)) : Vec Ideal S2x1x128 .f32)

theorem G2_apply (n : Fin 2) (lane : Fin 128) : G2 m c (ix3 n 0 lane) = chain6 (cPos m c n) := rfl

/-- An index whose batch coordinate is t / 6 lies in the block point t stages. -/
theorem mem_blk2 (t : Fin cfg0.N) (i : S2x1x128.Idx) (h0 : (i 0).val = t.val / 6) :
    i ∈ ((cfg0.win 2).blk t).view.set := by
  have hi := (index_facts t).2.2.1
  show i ∈ ((View.whole main_v2_0).slice (win0_2.rect t)).set
  rw [View.set_slice_whole, Rect.mem_set_unit]
  intro a
  have h1 : (i 1 : Nat) < 1 := (i 1).isLt
  have h2 : (i 2 : Nat) < 128 := (i 2).isLt
  match a with
  | ⟨0, _⟩ =>
    show win0_2.index t 0 * 1 ≤ (i 0 : Nat) ∧ (i 0 : Nat) < win0_2.index t 0 * 1 + 1
    rw [hi.1]; omega
  | ⟨1, _⟩ =>
    show win0_2.index t 1 * 1 ≤ (i 1 : Nat) ∧ (i 1 : Nat) < win0_2.index t 1 * 1 + 1
    rw [hi.2.1]; omega
  | ⟨2, _⟩ =>
    show win0_2.index t 2 * 128 ≤ (i 2 : Nat) ∧ (i 2 : Nat) < win0_2.index t 2 * 128 + 128
    rw [hi.2.2]; omega

include hold in
/-- The write-back at the last tile of a batch writes the batch's row of the final array. -/
theorem flushed_eq_2 (t : Fin cfg0.N) (hf : (cfg0.win 2).flush t = true) :
    (dats m 0 c).flushed 2 t = ((cfg0.win 2).blk t).view.read (Elt Ideal) (G2 m c) := by
  have h5 : t.val % 6 = 5 := (flush0_2 t).mp hf
  have hi := (index_facts t).2.2.1
  funext y
  rw [View.read_apply]
  show (dats m 0 c).after 2 t ((cfg0.win 2).xinj (grid0.coords t) y)
    = G2 m c (((cfg0.win 2).blk t).view.emb y)
  rw [after0_2]
  refine (row_const _ _ (hold t.val t.isLt).o2 _).trans ?_
  rw [h5, Inv.part_five]
  show chain6 (cPos m c (bat t.val t.isLt)) = chain6 (cPos m c ((((cfg0.win 2).blk t).view.emb y) 0))
  refine congrArg (fun n => chain6 (cPos m c n)) (Fin.ext ?_)
  show t.val / 6 = win0_2.index t 0 * 1 + 1 * (y 0).val
  have hy : (y 0).val < 1 := (y 0).isLt
  rw [hi.1]; omega

include hold in
/-- The two write-backs, at points 5 and 11, cover the array: it ends holding the rows of chains. -/
theorem final_2 : (dats m 0 c).arrAt 2 cfg0.N = G2 m c :=
  (dats m 0 c).arrAt_eq_of_cover 2 (G2 m c) (flushed_eq_2 m c hold) fun i => by
    have h0 : (i 0 : Nat) < 2 := (i 0).isLt
    rcases Nat.lt_or_ge (i 0 : Nat) 1 with h | h
    · exact ⟨t0_5, (flush0_2 t0_5).mpr rfl, mem_blk2 t0_5 i (by show (i 0 : Nat) = 5 / 6; omega)⟩
    · exact ⟨t0_11, (flush0_2 t0_11).mpr rfl, mem_blk2 t0_11 i (by show (i 0 : Nat) = 11 / 6; omega)⟩

/-! ### Output 2: the negative total -/

/-- What the array ends holding: row n holds, in every lane, batch n's six contributions added left to right from zero. -/
def G3 : Buf (Elt Ideal) ((c : Thread nD τ).loc main_v2_1) :=
  (fun (i : S2x1x128.Idx) => chain6 (cNeg m c (i 0)) : Vec Ideal S2x1x128 .f32)

theorem G3_apply (n : Fin 2) (lane : Fin 128) : G3 m c (ix3 n 0 lane) = chain6 (cNeg m c n) := rfl

/-- An index whose batch coordinate is t / 6 lies in the block point t stages. -/
theorem mem_blk3 (t : Fin cfg0.N) (i : S2x1x128.Idx) (h0 : (i 0).val = t.val / 6) :
    i ∈ ((cfg0.win 3).blk t).view.set := by
  have hi := (index_facts t).2.2.2.1
  show i ∈ ((View.whole main_v2_1).slice (win0_3.rect t)).set
  rw [View.set_slice_whole, Rect.mem_set_unit]
  intro a
  have h1 : (i 1 : Nat) < 1 := (i 1).isLt
  have h2 : (i 2 : Nat) < 128 := (i 2).isLt
  match a with
  | ⟨0, _⟩ =>
    show win0_3.index t 0 * 1 ≤ (i 0 : Nat) ∧ (i 0 : Nat) < win0_3.index t 0 * 1 + 1
    rw [hi.1]; omega
  | ⟨1, _⟩ =>
    show win0_3.index t 1 * 1 ≤ (i 1 : Nat) ∧ (i 1 : Nat) < win0_3.index t 1 * 1 + 1
    rw [hi.2.1]; omega
  | ⟨2, _⟩ =>
    show win0_3.index t 2 * 128 ≤ (i 2 : Nat) ∧ (i 2 : Nat) < win0_3.index t 2 * 128 + 128
    rw [hi.2.2]; omega

include hold in
/-- The write-back at the last tile of a batch writes the batch's row of the final array. -/
theorem flushed_eq_3 (t : Fin cfg0.N) (hf : (cfg0.win 3).flush t = true) :
    (dats m 0 c).flushed 3 t = ((cfg0.win 3).blk t).view.read (Elt Ideal) (G3 m c) := by
  have h5 : t.val % 6 = 5 := (flush0_3 t).mp hf
  have hi := (index_facts t).2.2.2.1
  funext y
  rw [View.read_apply]
  show (dats m 0 c).after 3 t ((cfg0.win 3).xinj (grid0.coords t) y)
    = G3 m c (((cfg0.win 3).blk t).view.emb y)
  rw [after0_3]
  refine (row_const _ _ (hold t.val t.isLt).o3 _).trans ?_
  rw [h5, Inv.part_five]
  show chain6 (cNeg m c (bat t.val t.isLt)) = chain6 (cNeg m c ((((cfg0.win 3).blk t).view.emb y) 0))
  refine congrArg (fun n => chain6 (cNeg m c n)) (Fin.ext ?_)
  show t.val / 6 = win0_3.index t 0 * 1 + 1 * (y 0).val
  have hy : (y 0).val < 1 := (y 0).isLt
  rw [hi.1]; omega

include hold in
/-- The two write-backs, at points 5 and 11, cover the array: it ends holding the rows of chains. -/
theorem final_3 : (dats m 0 c).arrAt 3 cfg0.N = G3 m c :=
  (dats m 0 c).arrAt_eq_of_cover 3 (G3 m c) (flushed_eq_3 m c hold) fun i => by
    have h0 : (i 0 : Nat) < 2 := (i 0).isLt
    rcases Nat.lt_or_ge (i 0 : Nat) 1 with h | h
    · exact ⟨t0_5, (flush0_3 t0_5).mpr rfl, mem_blk3 t0_5 i (by show (i 0 : Nat) = 5 / 6; omega)⟩
    · exact ⟨t0_11, (flush0_3 t0_11).mpr rfl, mem_blk3 t0_11 i (by show (i 0 : Nat) = 11 / 6; omega)⟩

/-! ### Output 3: the number of pairs with a positive shifted cosine -/

/-- What the array ends holding: row n holds, in every lane, batch n's six contributions added left to right from zero. -/
def G4 : Buf (Elt Ideal) ((c : Thread nD τ).loc main_v2_2) :=
  (fun (i : S2x1x128.Idx) => chain6 (cNp m c (i 0)) : Vec Ideal S2x1x128 .f32)

theorem G4_apply (n : Fin 2) (lane : Fin 128) : G4 m c (ix3 n 0 lane) = chain6 (cNp m c n) := rfl

/-- An index whose batch coordinate is t / 6 lies in the block point t stages. -/
theorem mem_blk4 (t : Fin cfg0.N) (i : S2x1x128.Idx) (h0 : (i 0).val = t.val / 6) :
    i ∈ ((cfg0.win 4).blk t).view.set := by
  have hi := (index_facts t).2.2.2.2.1
  show i ∈ ((View.whole main_v2_2).slice (win0_4.rect t)).set
  rw [View.set_slice_whole, Rect.mem_set_unit]
  intro a
  have h1 : (i 1 : Nat) < 1 := (i 1).isLt
  have h2 : (i 2 : Nat) < 128 := (i 2).isLt
  match a with
  | ⟨0, _⟩ =>
    show win0_4.index t 0 * 1 ≤ (i 0 : Nat) ∧ (i 0 : Nat) < win0_4.index t 0 * 1 + 1
    rw [hi.1]; omega
  | ⟨1, _⟩ =>
    show win0_4.index t 1 * 1 ≤ (i 1 : Nat) ∧ (i 1 : Nat) < win0_4.index t 1 * 1 + 1
    rw [hi.2.1]; omega
  | ⟨2, _⟩ =>
    show win0_4.index t 2 * 128 ≤ (i 2 : Nat) ∧ (i 2 : Nat) < win0_4.index t 2 * 128 + 128
    rw [hi.2.2]; omega

include hold in
/-- The write-back at the last tile of a batch writes the batch's row of the final array. -/
theorem flushed_eq_4 (t : Fin cfg0.N) (hf : (cfg0.win 4).flush t = true) :
    (dats m 0 c).flushed 4 t = ((cfg0.win 4).blk t).view.read (Elt Ideal) (G4 m c) := by
  have h5 : t.val % 6 = 5 := (flush0_4 t).mp hf
  have hi := (index_facts t).2.2.2.2.1
  funext y
  rw [View.read_apply]
  show (dats m 0 c).after 4 t ((cfg0.win 4).xinj (grid0.coords t) y)
    = G4 m c (((cfg0.win 4).blk t).view.emb y)
  rw [after0_4]
  refine (row_const _ _ (hold t.val t.isLt).o4 _).trans ?_
  rw [h5, Inv.part_five]
  show chain6 (cNp m c (bat t.val t.isLt)) = chain6 (cNp m c ((((cfg0.win 4).blk t).view.emb y) 0))
  refine congrArg (fun n => chain6 (cNp m c n)) (Fin.ext ?_)
  show t.val / 6 = win0_4.index t 0 * 1 + 1 * (y 0).val
  have hy : (y 0).val < 1 := (y 0).isLt
  rw [hi.1]; omega

include hold in
/-- The two write-backs, at points 5 and 11, cover the array: it ends holding the rows of chains. -/
theorem final_4 : (dats m 0 c).arrAt 4 cfg0.N = G4 m c :=
  (dats m 0 c).arrAt_eq_of_cover 4 (G4 m c) (flushed_eq_4 m c hold) fun i => by
    have h0 : (i 0 : Nat) < 2 := (i 0).isLt
    rcases Nat.lt_or_ge (i 0 : Nat) 1 with h | h
    · exact ⟨t0_5, (flush0_4 t0_5).mpr rfl, mem_blk4 t0_5 i (by show (i 0 : Nat) = 5 / 6; omega)⟩
    · exact ⟨t0_11, (flush0_4 t0_11).mpr rfl, mem_blk4 t0_11 i (by show (i 0 : Nat) = 11 / 6; omega)⟩

/-! ### Output 4: the number of pairs with a negative shifted cosine -/

/-- What the array ends holding: row n holds, in every lane, batch n's six contributions added left to right from zero. -/
def G5 : Buf (Elt Ideal) ((c : Thread nD τ).loc main_v2_3) :=
  (fun (i : S2x1x128.Idx) => chain6 (cNn m c (i 0)) : Vec Ideal S2x1x128 .f32)

theorem G5_apply (n : Fin 2) (lane : Fin 128) : G5 m c (ix3 n 0 lane) = chain6 (cNn m c n) := rfl

/-- An index whose batch coordinate is t / 6 lies in the block point t stages. -/
theorem mem_blk5 (t : Fin cfg0.N) (i : S2x1x128.Idx) (h0 : (i 0).val = t.val / 6) :
    i ∈ ((cfg0.win 5).blk t).view.set := by
  have hi := (index_facts t).2.2.2.2.2
  show i ∈ ((View.whole main_v2_3).slice (win0_5.rect t)).set
  rw [View.set_slice_whole, Rect.mem_set_unit]
  intro a
  have h1 : (i 1 : Nat) < 1 := (i 1).isLt
  have h2 : (i 2 : Nat) < 128 := (i 2).isLt
  match a with
  | ⟨0, _⟩ =>
    show win0_5.index t 0 * 1 ≤ (i 0 : Nat) ∧ (i 0 : Nat) < win0_5.index t 0 * 1 + 1
    rw [hi.1]; omega
  | ⟨1, _⟩ =>
    show win0_5.index t 1 * 1 ≤ (i 1 : Nat) ∧ (i 1 : Nat) < win0_5.index t 1 * 1 + 1
    rw [hi.2.1]; omega
  | ⟨2, _⟩ =>
    show win0_5.index t 2 * 128 ≤ (i 2 : Nat) ∧ (i 2 : Nat) < win0_5.index t 2 * 128 + 128
    rw [hi.2.2]; omega

include hold in
/-- The write-back at the last tile of a batch writes the batch's row of the final array. -/
theorem flushed_eq_5 (t : Fin cfg0.N) (hf : (cfg0.win 5).flush t = true) :
    (dats m 0 c).flushed 5 t = ((cfg0.win 5).blk t).view.read (Elt Ideal) (G5 m c) := by
  have h5 : t.val % 6 = 5 := (flush0_5 t).mp hf
  have hi := (index_facts t).2.2.2.2.2
  funext y
  rw [View.read_apply]
  show (dats m 0 c).after 5 t ((cfg0.win 5).xinj (grid0.coords t) y)
    = G5 m c (((cfg0.win 5).blk t).view.emb y)
  rw [after0_5]
  refine (row_const _ _ (hold t.val t.isLt).o5 _).trans ?_
  rw [h5, Inv.part_five]
  show chain6 (cNn m c (bat t.val t.isLt)) = chain6 (cNn m c ((((cfg0.win 5).blk t).view.emb y) 0))
  refine congrArg (fun n => chain6 (cNn m c n)) (Fin.ext ?_)
  show t.val / 6 = win0_5.index t 0 * 1 + 1 * (y 0).val
  have hy : (y 0).val < 1 := (y 0).isLt
  rw [hi.1]; omega

include hold in
/-- The two write-backs, at points 5 and 11, cover the array: it ends holding the rows of chains. -/
theorem final_5 : (dats m 0 c).arrAt 5 cfg0.N = G5 m c :=
  (dats m 0 c).arrAt_eq_of_cover 5 (G5 m c) (flushed_eq_5 m c hold) fun i => by
    have h0 : (i 0 : Nat) < 2 := (i 0).isLt
    rcases Nat.lt_or_ge (i 0 : Nat) 1 with h | h
    · exact ⟨t0_5, (flush0_5 t0_5).mpr rfl, mem_blk5 t0_5 i (by show (i 0 : Nat) = 5 / 6; omega)⟩
    · exact ⟨t0_11, (flush0_5 t0_11).mpr rfl, mem_blk5 t0_11 i (by show (i 0 : Nat) = 11 / 6; omega)⟩

/-! ### The totals -/

include hold in
/-- The first output's first lane, summed over the batches, is the positive total. -/
theorem total_pos :
    TailSum.firstLaneSum (F := Ideal) ((dats m 0 c).arrAt 2 cfg0.N) = fun _ => PairLoss.posTot (Inv.XX m c) (Inv.YY m c) := by
  rw [final_2 m c hold, TailSum.firstLaneSum_chain (G2 m c) (fun n => chain6 (cPos m c n)) (G2_apply m c)]
  funext _
  exact kernel_pos (X := Inv.XX m c) (Y := Inv.YY m c)

/-- The second output's first lane, summed over the batches, is the negative total (for real-valued inputs). -/
theorem total_neg (hold : ∀ t h, Inv.Holds m c t h) (hX : ∀ i, ∃ r : ℝ, Inv.XX m c i = (r : EReal))
    (hY : ∀ i, ∃ r : ℝ, Inv.YY m c i = (r : EReal)) :
    TailSum.firstLaneSum (F := Ideal) ((dats m 0 c).arrAt 3 cfg0.N) = fun _ => PairLoss.negTot (Inv.XX m c) (Inv.YY m c) := by
  rw [final_3 m c hold, TailSum.firstLaneSum_chain (G3 m c) (fun n => chain6 (cNeg m c n)) (G3_apply m c)]
  funext _
  exact kernel_neg (Inv.XX m c) (Inv.YY m c) hX hY

include hold in
/-- The third output's first lane, summed over the batches, is the number of pairs with a positive shifted cosine. -/
theorem total_npos :
    TailSum.firstLaneSum (F := Ideal) ((dats m 0 c).arrAt 4 cfg0.N) = fun _ => PairLoss.nPos (Inv.XX m c) := by
  rw [final_4 m c hold, TailSum.firstLaneSum_chain (G4 m c) (fun n => chain6 (cNp m c n)) (G4_apply m c)]
  funext _
  exact kernel_npos (Inv.XX m c)

include hold in
/-- The fourth output's first lane, summed over the batches, is the number of pairs with a negative shifted cosine. -/
theorem total_nneg :
    TailSum.firstLaneSum (F := Ideal) ((dats m 0 c).arrAt 5 cfg0.N) = fun _ => PairLoss.nNeg (Inv.XX m c) := by
  rw [final_5 m c hold, TailSum.firstLaneSum_chain (G5 m c) (fun n => chain6 (cNn m c n)) (G5_apply m c)]
  funext _
  exact kernel_nneg (Inv.XX m c)

end Cert.KernelIdeal.Final

end
-- ==== Proof.KernelPieces.lean ====
/-
  What the kernel body stores, read back as pure terms of what it loaded.

  In the body's reset branch (the first tile of a batch) the three scratch buffers are stored whole — the unit rows, the
  exponentials, the row sums — and each output row is stored twice: zero, then zero plus the tile's contribution, whose
  operands are read back from the buffers just stored. In the other branch each output row is stored once: what it held
  plus the tile's contribution, whose operands are the carried scratch. A load of the 384 rows of a tile is a partial
  load at the row offset the grid position gives; every other load and store is of a whole buffer.
-/
import proofs.«138893_j63505386438847_2_alg».proof.Proof.Gen.KernelIdeal.Frame.RunB
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 384 rows of the unit-row scratch that a point's tile reads. -/
abbrev tileRows (i : grid0.Coords) (s0 : Vec F S2304x384 .bf16) : Vec F S384x384 .bf16 :=
  View.ld s0 (Rect.unit (s := S2304x384) (k0_off1 i) S384x384.size (k0_off1_inb i))
/-- The 384 rows of the log-probability block that a point's tile reads. -/
abbrev tileLogp (i : grid0.Coords) (x1 : Vec F S1x2304x16 .f32) : Vec F S1x384x16 .f32 :=
  View.ld x1 (Rect.unit (s := S1x2304x16) (k0_off2 i) S1x384x16.size (k0_off2_inb i))

/-- What one whole-buffer store over anything leaves, read back. -/
theorem read_one_store {sig : RefSig} {κ : Kind} {sp : Space} {S : Shape} {e : EltTy} (v : View sig κ sp S e)
    {off : Fin S.rank → Nat} (h : off = fun _ => 0) (inb : ∀ a, off a + S.size a ≤ S.size a) (w : S.Idx → Elt F e) :
    v.read (Elt F) (v.writes (Elt F) v.junk [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- Later tiles, output row 2: the tile's positive total added to what the row held. -/
theorem pieceB2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec F S1x2304x384 .f32) (x1 : Vec F S1x2304x16 .f32) (xo2 xo3 xo4 xo5 : Vec F S1x1x128 .f32) (xs0 : Vec F S2304x384 .bf16) (xs1 : Vec F S2304x16 .f32) (xs2 : Vec F S2304x1 .f32) :
    View.canon (kernelRun0_B c i arg2 harg2 arg3 harg3 arg4 harg4 arg5 harg5 arg6 harg6 arg7 harg7 arg8 harg8 arg9 harg9 arg10 harg10 hc0 x0 x1 xo2 xo3 xo4 xo5 xs0 xs1 xs2).1
      = k0_pay19 (k0_pay15 (tileRows i xs0) (tileLogp i x1) xs0 xs1 xs2) xo2 := by
  unfold kernelRun0_B
  dsimp only
  sl_unfold_run_names
  rw [View.canon_unit_zero hz3]
  simp only [View.readAt_eq_ld, harg8.read_unread, harg3.read_unread, harg9.read_unread, harg10.read_unread, harg4.read_unread,
    harg5.read_unread, harg6.read_unread, harg7.read_unread,
    View.ld_unit_zero (S := S2304x384) hz2, View.ld_unit_zero (S := S2304x16) hz2, View.ld_unit_zero (S := S2304x1) hz2,
    View.ld_unit_zero (S := S1x1x128) hz3]

/-- Later tiles, output row 3: the tile's whole total minus its positive total, added to what the row held. -/
theorem pieceB3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec F S1x2304x384 .f32) (x1 : Vec F S1x2304x16 .f32) (xo2 xo3 xo4 xo5 : Vec F S1x1x128 .f32) (xs0 : Vec F S2304x384 .bf16) (xs1 : Vec F S2304x16 .f32) (xs2 : Vec F S2304x1 .f32) :
    View.canon (kernelRun0_B c i arg2 harg2 arg3 harg3 arg4 harg4 arg5 harg5 arg6 harg6 arg7 harg7 arg8 harg8 arg9 harg9 arg10 harg10 hc0 x0 x1 xo2 xo3 xo4 xo5 xs0 xs1 xs2).2.1
      = k0_pay20 (k0_pay16 (tileRows i xs0) (tileLogp i x1) xs0 xs1 xs2) xo3 := by
  unfold kernelRun0_B
  dsimp only
  sl_unfold_run_names
  rw [View.canon_unit_zero hz3]
  simp only [View.readAt_eq_ld, harg8.read_unread, harg3.read_unread, harg9.read_unread, harg10.read_unread, harg4.read_unread,
    harg5.read_unread, harg6.read_unread, harg7.read_unread,
    View.ld_unit_zero (S := S2304x384) hz2, View.ld_unit_zero (S := S2304x16) hz2, View.ld_unit_zero (S := S2304x1) hz2,
    View.ld_unit_zero (S := S1x1x128) hz3]

/-- Later tiles, output row 4: the tile's count of positive pairs added to what the row held. -/
theorem pieceB4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec F S1x2304x384 .f32) (x1 : Vec F S1x2304x16 .f32) (xo2 xo3 xo4 xo5 : Vec F S1x1x128 .f32) (xs0 : Vec F S2304x384 .bf16) (xs1 : Vec F S2304x16 .f32) (xs2 : Vec F S2304x1 .f32) :
    View.canon (kernelRun0_B c i arg2 harg2 arg3 harg3 arg4 harg4 arg5 harg5 arg6 harg6 arg7 harg7 arg8 harg8 arg9 harg9 arg10 harg10 hc0 x0 x1 xo2 xo3 xo4 xo5 xs0 xs1 xs2).2.2.1
      = k0_pay1 (k0_pay21 (k0_pay17 (tileRows i xs0) xs0) xo4) := by
  unfold kernelRun0_B
  dsimp only
  sl_unfold_run_names
  rw [View.canon_unit_zero hz3]
  simp only [View.readAt_eq_ld, harg8.read_unread, harg3.read_unread, harg9.read_unread, harg10.read_unread, harg4.read_unread,
    harg5.read_unread, harg6.read_unread, harg7.read_unread,
    View.ld_unit_zero (S := S2304x384) hz2, View.ld_unit_zero (S := S2304x16) hz2, View.ld_unit_zero (S := S2304x1) hz2,
    View.ld_unit_zero (S := S1x1x128) hz3]

/-- Later tiles, output row 5: the tile's count of negative pairs added to what the row held. -/
theorem pieceB5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec F S1x2304x384 .f32) (x1 : Vec F S1x2304x16 .f32) (xo2 xo3 xo4 xo5 : Vec F S1x1x128 .f32) (xs0 : Vec F S2304x384 .bf16) (xs1 : Vec F S2304x16 .f32) (xs2 : Vec F S2304x1 .f32) :
    View.canon (kernelRun0_B c i arg2 harg2 arg3 harg3 arg4 harg4 arg5 harg5 arg6 harg6 arg7 harg7 arg8 harg8 arg9 harg9 arg10 harg10 hc0 x0 x1 xo2 xo3 xo4 xo5 xs0 xs1 xs2).2.2.2.1
      = k0_pay2 (k0_pay18 (k0_pay13 (tileRows i xs0) xs0)) xo5 := by
  unfold kernelRun0_B
  dsimp only
  sl_unfold_run_names
  rw [View.canon_unit_zero hz3]
  simp only [View.readAt_eq_ld, harg8.read_unread, harg3.read_unread, harg9.read_unread, harg10.read_unread, harg4.read_unread,
    harg5.read_unread, harg6.read_unread, harg7.read_unread,
    View.ld_unit_zero (S := S2304x384) hz2, View.ld_unit_zero (S := S2304x16) hz2, View.ld_unit_zero (S := S2304x1) hz2,
    View.ld_unit_zero (S := S1x1x128) hz3]

/-- First tile of a batch: the unit rows stored into the first scratch buffer. -/
theorem pieceAS0 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.2.2.2.1
      = k0_pay3 x0 := by
  unfold kernelRun0_A
  dsimp only
  sl_unfold_run_names
  rw [View.canon_unit_zero hz2]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch: the exponentials stored into the second scratch buffer. -/
theorem pieceAS1 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.2.2.2.2.1
      = k0_pay6 x1 := by
  unfold kernelRun0_A
  dsimp only
  sl_unfold_run_names
  rw [View.canon_unit_zero hz2]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch: the row sums Σ_k e^{Y}·Y stored into the third scratch buffer. -/
theorem pieceAS2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.2.2.2.2.2.1
      = k0_pay7 x1 := by
  unfold kernelRun0_A
  dsimp only
  sl_unfold_run_names
  rw [View.canon_unit_zero hz2]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch, output row 2: reset to zero, then the tile's positive total added. -/
theorem pieceA2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).1
      = k0_pay19 (k0_pay15 (tileRows i (k0_pay3 x0)) (tileLogp i x1) (k0_pay3 x0) (k0_pay6 x1) (k0_pay7 x1)) k0_pay8 := by
  unfold kernelRun0_A
  dsimp only
  sl_unfold_run_names
  rw [View.canon_cons_unit_zero hz3]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch, output row 3. -/
theorem pieceA3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.1
      = k0_pay20 (k0_pay16 (tileRows i (k0_pay3 x0)) (tileLogp i x1) (k0_pay3 x0) (k0_pay6 x1) (k0_pay7 x1)) (k0_pay10 k0_pay9) := by
  unfold kernelRun0_A
  dsimp only
  sl_unfold_run_names
  rw [View.canon_cons_unit_zero hz3]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch, output row 4. -/
theorem pieceA4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.2.1
      = k0_pay1 (k0_pay21 (k0_pay17 (tileRows i (k0_pay3 x0)) (k0_pay3 x0)) k0_pay11) := by
  unfold kernelRun0_A
  dsimp only
  sl_unfold_run_names
  rw [View.canon_cons_unit_zero hz3]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

/-- First tile of a batch, output row 5. -/
theorem pieceA5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec F S1x2304x384 .f32) (x1 : Vec F S1x2304x16 .f32) :
    View.canon (kernelRun0_A c i arg2 harg2 arg3 harg3 arg4 harg4 arg5 harg5 arg6 harg6 arg7 harg7 arg8 harg8 arg9 harg9 arg10 harg10 hc0 x0 x1).2.2.2.1
      = k0_pay2 (k0_pay18 (k0_pay13 (tileRows i (k0_pay3 x0)) (k0_pay3 x0))) k0_pay12 := by
  unfold kernelRun0_A
  dsimp only
  sl_unfold_run_names
  rw [View.canon_cons_unit_zero hz3]
  simp only [View.readAt_eq_ld, harg2.read_unread, harg3.read_unread, read_one_store (S := S2304x384) _ hz2,
    View.readCov_unit_zero (S := S2304x384) _ hz2, View.readCov_unit_zero (S := S2304x16) _ hz2, View.readCov_unit_zero (S := S2304x1) _ hz2,
    View.readCov_unit_zero (S := S1x1x128) _ hz3,
    View.ld_unit_zero (S := S1x2304x384) hz3, View.ld_unit_zero (S := S1x2304x16) hz3,
    View.ld_unit_zero (S := S2304x384) hz2, View.ld_unit_zero (S := S2304x16) hz2, View.ld_unit_zero (S := S2304x1) hz2,
    View.ld_unit_zero (S := S1x1x128) hz3]

end Cert.KernelIdeal.Pieces

end
-- ==== Proof.LibRowReduce.lean ====
/-
  Reductions along the rows of a matrix kept as a column, and the two spreads of a column and of a row over a matrix, read
  at an index — generic in the two extents.

  For an [A, B] array x:
  * a lane reduction by maximum (minimum) from the word w, re-laid as an [A, 1] column, holds at (p, u) the fold of max
    (min) from the value of w over the B entries x(p, ·) (`rowMax`, `rowMin`); a lane reduction by addition from the
    zero word holds their sum (`rowSum`);
  * a [1, B] row spread over the A rows of an [A, B] array holds at (p, l) the row's entry l (`broadcastTo_1b_ab_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx
import Idealize.ShloMosaic.Lib.ValueLayout

noncomputable section

open scoped BigOperators

namespace Cert.Lib.RowReduce

open Idealize.ShloMosaic Idealize.ShloMosaic.ValueIdx

variable {A B : Nat}

/-- The index of row p with l inserted on the second axis is (p, l). -/
theorem lift_row (h : (⟨2, ![A, B]⟩ : Shape).Reduces [1] ⟨1, ![A]⟩) (p : Fin A) (l : Fin B) :
    h.lift (ix1 p) l = ix2 p l :=
  funext fun ax => Fin.ext (by match ax with | ⟨0, _⟩ => rfl | ⟨1, _⟩ => rfl)

/-- An [A] vector re-laid as an [A, 1] column reads at (p, u) the vector's entry p. -/
theorem col_apply {α : Type} (x : (⟨1, ![A]⟩ : Shape).Idx → α) (hc : (⟨1, ![A]⟩ : Shape).ShapeCasts ⟨2, ![A, 1]⟩)
    (p : Fin A) (u : Fin 1) : shapeCast ⟨2, ![A, 1]⟩ x hc (ix2 p u) = x (ix1 p) :=
  shapeCast_apply x hc _ _ (by
    have hu : u.val = 0 := by omega
    rw [Shape.rowMajor_val_two, Shape.rowMajor_val_one]
    show p.val = p.val * 1 + u.val
    omega)

/-- The maximum along each row, kept as a column. -/
theorem rowMax (x : FVec Ideal ⟨2, ![A, B]⟩ .f32) (w : BitVec 32)
    (h : (⟨2, ![A, B]⟩ : Shape).Reduces [1] ⟨1, ![A]⟩) (hφ : FKind.Formats .f32)
    (hacc : w = FKind.maximumf.neutral .f32 hφ) (hc : (⟨1, ![A]⟩ : Shape).ShapeCasts ⟨2, ![A, 1]⟩) (p : Fin A) (u : Fin 1) :
    shapeCast ⟨2, ![A, 1]⟩ (multiReduction .maximumf [1] ⟨1, ![A]⟩ x w h hφ hacc) hc (ix2 p u)
      = (Finset.univ : Finset (Fin B)).fold max (Ideal.ofBits .f32 w) (fun l => x (ix2 p l)) := by
  rw [col_apply]
  refine (Ideal.multiReduction_maximumf_single x w h hφ hacc (ix1 p)).trans ?_
  exact congrArg (fun g => (Finset.univ : Finset (Fin B)).fold max (Ideal.ofBits .f32 w) g) (funext fun l => congrArg x (lift_row h p l))

/-- The minimum along each row, kept as a column. -/
theorem rowMin (x : FVec Ideal ⟨2, ![A, B]⟩ .f32) (w : BitVec 32)
    (h : (⟨2, ![A, B]⟩ : Shape).Reduces [1] ⟨1, ![A]⟩) (hφ : FKind.Formats .f32)
    (hacc : w = FKind.minimumf.neutral .f32 hφ) (hc : (⟨1, ![A]⟩ : Shape).ShapeCasts ⟨2, ![A, 1]⟩) (p : Fin A) (u : Fin 1) :
    shapeCast ⟨2, ![A, 1]⟩ (multiReduction .minimumf [1] ⟨1, ![A]⟩ x w h hφ hacc) hc (ix2 p u)
      = (Finset.univ : Finset (Fin B)).fold min (Ideal.ofBits .f32 w) (fun l => x (ix2 p l)) := by
  rw [col_apply]
  refine ((multiReduction_minimumf_eq_fold x w h hφ hacc (ix1 p)).trans (h.fold_filter_drop_single _ _ x (ix1 p))).trans ?_
  exact congrArg (fun g => (Finset.univ : Finset (Fin B)).fold min (Ideal.ofBits .f32 w) g) (funext fun l => congrArg x (lift_row h p l))

/-- The sum along each row, kept as a column. -/
theorem rowSum (x : FVec Ideal ⟨2, ![A, B]⟩ .f32) (w : BitVec 32)
    (h : (⟨2, ![A, B]⟩ : Shape).Reduces [1] ⟨1, ![A]⟩) (hφ : FKind.Formats .f32)
    (hacc : w = FKind.add.neutral .f32 hφ) (hc : (⟨1, ![A]⟩ : Shape).ShapeCasts ⟨2, ![A, 1]⟩) (p : Fin A) (u : Fin 1) :
    shapeCast ⟨2, ![A, 1]⟩ (multiReduction .add [1] ⟨1, ![A]⟩ x w h hφ hacc) hc (ix2 p u) = ∑ l : Fin B, x (ix2 p l) := by
  rw [col_apply]
  refine (Ideal.multiReduction_add_single x w h hφ hacc (ix1 p)).trans ?_
  exact Finset.sum_congr rfl fun l _ => congrArg x (lift_row h p l)

variable {α : Type}

/-- A [1, B] row spread over [A, B] reads at (p, l) the row's entry l. -/
theorem broadcastTo_1b_ab_apply (v : (⟨2, ![1, B]⟩ : Shape).Idx → α) (h : (⟨2, ![1, B]⟩ : Shape).Broadcasts ⟨2, ![A, B]⟩)
    (p : Fin A) (l : Fin B) : broadcastTo ⟨2, ![A, B]⟩ v h (ix2 p l) = v (ix2 (0 : Fin 1) l) := by
  refine broadcastTo_apply v h (ix2 p l) (ix2 (0 : Fin 1) l) fun ax => ?_
  match ax with
  | ⟨0, _⟩ => rfl
  | ⟨1, _⟩ =>
    show l.val = if B = 1 then 0 else l.val
    split
    · have := l.isLt; omega
    · rfl

/-- An [A, 1] column spread over [A, B] reads at (p, l) the column's entry p. -/
theorem broadcastTo_a1_ab_apply (v : (⟨2, ![A, 1]⟩ : Shape).Idx → α) (h : (⟨2, ![A, 1]⟩ : Shape).Broadcasts ⟨2, ![A, B]⟩)
    (p : Fin A) (l : Fin B) : broadcastTo ⟨2, ![A, B]⟩ v h (ix2 p l) = v (ix2 p (0 : Fin 1)) := by
  refine broadcastTo_apply v h (ix2 p l) (ix2 p (0 : Fin 1)) fun ax => ?_
  match ax with
  | ⟨0, _⟩ =>
    show p.val = if A = 1 then 0 else p.val
    split
    · have := p.isLt; omega
    · rfl
  | ⟨1, _⟩ => rfl

end Cert.Lib.RowReduce

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.TileValue.lean ====
/-
  The arithmetic of one grid point, read index by index at the ideal values.

  Each pure value the body computes between its loads and its stores is read here at an index as the expression
  of the pairwise loss it stands for: the two matrix products against the tile's own rows (the shifted cosines
  and the cross terms), the two nested row and column sums giving the tile's four totals, the four accumulators'
  updates, the values the accumulators are reset to, and the three arrays the first tile of a batch prepares
  (the unit rows, the exponentials, and the sums of exponential times log-probability).
-/
import proofs.«138893_j63505386438847_2_alg».proof.Proof.Gen.KernelIdeal.Skeleton
import proofs.«138893_j63505386438847_2_alg».proof.Proof.PairLoss
import proofs.«138893_j63505386438847_2_alg».proof.Proof.LibRowReduce
import proofs.«138893_j63505386438847_2_alg».proof.Proof.LibKeepdims
import proofs.«138893_j63505386438847_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.TileValue

open Idealize.ShloMosaic Idealize.ShloMosaic.ValueIdx Cert.KernelIdeal Cert.KernelIdeal.Gen

/-! ## The accumulators' updates -/

/-- A [1, 1, 128] accumulator plus a [1, 1] value spread over its lanes. -/
theorem acc_add (v : FVec Ideal S1x1 .f32) (w : Vec Ideal S1x1x128 .f32) (lane : Fin 128) :
    shapeCast S1x1x128 (addf (shapeCast S1x128 w shapeCasts_S1x1x128_S1x128)
      (broadcastTo S1x128 (shapeCast S1x1 v shapeCasts_S1x1_S1x1) broadcasts_S1x1_S1x128)) shapeCasts_S1x128_S1x1x128
      (ix3 0 0 lane) = w (ix3 0 0 lane) + v (ix2 0 0) := by
  rw [shapeCast_ab_1ab_apply, addf_apply, shapeCast_1ab_ab_apply, shapeCast_self]
  refine congrArg (fun t => w (ix3 0 0 lane) + t) ?_
  exact broadcastTo_apply v broadcasts_S1x1_S1x128 (ix2 0 lane) (ix2 0 0) fun ax => by
    match ax with
    | ⟨0, _⟩ => rfl
    | ⟨1, _⟩ => rfl

/-- The first accumulator's new contents: the old ones plus the tile's value, lane by lane. -/
theorem pay19_apply (v32 : FVec Ideal S1x1 .f32) (v50 : Vec Ideal S1x1x128 .f32) (lane : Fin 128) :
    k0_pay19 v32 v50 (ix3 0 0 lane) = v50 (ix3 0 0 lane) + v32 (ix2 0 0) := acc_add v32 v50 lane

/-- The second accumulator's new contents. -/
theorem pay20_apply (v33 : FVec Ideal S1x1 .f32) (v58 : Vec Ideal S1x1x128 .f32) (lane : Fin 128) :
    k0_pay20 v33 v58 (ix3 0 0 lane) = v58 (ix3 0 0 lane) + v33 (ix2 0 0) := acc_add v33 v58 lane

/-- The fourth accumulator's new contents, over any [1, 1] value. -/
theorem pay2_add (v49 : FVec Ideal S1x1 .f32) (v74 : Vec Ideal S1x1x128 .f32) (lane : Fin 128) :
    k0_pay2 v49 v74 (ix3 0 0 lane) = v74 (ix3 0 0 lane) + v49 (ix2 0 0) := acc_add v49 v74 lane

/-- The third accumulator's stored value is the [1, 128] row re-laid as [1, 1, 128]. -/
theorem pay1_apply (v70 : FVec Ideal S1x128 .f32) (lane : Fin 128) :
    k0_pay1 v70 (ix3 0 0 lane) = v70 (ix2 0 lane) := by
  unfold k0_pay1
  exact shapeCast_ab_1ab_apply v70 shapeCasts_S1x128_S1x1x128 0 0 lane

/-! ## The values the accumulators are reset to -/

/-- The zero word spread over [1, 128] and re-laid as [1, 1, 128] is 0 everywhere. -/
theorem zero_row (i : S1x1x128.Idx) :
    shapeCast S1x1x128 (broadcast S1x128 (Scalar.ofBits (F := Ideal) .f32 0x00000000#32)) shapeCasts_S1x128_S1x1x128 i = 0 := by
  obtain ⟨u, v, lane, rfl⟩ : ∃ (u : Fin 1) (v : Fin 1) (lane : Fin 128), i = ix3 u v lane := ⟨i 0, i 1, i 2, eq_ix3 i⟩
  rw [shapeCast_ab_1ab_apply, broadcast_apply]
  exact Ideal.ofBits_zero_f32

theorem pay8_eq (i : S1x1x128.Idx) : k0_pay8 (F := Ideal) i = 0 := zero_row i
theorem pay10_eq (i : S1x1x128.Idx) : k0_pay10 (k0_pay9 (F := Ideal)) i = 0 := zero_row i
theorem pay11_eq (i : S1x1x128.Idx) : k0_pay11 (F := Ideal) i = 0 := zero_row i
theorem pay12_eq (i : S1x1x128.Idx) : k0_pay12 (F := Ideal) i = 0 := zero_row i

/-! ## What the first tile of a batch prepares -/

/-- The unit rows: each entry over the larger of its row's norm and ε. -/
theorem pay3_apply (x0 : Vec Ideal S1x2304x384 .f32) (s : Fin 2304) (c : Fin 384) :
    k0_pay3 x0 (ix2 s c)
      = Ideal.div (x0 (ix3 0 s c)) (max (Ideal.sqrt (∑ c' : Fin 384, x0 (ix3 0 s c') * x0 (ix3 0 s c'))) PairLoss.epsW) := by
  unfold k0_pay3
  rw [shapeCast_self, truncf_apply, divf_apply, shapeCast_1ab_ab_apply]
  refine congrArg (Ideal.div (x0 (ix3 0 s c))) ?_
  refine (Cert.LibKeepdims.broadcastTo_a1_ab_apply _ broadcasts_S2304x1_S2304x384 s c).trans ?_
  rw [maximumf_apply, broadcast_apply]
  refine congrArg (fun t => max (Ideal.sqrt t) PairLoss.epsW) ?_
  refine (Cert.Lib.RowReduce.rowSum _ 0x00000000#32 reduces_S2304x384_S2304 (.inl rfl) rfl shapeCasts_S2304_S2304x1 s 0).trans ?_
  refine Finset.sum_congr rfl fun c' _ => ?_
  rw [mulf_apply, shapeCast_1ab_ab_apply]

/-- The exponentials. -/
theorem pay6_apply (x1 : Vec Ideal S1x2304x16 .f32) (s : Fin 2304) (k : Fin 16) :
    k0_pay6 x1 (ix2 s k) = Ideal.exp (x1 (ix3 0 s k)) := by
  unfold k0_pay6 k0_pay5 k0_pay4
  rw [shapeCast_self]
  exact congrArg Ideal.exp (shapeCast_1ab_ab_apply x1 shapeCasts_S1x2304x16_S2304x16 s k)

/-- The sums over the classes of exponential times log-probability. -/
theorem pay7_apply (x1 : Vec Ideal S1x2304x16 .f32) (s : Fin 2304) :
    k0_pay7 x1 (ix2 s 0) = ∑ k : Fin 16, Ideal.exp (x1 (ix3 0 s k)) * x1 (ix3 0 s k) := by
  unfold k0_pay7 k0_pay5 k0_pay4
  rw [shapeCast_self]
  refine (Cert.Lib.RowReduce.rowSum _ 0x00000000#32 reduces_S2304x16_S2304 (.inl rfl) rfl shapeCasts_S2304_S2304x1 s 0).trans ?_
  refine Finset.sum_congr rfl fun k _ => ?_
  rw [mulf_apply]
  exact congrArg (fun t => Ideal.exp t * t) (shapeCast_1ab_ab_apply x1 shapeCasts_S1x2304x16_S2304x16 s k)

/-! ## The two matrix products against the tile's own rows -/

/-- The printed dimension numbers of the first product are those of a plain [2304, 384] · [384, 384] product. -/
theorem dotF_eq : dot_S2304x384_S384x384_S2304x384_1_0_0_1_n_n = DotDims.plain 2304 384 384 :=
  Cert.Lib.PlainDot.eq_plain _ rfl rfl rfl rfl rfl rfl

/-- The printed dimension numbers of the second product are those of a plain [2304, 16] · [16, 384] product. -/
theorem dotP_eq : dot_S2304x16_S16x384_S2304x384_1_0_0_1_n_n = DotDims.plain 2304 16 384 :=
  Cert.Lib.PlainDot.eq_plain _ rfl rfl rfl rfl rfl rfl

section Tile

variable (v6 : Vec Ideal S384x384 .bf16) (v8 : Vec Ideal S1x384x16 .f32) (v10 : Vec Ideal S2304x384 .bf16)
  (v15 : Vec Ideal S2304x16 .f32) (v18 : Vec Ideal S2304x1 .f32)
  (U : Fin 2304 → Fin 384 → EReal) (Ul : Fin 384 → Fin 384 → EReal)
  (E : Fin 2304 → Fin 16 → EReal) (H : Fin 2304 → EReal) (Yl : Fin 384 → Fin 16 → EReal)

/-- The shifted cosine of row s and the tile's row l: the product of the unit rows with the transposed tile rows,
    minus the shift. -/
theorem pay13_apply (h10 : ∀ s c, v10 (ix2 s c) = U s c) (h6 : ∀ l c, v6 (ix2 l c) = Ul l c) (s : Fin 2304) (l : Fin 384) :
    k0_pay13 v6 v10 (ix2 s l) = PairLoss.fcT U Ul s l := by
  unfold k0_pay13 PairLoss.fcT
  rw [subf_apply, broadcast_apply, dotF_eq]
  refine congrArg (fun t => t - PairLoss.shiftW) ?_
  refine (Cert.Lib.PlainDot.matmul_zero_plain_apply none v10 _ (ix2 s l)).trans ?_
  refine Finset.sum_congr rfl fun c _ => ?_
  show v10 (ix2 s c) * transpose S384x384 [1, 0] v6 transposes_S384x384_p1_0_S384x384 (ix2 c l) = U s c * Ul l c
  rw [transpose_ix2_apply, h10, h6]

/-- The cross term of row s and the tile's row l: the row's sum minus the product of the exponentials with the
    transposed tile log-probabilities. -/
theorem pay14_apply (h8 : ∀ l k, v8 (ix3 0 l k) = Yl l k) (h15 : ∀ s k, v15 (ix2 s k) = E s k)
    (h18 : ∀ s, v18 (ix2 s 0) = H s) (s : Fin 2304) (l : Fin 384) :
    k0_pay14 v8 v15 v18 (ix2 s l) = PairLoss.pcT E H Yl s l := by
  unfold k0_pay14 PairLoss.pcT
  rw [subf_apply, dotP_eq]
  refine congrArg₂ (fun a b => a - b) ?_ ?_
  · exact (Cert.LibKeepdims.broadcastTo_a1_ab_apply v18 broadcasts_S2304x1_S2304x384 s l).trans (h18 s)
  · refine (Cert.Lib.PlainDot.matmul_zero_plain_apply (some .fp32) v15 _ (ix2 s l)).trans ?_
    refine Finset.sum_congr rfl fun k _ => ?_
    show v15 (ix2 s k) * transpose S16x384 [1, 0] (shapeCast S384x16 v8 shapeCasts_S1x384x16_S384x16)
      transposes_S384x16_p1_0_S16x384 (ix2 k l) = E s k * Yl l k
    rw [transpose_ix2_apply, shapeCast_1ab_ab_apply, h15, h8]

end Tile

/-! ## A sum along each row, then down the column -/

/-- The one entry u of a [1] vector with row p inserted on the first axis of a [2304, 1] column is (p, u). -/
theorem lift_col (h : S2304x1.Reduces [0] S1) (u : Fin 1) (p : Fin 2304) : h.lift (ix1 u) p = ix2 p u :=
  funext fun ax => Fin.ext (by match ax with | ⟨0, _⟩ => rfl | ⟨1, _⟩ => rfl)

/-- The sums along the rows kept as a column, summed down the column and re-laid as [1, 1]: the sum of all entries. -/
theorem total_apply (x : FVec Ideal S2304x384 .f32) (i : S1x1.Idx) :
    shapeCast S1x1 (multiReduction .add [0] S1
      (shapeCast S2304x1 (multiReduction .add [1] S2304 x 0x00000000#32 reduces_S2304x384_S2304 (.inl rfl) rfl)
        shapeCasts_S2304_S2304x1)
      0x00000000#32 reduces_S2304x1_S1 (.inl rfl) rfl) shapeCasts_S1_S1x1 i
      = ∑ s : Fin 2304, ∑ l : Fin 384, x (ix2 s l) := by
  obtain ⟨u, v, rfl⟩ : ∃ (u : Fin 1) (v : Fin 1), i = ix2 u v := ⟨i 0, i 1, eq_ix2 i⟩
  rw [shapeCast_a_1a_apply]
  refine (Ideal.multiReduction_add_single _ 0x00000000#32 reduces_S2304x1_S1 (.inl rfl) rfl (ix1 v)).trans ?_
  refine Finset.sum_congr rfl fun s _ => ?_
  refine (congrArg _ (lift_col reduces_S2304x1_S1 v s)).trans ?_
  exact Cert.Lib.RowReduce.rowSum x 0x00000000#32 reduces_S2304x384_S2304 (.inl rfl) rfl shapeCasts_S2304_S2304x1 s v

/-- A [1, 1] value spread over [1, 128] reads its one entry at every lane. -/
theorem spread_apply (v : FVec Ideal S1x1 .f32) (lane : Fin 128) :
    broadcastTo S1x128 v broadcasts_S1x1_S1x128 (ix2 0 lane) = v (ix2 0 0) :=
  broadcastTo_apply v broadcasts_S1x1_S1x128 (ix2 0 lane) (ix2 0 0) fun ax => by
    match ax with
    | ⟨0, _⟩ => rfl
    | ⟨1, _⟩ => rfl

/-! ## A comparison's flag as a number -/

/-- A one-bit flag widened to 32 bits and read as a signed integer is 1 or 0. -/
theorem flag_value (b : Bool) :
    FloatOps.sitofp (F := Ideal) .f32 ((BitVec.ofBool b).setWidth 32) = if b then (1 : EReal) else 0 := by
  cases b
  · show (((((BitVec.ofBool false).setWidth 32).toInt : ℤ) : ℝ) : EReal) = 0
    have e : ((BitVec.ofBool false).setWidth 32).toInt = 0 := by decide
    rw [e]; simp
  · show (((((BitVec.ofBool true).setWidth 32).toInt : ℤ) : ℝ) : EReal) = 1
    have e : ((BitVec.ofBool true).setWidth 32).toInt = 1 := by decide
    rw [e]; simp

/-- "Greater than the zero word", widened and converted, is 1 where the value is positive and 0 elsewhere. -/
theorem pos_flag (x : EReal) :
    FloatOps.sitofp (F := Ideal) .f32
      ((FloatOps.cmpf (F := Ideal) (φ := .f32) .ogt x (Scalar.ofBits .f32 0x00000000#32)).setWidth 32)
      = if 0 < x then (1 : EReal) else 0 := by
  show FloatOps.sitofp (F := Ideal) .f32 ((BitVec.ofBool (decide (Ideal.ofBits .f32 0x00000000#32 < x))).setWidth 32) = _
  rw [flag_value, Ideal.ofBits_zero_f32]
  by_cases h : 0 < x <;> simp [h]

/-- "Less than the zero word", widened and converted, is 1 where the value is negative and 0 elsewhere. -/
theorem neg_flag (x : EReal) :
    FloatOps.sitofp (F := Ideal) .f32
      ((FloatOps.cmpf (F := Ideal) (φ := .f32) .olt x (Scalar.ofBits .f32 0x00000000#32)).setWidth 32)
      = if x < 0 then (1 : EReal) else 0 := by
  show FloatOps.sitofp (F := Ideal) .f32 ((BitVec.ofBool (decide (x < Ideal.ofBits .f32 0x00000000#32))).setWidth 32) = _
  rw [flag_value, Ideal.ofBits_zero_f32]
  by_cases h : x < 0 <;> simp [h]

/-! ## The tile's four totals -/

section Totals

variable (v6 : Vec Ideal S384x384 .bf16) (v8 : Vec Ideal S1x384x16 .f32) (v10 : Vec Ideal S2304x384 .bf16)
  (v15 : Vec Ideal S2304x16 .f32) (v18 : Vec Ideal S2304x1 .f32)
  (U : Fin 2304 → Fin 384 → EReal) (Ul : Fin 384 → Fin 384 → EReal)
  (E : Fin 2304 → Fin 16 → EReal) (H : Fin 2304 → EReal) (Yl : Fin 384 → Fin 16 → EReal)

/-- The tile's total of positive part of the shifted cosine times the cross term. -/
theorem pay15_eq (h10 : ∀ s c, v10 (ix2 s c) = U s c) (h6 : ∀ l c, v6 (ix2 l c) = Ul l c)
    (h8 : ∀ l k, v8 (ix3 0 l k) = Yl l k) (h15 : ∀ s k, v15 (ix2 s k) = E s k) (h18 : ∀ s, v18 (ix2 s 0) = H s)
    (i : S1x1.Idx) : k0_pay15 v6 v8 v10 v15 v18 i = PairLoss.posT U Ul E H Yl := by
  unfold k0_pay15 PairLoss.posT
  refine (total_apply _ i).trans ?_
  refine Finset.sum_congr rfl fun s _ => Finset.sum_congr rfl fun l _ => ?_
  rw [mulf_apply, maximumf_apply, broadcast_apply, pay13_apply v6 v10 U Ul h10 h6,
    pay14_apply v8 v15 v18 E H Yl h8 h15 h18]
  exact congrArg (fun t => max (PairLoss.fcT U Ul s l) t * PairLoss.pcT E H Yl s l) Ideal.ofBits_zero_f32

/-- The tile's total of shifted cosine times cross term, minus the positive part's total. -/
theorem pay16_eq (h10 : ∀ s c, v10 (ix2 s c) = U s c) (h6 : ∀ l c, v6 (ix2 l c) = Ul l c)
    (h8 : ∀ l k, v8 (ix3 0 l k) = Yl l k) (h15 : ∀ s k, v15 (ix2 s k) = E s k) (h18 : ∀ s, v18 (ix2 s 0) = H s)
    (i : S1x1.Idx) :
    k0_pay16 v6 v8 v10 v15 v18 i = PairLoss.totT U Ul E H Yl - PairLoss.posT U Ul E H Yl := by
  unfold k0_pay16
  rw [subf_apply, pay15_eq v6 v8 v10 v15 v18 U Ul E H Yl h10 h6 h8 h15 h18 i]
  refine congrArg (fun t => t - PairLoss.posT U Ul E H Yl) ?_
  unfold PairLoss.totT
  refine (total_apply _ i).trans ?_
  refine Finset.sum_congr rfl fun s _ => Finset.sum_congr rfl fun l _ => ?_
  rw [mulf_apply, pay13_apply v6 v10 U Ul h10 h6, pay14_apply v8 v15 v18 E H Yl h8 h15 h18]

/-- The third accumulator's new row: the old contents plus the number of pairs of the tile with positive shifted
    cosine. -/
theorem pay21_apply (h10 : ∀ s c, v10 (ix2 s c) = U s c) (h6 : ∀ l c, v6 (ix2 l c) = Ul l c)
    (v66 : Vec Ideal S1x1x128 .f32) (lane : Fin 128) :
    k0_pay21 (k0_pay17 v6 v10) v66 (ix2 0 lane) = v66 (ix3 0 0 lane) + PairLoss.cntPosT U Ul := by
  unfold k0_pay21 PairLoss.cntPosT
  rw [addf_apply, shapeCast_1ab_ab_apply, shapeCast_self, spread_apply]
  refine congrArg (fun t => v66 (ix3 0 0 lane) + t) ?_
  refine (total_apply _ (ix2 0 0)).trans ?_
  refine Finset.sum_congr rfl fun s _ => Finset.sum_congr rfl fun l _ => ?_
  unfold k0_pay17
  rw [sitofp_apply, extui_apply, cmpf_apply, broadcast_apply, pay13_apply v6 v10 U Ul h10 h6]
  exact pos_flag _

/-- The fourth accumulator's new contents: the old ones plus the number of pairs of the tile with negative shifted
    cosine. -/
theorem pay2_apply (h10 : ∀ s c, v10 (ix2 s c) = U s c) (h6 : ∀ l c, v6 (ix2 l c) = Ul l c)
    (v74 : Vec Ideal S1x1x128 .f32) (lane : Fin 128) :
    k0_pay2 (k0_pay18 (k0_pay13 v6 v10)) v74 (ix3 0 0 lane) = v74 (ix3 0 0 lane) + PairLoss.cntNegT U Ul := by
  rw [pay2_add]
  refine congrArg (fun t => v74 (ix3 0 0 lane) + t) ?_
  unfold k0_pay18 PairLoss.cntNegT
  refine (total_apply _ (ix2 0 0)).trans ?_
  refine Finset.sum_congr rfl fun s _ => Finset.sum_congr rfl fun l _ => ?_
  rw [sitofp_apply, extui_apply, cmpf_apply, broadcast_apply, pay13_apply v6 v10 U Ul h10 h6]
  exact neg_flag _

end Totals

end Cert.TileValue

end
-- ==== Proof.KernelStep.lean ====
/-
  The body's two partial loads, read at an index. A load of 384 rows starting at row 384·j of a [2304, 384] buffer reads
  row 384·j + l at its row l; the same for the [1, 2304, 16] block of log-probabilities along its middle axis.
-/
import proofs.«138893_j63505386438847_2_alg».proof.KernelIdeal
import proofs.«138893_j63505386438847_2_alg».proof.Proof.PairLoss
import proofs.«138893_j63505386438847_2_alg».proof.Proof.TileValue
import Idealize.ShloMosaic.Lib.Pipeline.Value
import Idealize.ShloMosaic.Lib.ValueIdx

noncomputable section

open Idealize.ShloMosaic Idealize.ShloMosaic.ValueIdx

namespace Cert.KernelIdeal.Step

open Cert.KernelIdeal Cert.PairLoss

variable {Val : EltTy → Type} {e : EltTy}

/-- Rows 384·j … of a [2304, 384] array through the partial load. -/
theorem ld_rows (Xs : S2304x384.Idx → Val e) (off : Fin 2 → Nat) (inb : ∀ a, off a + S384x384.size a ≤ S2304x384.size a)
    (j : Fin 6) (h0 : off 0 = 384 * j.val) (h1 : off 1 = 0) (l : Fin 384) (k : Fin 384) :
    View.ld Xs (Rect.unit (s := S2304x384) off S384x384.size inb) (ix2 l k) = Xs (ix2 (tileIdx j l) k) := by
  show Xs _ = Xs _
  congr 1
  funext a
  apply Fin.ext
  match a with
  | ⟨0, _⟩ => show off 0 + 1 * l.val = 384 * j.val + l.val; rw [h0]; omega
  | ⟨1, _⟩ => show off 1 + 1 * k.val = k.val; rw [h1]; omega

/-- Rows 384·j … of a [1, 2304, 16] block through the partial load. -/
theorem ld_rows3 (x1 : S1x2304x16.Idx → Val e) (off : Fin 3 → Nat) (inb : ∀ a, off a + S1x384x16.size a ≤ S1x2304x16.size a)
    (j : Fin 6) (h0 : off 0 = 0) (h1 : off 1 = 384 * j.val) (h2 : off 2 = 0) (l : Fin 384) (k : Fin 16) :
    View.ld x1 (Rect.unit (s := S1x2304x16) off S1x384x16.size inb) (ix3 0 l k) = x1 (ix3 0 (tileIdx j l) k) := by
  show x1 _ = x1 _
  congr 1
  funext a
  apply Fin.ext
  match a with
  | ⟨0, _⟩ => show off 0 + 1 * 0 = 0; rw [h0]
  | ⟨1, _⟩ => show off 1 + 1 * l.val = 384 * j.val + l.val; rw [h1]; omega
  | ⟨2, _⟩ => show off 2 + 1 * k.val = k.val; rw [h2]; omega

/-! ## What one grid point adds to each accumulator

The tile's own 384 rows are rows 384·j … of the batch's unit rows and of its log-probabilities, read through the two
partial loads; each accumulator's new contents are the old ones plus the tile's total. -/

section Step

open Cert.KernelIdeal.Gen

variable (scr0 : Vec Ideal S2304x384 .bf16) (scr1 : Vec Ideal S2304x16 .f32) (scr2 : Vec Ideal S2304x1 .f32)
  (x1 : Vec Ideal S1x2304x16 .f32)
  (off1 : Fin 2 → Nat) (inb1 : ∀ a, off1 a + S384x384.size a ≤ S2304x384.size a)
  (off2 : Fin 3 → Nat) (inb2 : ∀ a, off2 a + S1x384x16.size a ≤ S1x2304x16.size a)
  (j : Fin 6) (ho1 : off1 0 = 384 * j.val ∧ off1 1 = 0) (ho2 : off2 0 = 0 ∧ off2 1 = 384 * j.val ∧ off2 2 = 0)
  (U : Fin 2304 → Fin 384 → EReal) (E : Fin 2304 → Fin 16 → EReal) (H : Fin 2304 → EReal)
  (Yn : Fin 2304 → Fin 16 → EReal)
  (h10 : ∀ s k, scr0 (ix2 s k) = U s k) (h15 : ∀ s k, scr1 (ix2 s k) = E s k) (h18 : ∀ s, scr2 (ix2 s 0) = H s)
  (hx1 : ∀ s k, x1 (ix3 0 s k) = Yn s k)

set_option quotPrecheck false in
local notation "tileU" => (View.ld scr0 (Rect.unit (s := S2304x384) off1 S384x384.size inb1) : Vec Ideal S384x384 .bf16)
set_option quotPrecheck false in
local notation "tileY" => (View.ld x1 (Rect.unit (s := S1x2304x16) off2 S1x384x16.size inb2) : Vec Ideal S1x384x16 .f32)

include inb1 inb2 ho1 ho2 h10 h15 h18 hx1

/-- The tile's unit rows are rows 384·j … of the batch's. -/
theorem tileU_apply (l : Fin 384) (k : Fin 384) : tileU (ix2 l k) = U (tileIdx j l) k :=
  (ld_rows scr0 off1 inb1 j ho1.1 ho1.2 l k).trans (h10 _ _)

/-- The tile's log-probabilities are rows 384·j … of the batch's. -/
theorem tileY_apply (l : Fin 384) (k : Fin 16) : tileY (ix3 0 l k) = Yn (tileIdx j l) k :=
  (ld_rows3 x1 off2 inb2 j ho2.1 ho2.2.1 ho2.2.2 l k).trans (hx1 _ _)

/-- The first accumulator gains the tile's total of positive part times cross term. -/
theorem stepPos (prev : Vec Ideal S1x1x128 .f32) (lane : Fin 128) :
    k0_pay19 (k0_pay15 tileU tileY scr0 scr1 scr2) prev (ix3 0 0 lane)
      = prev (ix3 0 0 lane)
        + PairLoss.posT U (fun l k => U (tileIdx j l) k) E H (fun l k => Yn (tileIdx j l) k) := by
  rw [Cert.TileValue.pay19_apply]
  exact congrArg (fun t => prev (ix3 0 0 lane) + t)
    (Cert.TileValue.pay15_eq tileU tileY scr0 scr1 scr2 U _ E H _ h10
      (tileU_apply scr0 scr1 scr2 x1 off1 inb1 off2 inb2 j ho1 ho2 U E H Yn h10 h15 h18 hx1)
      (tileY_apply scr0 scr1 scr2 x1 off1 inb1 off2 inb2 j ho1 ho2 U E H Yn h10 h15 h18 hx1) h15 h18 (ix2 0 0))

/-- The second accumulator gains the tile's total of shifted cosine times cross term minus the positive part's. -/
theorem stepNeg (prev : Vec Ideal S1x1x128 .f32) (lane : Fin 128) :
    k0_pay20 (k0_pay16 tileU tileY scr0 scr1 scr2) prev (ix3 0 0 lane)
      = prev (ix3 0 0 lane)
        + (PairLoss.totT U (fun l k => U (tileIdx j l) k) E H (fun l k => Yn (tileIdx j l) k)
          - PairLoss.posT U (fun l k => U (tileIdx j l) k) E H (fun l k => Yn (tileIdx j l) k)) := by
  rw [Cert.TileValue.pay20_apply]
  exact congrArg (fun t => prev (ix3 0 0 lane) + t)
    (Cert.TileValue.pay16_eq tileU tileY scr0 scr1 scr2 U _ E H _ h10
      (tileU_apply scr0 scr1 scr2 x1 off1 inb1 off2 inb2 j ho1 ho2 U E H Yn h10 h15 h18 hx1)
      (tileY_apply scr0 scr1 scr2 x1 off1 inb1 off2 inb2 j ho1 ho2 U E H Yn h10 h15 h18 hx1) h15 h18 (ix2 0 0))

/-- The third accumulator gains the number of the tile's pairs with positive shifted cosine. -/
theorem stepNp (prev : Vec Ideal S1x1x128 .f32) (lane : Fin 128) :
    k0_pay1 (k0_pay21 (k0_pay17 tileU scr0) prev) (ix3 0 0 lane)
      = prev (ix3 0 0 lane) + PairLoss.cntPosT U (fun l k => U (tileIdx j l) k) := by
  rw [Cert.TileValue.pay1_apply]
  exact Cert.TileValue.pay21_apply tileU scr0 U _ h10
    (tileU_apply scr0 scr1 scr2 x1 off1 inb1 off2 inb2 j ho1 ho2 U E H Yn h10 h15 h18 hx1) prev lane

/-- The fourth accumulator gains the number of the tile's pairs with negative shifted cosine. -/
theorem stepNn (prev : Vec Ideal S1x1x128 .f32) (lane : Fin 128) :
    k0_pay2 (k0_pay18 (k0_pay13 tileU scr0)) prev (ix3 0 0 lane)
      = prev (ix3 0 0 lane) + PairLoss.cntNegT U (fun l k => U (tileIdx j l) k) :=
  Cert.TileValue.pay2_apply tileU scr0 U _ h10
    (tileU_apply scr0 scr1 scr2 x1 off1 inb1 off2 inb2 j ho1 ho2 U E H Yn h10 h15 h18 hx1) prev lane

end Step

end Cert.KernelIdeal.Step

end
-- ==== Proof.KernelCases.lean ====
/-
  What one grid point leaves in each carried buffer, as values on the extended reals.

  At the first tile of a batch (the body's reset branch taken) the three scratch buffers receive the batch's unit rows,
  exponentials and row sums, and each output row is zero plus the tile's contribution. At a later tile the scratch buffers
  are kept and each output row is what the point before left plus the tile's contribution. The contributions are those of
  the 384 rows starting at row 384·j, read from the scratch and from the block of log-probabilities.
-/
import proofs.«138893_j63505386438847_2_alg».proof.Proof.KernelIdealFrameP
import proofs.«138893_j63505386438847_2_alg».proof.Proof.KernelPieces
import proofs.«138893_j63505386438847_2_alg».proof.Proof.KernelStep
import proofs.«138893_j63505386438847_2_alg».proof.Proof.TileValue

set_option maxRecDepth 16384

noncomputable section

open scoped BigOperators
open Idealize.ShloMosaic Idealize.ShloMosaic.TcCoe Idealize.SL.Sem Idealize.ShloMosaic.ValueIdx

namespace Cert.KernelIdeal.Cases

open Cert.KernelIdeal Cert.KernelIdeal.Gen Cert.KernelIdeal.GenP Cert.KernelIdeal.Pieces Cert.KernelIdeal.Step
open Cert.PairLoss Cert.TileValue

/-- The unit rows of a [2304, 384] table. -/
def unitOf (Xn : Fin 2304 → Fin 384 → EReal) (s : Fin 2304) (k : Fin 384) : EReal :=
  Ideal.div (Xn s k) (max (Ideal.sqrt (∑ k' : Fin 384, Xn s k' * Xn s k')) epsW)
/-- The exponentials of a [2304, 16] table. -/
def expOf (Yn : Fin 2304 → Fin 16 → EReal) (s : Fin 2304) (k : Fin 16) : EReal := Ideal.exp (Yn s k)
/-- The row sums Σ_k e^{Y}·Y of a [2304, 16] table. -/
def entOf (Yn : Fin 2304 → Fin 16 → EReal) (s : Fin 2304) : EReal := ∑ k : Fin 16, Ideal.exp (Yn s k) * Yn s k

theorem unit_tab (x0 : Vec Ideal S1x2304x384 .f32) (Xn : Fin 2304 → Fin 384 → EReal) (hx0 : ∀ s k, x0 (ix3 0 s k) = Xn s k) :
    ∀ s k, k0_pay3 x0 (ix2 s k) = unitOf Xn s k := fun s k => by
  rw [pay3_apply]
  simp only [hx0]
  rfl

theorem exp_tab (x1 : Vec Ideal S1x2304x16 .f32) (Yn : Fin 2304 → Fin 16 → EReal) (hx1 : ∀ s k, x1 (ix3 0 s k) = Yn s k) :
    ∀ s k, k0_pay6 x1 (ix2 s k) = expOf Yn s k := fun s k => by
  rw [pay6_apply, hx1]
  rfl

theorem ent_tab (x1 : Vec Ideal S1x2304x16 .f32) (Yn : Fin 2304 → Fin 16 → EReal) (hx1 : ∀ s k, x1 (ix3 0 s k) = Yn s k) :
    ∀ s, k0_pay7 x1 (ix2 s 0) = entOf Yn s := fun s => by
  rw [pay7_apply]
  simp only [hx1]
  rfl

/-! ## Later tiles -/

theorem outB2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32) :
    out0_B_2 c i arg2 harg2 arg3 harg3 arg4 harg4 arg5 harg5 arg6 harg6 arg7 harg7 arg8 harg8 arg9 harg9 arg10 harg10 hc0 x0 x1 xo2 xo3 xo4 xo5 xs0 xs1 xs2 = k0_pay19 (k0_pay15 (tileRows i xs0) (tileLogp i x1) xs0 xs1 xs2) xo2 := by
  unfold out0_B_2
  rw [View.read_writes_eq_canon _ _ _ (cover0_B_2 c i arg2 harg2 arg3 harg3 arg4 harg4 arg5 harg5 arg6 harg6 arg7 harg7 arg8 harg8 arg9 harg9 arg10 harg10 hc0 x0 x1 xo2 xo3 xo4 xo5 xs0 xs1 xs2)]
  exact pieceB2 c i arg2 harg2 arg3 harg3 arg4 harg4 arg5 harg5 arg6 harg6 arg7 harg7 arg8 harg8 arg9 harg9 arg10 harg10 hc0 x0 x1 xo2 xo3 xo4 xo5 xs0 xs1 xs2

theorem outB3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32) :
    out0_B_3 c i arg2 harg2 arg3 harg3 arg4 harg4 arg5 harg5 arg6 harg6 arg7 harg7 arg8 harg8 arg9 harg9 arg10 harg10 hc0 x0 x1 xo2 xo3 xo4 xo5 xs0 xs1 xs2 = k0_pay20 (k0_pay16 (tileRows i xs0) (tileLogp i x1) xs0 xs1 xs2) xo3 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 xo2 xo3 xo4 xo5 xs0 xs1 xs2)]
  exact pieceB3 c i arg2 harg2 arg3 harg3 arg4 harg4 arg5 harg5 arg6 harg6 arg7 harg7 arg8 harg8 arg9 harg9 arg10 harg10 hc0 x0 x1 xo2 xo3 xo4 xo5 xs0 xs1 xs2

theorem outB4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32) :
    out0_B_4 c i arg2 harg2 arg3 harg3 arg4 harg4 arg5 harg5 arg6 harg6 arg7 harg7 arg8 harg8 arg9 harg9 arg10 harg10 hc0 x0 x1 xo2 xo3 xo4 xo5 xs0 xs1 xs2 = k0_pay1 (k0_pay21 (k0_pay17 (tileRows i xs0) xs0) xo4) := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 xo2 xo3 xo4 xo5 xs0 xs1 xs2)]
  exact pieceB4 c i arg2 harg2 arg3 harg3 arg4 harg4 arg5 harg5 arg6 harg6 arg7 harg7 arg8 harg8 arg9 harg9 arg10 harg10 hc0 x0 x1 xo2 xo3 xo4 xo5 xs0 xs1 xs2

theorem outB5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32) :
    out0_B_5 c i arg2 harg2 arg3 harg3 arg4 harg4 arg5 harg5 arg6 harg6 arg7 harg7 arg8 harg8 arg9 harg9 arg10 harg10 hc0 x0 x1 xo2 xo3 xo4 xo5 xs0 xs1 xs2 = k0_pay2 (k0_pay18 (k0_pay13 (tileRows i xs0) xs0)) xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 xo2 xo3 xo4 xo5 xs0 xs1 xs2)]
  exact pieceB5 c i arg2 harg2 arg3 harg3 arg4 harg4 arg5 harg5 arg6 harg6 arg7 harg7 arg8 harg8 arg9 harg9 arg10 harg10 hc0 x0 x1 xo2 xo3 xo4 xo5 xs0 xs1 xs2

theorem valB2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32)
    (j : Fin 6) (ho1 : k0_off1 i 0 = 384 * j.val ∧ k0_off1 i 1 = 0) (ho2 : k0_off2 i 0 = 0 ∧ k0_off2 i 1 = 384 * j.val ∧ k0_off2 i 2 = 0) (U : Fin 2304 → Fin 384 → EReal) (E : Fin 2304 → Fin 16 → EReal) (H : Fin 2304 → EReal) (Yn : Fin 2304 → Fin 16 → EReal) (h10 : ∀ s k, xs0 (ix2 s k) = U s k) (h15 : ∀ s k, xs1 (ix2 s k) = E s k) (h18 : ∀ s, xs2 (ix2 s 0) = H s) (hx1 : ∀ s k, x1 (ix3 0 s k) = Yn s k) (lane : Fin 128) :
    out0_B_2 c i arg2 harg2 arg3 harg3 arg4 harg4 arg5 harg5 arg6 harg6 arg7 harg7 arg8 harg8 arg9 harg9 arg10 harg10 hc0 x0 x1 xo2 xo3 xo4 xo5 xs0 xs1 xs2 (ix3 0 0 lane) = xo2 (ix3 0 0 lane) + posT U (fun l k => U (tileIdx j l) k) E H (fun l k => Yn (tileIdx j l) k) := by
  rw [outB2]
  exact stepPos xs0 xs1 xs2 x1 (k0_off1 i) (k0_off1_inb i) (k0_off2 i) (k0_off2_inb i) j ho1 ho2 U E H Yn h10 h15 h18 hx1 xo2 lane

theorem valB3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32)
    (j : Fin 6) (ho1 : k0_off1 i 0 = 384 * j.val ∧ k0_off1 i 1 = 0) (ho2 : k0_off2 i 0 = 0 ∧ k0_off2 i 1 = 384 * j.val ∧ k0_off2 i 2 = 0) (U : Fin 2304 → Fin 384 → EReal) (E : Fin 2304 → Fin 16 → EReal) (H : Fin 2304 → EReal) (Yn : Fin 2304 → Fin 16 → EReal) (h10 : ∀ s k, xs0 (ix2 s k) = U s k) (h15 : ∀ s k, xs1 (ix2 s k) = E s k) (h18 : ∀ s, xs2 (ix2 s 0) = H s) (hx1 : ∀ s k, x1 (ix3 0 s k) = Yn s k) (lane : Fin 128) :
    out0_B_3 c i arg2 harg2 arg3 harg3 arg4 harg4 arg5 harg5 arg6 harg6 arg7 harg7 arg8 harg8 arg9 harg9 arg10 harg10 hc0 x0 x1 xo2 xo3 xo4 xo5 xs0 xs1 xs2 (ix3 0 0 lane) = xo3 (ix3 0 0 lane) + (totT U (fun l k => U (tileIdx j l) k) E H (fun l k => Yn (tileIdx j l) k) - posT U (fun l k => U (tileIdx j l) k) E H (fun l k => Yn (tileIdx j l) k)) := by
  rw [outB3]
  exact stepNeg xs0 xs1 xs2 x1 (k0_off1 i) (k0_off1_inb i) (k0_off2 i) (k0_off2_inb i) j ho1 ho2 U E H Yn h10 h15 h18 hx1 xo3 lane

theorem valB4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32)
    (j : Fin 6) (ho1 : k0_off1 i 0 = 384 * j.val ∧ k0_off1 i 1 = 0) (ho2 : k0_off2 i 0 = 0 ∧ k0_off2 i 1 = 384 * j.val ∧ k0_off2 i 2 = 0) (U : Fin 2304 → Fin 384 → EReal) (E : Fin 2304 → Fin 16 → EReal) (H : Fin 2304 → EReal) (Yn : Fin 2304 → Fin 16 → EReal) (h10 : ∀ s k, xs0 (ix2 s k) = U s k) (h15 : ∀ s k, xs1 (ix2 s k) = E s k) (h18 : ∀ s, xs2 (ix2 s 0) = H s) (hx1 : ∀ s k, x1 (ix3 0 s k) = Yn s k) (lane : Fin 128) :
    out0_B_4 c i arg2 harg2 arg3 harg3 arg4 harg4 arg5 harg5 arg6 harg6 arg7 harg7 arg8 harg8 arg9 harg9 arg10 harg10 hc0 x0 x1 xo2 xo3 xo4 xo5 xs0 xs1 xs2 (ix3 0 0 lane) = xo4 (ix3 0 0 lane) + cntPosT U (fun l k => U (tileIdx j l) k) := by
  rw [outB4]
  exact stepNp xs0 xs1 xs2 x1 (k0_off1 i) (k0_off1_inb i) (k0_off2 i) (k0_off2_inb i) j ho1 ho2 U E H Yn h10 h15 h18 hx1 xo4 lane

theorem valB5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : ¬cond0_0 i) (x0 : Vec Ideal S1x2304x384 .f32) (x1 : Vec Ideal S1x2304x16 .f32) (xo2 xo3 xo4 xo5 : Vec Ideal S1x1x128 .f32) (xs0 : Vec Ideal S2304x384 .bf16) (xs1 : Vec Ideal S2304x16 .f32) (xs2 : Vec Ideal S2304x1 .f32)
    (j : Fin 6) (ho1 : k0_off1 i 0 = 384 * j.val ∧ k0_off1 i 1 = 0) (ho2 : k0_off2 i 0 = 0 ∧ k0_off2 i 1 = 384 * j.val ∧ k0_off2 i 2 = 0) (U : Fin 2304 → Fin 384 → EReal) (E : Fin 2304 → Fin 16 → EReal) (H : Fin 2304 → EReal) (Yn : Fin 2304 → Fin 16 → EReal) (h10 : ∀ s k, xs0 (ix2 s k) = U s k) (h15 : ∀ s k, xs1 (ix2 s k) = E s k) (h18 : ∀ s, xs2 (ix2 s 0) = H s) (hx1 : ∀ s k, x1 (ix3 0 s k) = Yn s k) (lane : Fin 128) :
    out0_B_5 c i arg2 harg2 arg3 harg3 arg4 harg4 arg5 harg5 arg6 harg6 arg7 harg7 arg8 harg8 arg9 harg9 arg10 harg10 hc0 x0 x1 xo2 xo3 xo4 xo5 xs0 xs1 xs2 (ix3 0 0 lane) = xo5 (ix3 0 0 lane) + cntNegT U (fun l k => U (tileIdx j l) k) := by
  rw [outB5]
  exact stepNn xs0 xs1 xs2 x1 (k0_off1 i) (k0_off1_inb i) (k0_off2 i) (k0_off2_inb i) j ho1 ho2 U E H Yn h10 h15 h18 hx1 xo5 lane

/-! ## The first tile of a batch -/

theorem soutA0 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    sout0_A_0 c i arg2 harg2 arg3 harg3 arg4 harg4 arg5 harg5 arg6 harg6 arg7 harg7 arg8 harg8 arg9 harg9 arg10 harg10 hc0 x0 x1 = k0_pay3 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1)]
  exact pieceAS0 c i arg2 harg2 arg3 harg3 arg4 harg4 arg5 harg5 arg6 harg6 arg7 harg7 arg8 harg8 arg9 harg9 arg10 harg10 hc0 x0 x1

theorem soutA1 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    sout0_A_1 c i arg2 harg2 arg3 harg3 arg4 harg4 arg5 harg5 arg6 harg6 arg7 harg7 arg8 harg8 arg9 harg9 arg10 harg10 hc0 x0 x1 = k0_pay6 x1 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1)]
  exact pieceAS1 c i arg2 harg2 arg3 harg3 arg4 harg4 arg5 harg5 arg6 harg6 arg7 harg7 arg8 harg8 arg9 harg9 arg10 harg10 hc0 x0 x1

theorem soutA2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    sout0_A_2 c i arg2 harg2 arg3 harg3 arg4 harg4 arg5 harg5 arg6 harg6 arg7 harg7 arg8 harg8 arg9 harg9 arg10 harg10 hc0 x0 x1 = k0_pay7 x1 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 x0 x1)]
  exact pieceAS2 c i arg2 harg2 arg3 harg3 arg4 harg4 arg5 harg5 arg6 harg6 arg7 harg7 arg8 harg8 arg9 harg9 arg10 harg10 hc0 x0 x1

theorem outA2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    out0_A_2 c i arg2 harg2 arg3 harg3 arg4 harg4 arg5 harg5 arg6 harg6 arg7 harg7 arg8 harg8 arg9 harg9 arg10 harg10 hc0 x0 x1 = k0_pay19 (k0_pay15 (tileRows i (k0_pay3 x0)) (tileLogp i x1) (k0_pay3 x0) (k0_pay6 x1) (k0_pay7 x1)) (k0_pay8 (F := Ideal)) := by
  unfold out0_A_2
  rw [View.read_writes_eq_canon _ _ _ (cover0_A_2 c i arg2 harg2 arg3 harg3 arg4 harg4 arg5 harg5 arg6 harg6 arg7 harg7 arg8 harg8 arg9 harg9 arg10 harg10 hc0 x0 x1)]
  exact pieceA2 c i arg2 harg2 arg3 harg3 arg4 harg4 arg5 harg5 arg6 harg6 arg7 harg7 arg8 harg8 arg9 harg9 arg10 harg10 hc0 x0 x1

theorem outA3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    out0_A_3 c i arg2 harg2 arg3 harg3 arg4 harg4 arg5 harg5 arg6 harg6 arg7 harg7 arg8 harg8 arg9 harg9 arg10 harg10 hc0 x0 x1 = k0_pay20 (k0_pay16 (tileRows i (k0_pay3 x0)) (tileLogp i x1) (k0_pay3 x0) (k0_pay6 x1) (k0_pay7 x1)) (k0_pay10 (k0_pay9 (F := Ideal))) := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1)]
  exact pieceA3 c i arg2 harg2 arg3 harg3 arg4 harg4 arg5 harg5 arg6 harg6 arg7 harg7 arg8 harg8 arg9 harg9 arg10 harg10 hc0 x0 x1

theorem outA4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    out0_A_4 c i arg2 harg2 arg3 harg3 arg4 harg4 arg5 harg5 arg6 harg6 arg7 harg7 arg8 harg8 arg9 harg9 arg10 harg10 hc0 x0 x1 = k0_pay1 (F := Ideal) (k0_pay21 (k0_pay17 (tileRows i (k0_pay3 x0)) (k0_pay3 x0)) (k0_pay11 (F := Ideal))) := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1)]
  exact pieceA4 c i arg2 harg2 arg3 harg3 arg4 harg4 arg5 harg5 arg6 harg6 arg7 harg7 arg8 harg8 arg9 harg9 arg10 harg10 hc0 x0 x1

theorem outA5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32) :
    out0_A_5 c i arg2 harg2 arg3 harg3 arg4 harg4 arg5 harg5 arg6 harg6 arg7 harg7 arg8 harg8 arg9 harg9 arg10 harg10 hc0 x0 x1 = k0_pay2 (k0_pay18 (k0_pay13 (tileRows i (k0_pay3 x0)) (k0_pay3 x0))) (k0_pay12 (F := Ideal)) := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1)]
  exact pieceA5 c i arg2 harg2 arg3 harg3 arg4 harg4 arg5 harg5 arg6 harg6 arg7 harg7 arg8 harg8 arg9 harg9 arg10 harg10 hc0 x0 x1

theorem valA2 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32)
    (j : Fin 6) (ho1 : k0_off1 i 0 = 384 * j.val ∧ k0_off1 i 1 = 0) (ho2 : k0_off2 i 0 = 0 ∧ k0_off2 i 1 = 384 * j.val ∧ k0_off2 i 2 = 0) (Xn : Fin 2304 → Fin 384 → EReal) (Yn : Fin 2304 → Fin 16 → EReal) (hx0 : ∀ s k, x0 (ix3 0 s k) = Xn s k) (hx1 : ∀ s k, x1 (ix3 0 s k) = Yn s k) (lane : Fin 128) :
    out0_A_2 c i arg2 harg2 arg3 harg3 arg4 harg4 arg5 harg5 arg6 harg6 arg7 harg7 arg8 harg8 arg9 harg9 arg10 harg10 hc0 x0 x1 (ix3 0 0 lane) = 0 + posT (unitOf Xn) (fun l k => unitOf Xn (tileIdx j l) k) (expOf Yn) (entOf Yn) (fun l k => Yn (tileIdx j l) k) := by
  rw [outA2]
  refine (stepPos (k0_pay3 x0) (k0_pay6 x1) (k0_pay7 x1) x1 (k0_off1 i) (k0_off1_inb i) (k0_off2 i) (k0_off2_inb i) j ho1 ho2
    (unitOf Xn) (expOf Yn) (entOf Yn) Yn (unit_tab x0 Xn hx0) (exp_tab x1 Yn hx1) (ent_tab x1 Yn hx1) hx1 (k0_pay8 (F := Ideal)) lane).trans ?_
  rw [pay8_eq]

theorem valA3 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32)
    (j : Fin 6) (ho1 : k0_off1 i 0 = 384 * j.val ∧ k0_off1 i 1 = 0) (ho2 : k0_off2 i 0 = 0 ∧ k0_off2 i 1 = 384 * j.val ∧ k0_off2 i 2 = 0) (Xn : Fin 2304 → Fin 384 → EReal) (Yn : Fin 2304 → Fin 16 → EReal) (hx0 : ∀ s k, x0 (ix3 0 s k) = Xn s k) (hx1 : ∀ s k, x1 (ix3 0 s k) = Yn s k) (lane : Fin 128) :
    out0_A_3 c i arg2 harg2 arg3 harg3 arg4 harg4 arg5 harg5 arg6 harg6 arg7 harg7 arg8 harg8 arg9 harg9 arg10 harg10 hc0 x0 x1 (ix3 0 0 lane) = 0 + (totT (unitOf Xn) (fun l k => unitOf Xn (tileIdx j l) k) (expOf Yn) (entOf Yn) (fun l k => Yn (tileIdx j l) k) - posT (unitOf Xn) (fun l k => unitOf Xn (tileIdx j l) k) (expOf Yn) (entOf Yn) (fun l k => Yn (tileIdx j l) k)) := by
  rw [outA3]
  refine (stepNeg (k0_pay3 x0) (k0_pay6 x1) (k0_pay7 x1) x1 (k0_off1 i) (k0_off1_inb i) (k0_off2 i) (k0_off2_inb i) j ho1 ho2
    (unitOf Xn) (expOf Yn) (entOf Yn) Yn (unit_tab x0 Xn hx0) (exp_tab x1 Yn hx1) (ent_tab x1 Yn hx1) hx1 (k0_pay10 (k0_pay9 (F := Ideal))) lane).trans ?_
  rw [pay10_eq]

theorem valA4 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32)
    (j : Fin 6) (ho1 : k0_off1 i 0 = 384 * j.val ∧ k0_off1 i 1 = 0) (ho2 : k0_off2 i 0 = 0 ∧ k0_off2 i 1 = 384 * j.val ∧ k0_off2 i 2 = 0) (Xn : Fin 2304 → Fin 384 → EReal) (Yn : Fin 2304 → Fin 16 → EReal) (hx0 : ∀ s k, x0 (ix3 0 s k) = Xn s k) (hx1 : ∀ s k, x1 (ix3 0 s k) = Yn s k) (lane : Fin 128) :
    out0_A_4 c i arg2 harg2 arg3 harg3 arg4 harg4 arg5 harg5 arg6 harg6 arg7 harg7 arg8 harg8 arg9 harg9 arg10 harg10 hc0 x0 x1 (ix3 0 0 lane) = 0 + cntPosT (unitOf Xn) (fun l k => unitOf Xn (tileIdx j l) k) := by
  rw [outA4]
  refine (stepNp (k0_pay3 x0) (k0_pay6 x1) (k0_pay7 x1) x1 (k0_off1 i) (k0_off1_inb i) (k0_off2 i) (k0_off2_inb i) j ho1 ho2
    (unitOf Xn) (expOf Yn) (entOf Yn) Yn (unit_tab x0 Xn hx0) (exp_tab x1 Yn hx1) (ent_tab x1 Yn hx1) hx1 (k0_pay11 (F := Ideal)) lane).trans ?_
  rw [pay11_eq]

theorem valA5 (c : Dev nD) (i : grid0.Coords) (arg2 : Memref sig .tc .vmem S1x2304x384 .f32) (harg2 : arg2.IsWhole) (arg3 : Memref sig .tc .vmem S1x2304x16 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S2304x384 .bf16) (harg8 : arg8.IsWhole) (arg9 : Memref sig .tc .vmem S2304x16 .f32) (harg9 : arg9.IsWhole) (arg10 : Memref sig .tc .vmem S2304x1 .f32) (harg10 : arg10.IsWhole) (hc0 : cond0_0 i) (x0 : Vec Ideal S1x2304x384 .f32) (x1 : Vec Ideal S1x2304x16 .f32)
    (j : Fin 6) (ho1 : k0_off1 i 0 = 384 * j.val ∧ k0_off1 i 1 = 0) (ho2 : k0_off2 i 0 = 0 ∧ k0_off2 i 1 = 384 * j.val ∧ k0_off2 i 2 = 0) (Xn : Fin 2304 → Fin 384 → EReal) (Yn : Fin 2304 → Fin 16 → EReal) (hx0 : ∀ s k, x0 (ix3 0 s k) = Xn s k) (hx1 : ∀ s k, x1 (ix3 0 s k) = Yn s k) (lane : Fin 128) :
    out0_A_5 c i arg2 harg2 arg3 harg3 arg4 harg4 arg5 harg5 arg6 harg6 arg7 harg7 arg8 harg8 arg9 harg9 arg10 harg10 hc0 x0 x1 (ix3 0 0 lane) = 0 + cntNegT (unitOf Xn) (fun l k => unitOf Xn (tileIdx j l) k) := by
  rw [outA5]
  refine (stepNn (k0_pay3 x0) (k0_pay6 x1) (k0_pay7 x1) x1 (k0_off1 i) (k0_off1_inb i) (k0_off2 i) (k0_off2_inb i) j ho1 ho2
    (unitOf Xn) (expOf Yn) (entOf Yn) Yn (unit_tab x0 Xn hx0) (exp_tab x1 Yn hx1) (ent_tab x1 Yn hx1) hx1 (k0_pay12 (F := Ideal)) lane).trans ?_
  rw [pay12_eq]

end Cert.KernelIdeal.Cases

end
-- ==== Proof.KernelInvAux.lean ====
/-
  Small facts for the induction over grid points: a batch of each reshaped input as a table, and how the partial chain of
  tile contributions starts (at the first tile of a batch) and grows (at a later tile).
-/
import proofs.«138893_j63505386438847_2_alg».proof.Proof.KernelCases
import proofs.«138893_j63505386438847_2_alg».proof.Proof.KernelInvDef

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

/-- Batch n of the reshaped features, as a table. -/
abbrev Xb (n : Fin 2) : Fin 2304 → Fin 384 → EReal := fun s k => XX m c (ix3 n s k)
/-- Batch n of the reshaped log-probabilities, as a table. -/
abbrev Yb (n : Fin 2) : Fin 2304 → Fin 16 → EReal := fun s k => YY m c (ix3 n s k)

/-- At the first tile of a batch the partial chain is zero plus that tile. -/
theorem part_first (f : Fin 6 → EReal) (t : ℕ) (h0 : t % 6 = 0) : part f (t % 6) = 0 + f (til t) := by
  have e : til t = til 0 := Fin.ext (by show t % 6 = 0 % 6; omega)
  rw [h0, e]
  rfl

/-- At a later tile the partial chain is the one before plus that tile. -/
theorem part_next (f : Fin 6 → EReal) (t : ℕ) (h0 : ¬t % 6 = 0) :
    part f (t % 6) = part f ((t - 1) % 6) + f (til t) := by
  have e1 : t % 6 = (t - 1) % 6 + 1 := by omega
  have e2 : til ((t - 1) % 6 + 1) = til t := Fin.ext (by show ((t - 1) % 6 + 1) % 6 = t % 6; omega)
  rw [e1]
  show part f ((t - 1) % 6) + f (til ((t - 1) % 6 + 1)) = _
  rw [e2]

/-- A later tile is in the batch of the point before it. -/
theorem bat_pred (t : Fin cfg0.N) (h0 : ¬t.val % 6 = 0) : bat (t.val - 1) (Nat.lt_of_le_of_lt (Nat.sub_le _ _) t.isLt) = (bat t.val t.isLt) :=
  Fin.ext (by show (t.val - 1) / 6 = t.val / 6; omega)

end Cert.KernelIdeal.Inv

end
-- ==== Proof.KernelInvA1.lean ====
/-
  The first tile of a batch (the body's reset branch): what the carried buffers hold after it. Scratch buffers and output row 2.
-/
import proofs.«138893_j63505386438847_2_alg».proof.Proof.KernelInvAux

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

set_option maxHeartbeats 8000000 in
/-- First tile of a batch: the first scratch buffer holds the batch's unit rows. -/
theorem A_s0 (t : Fin cfg0.N) (h0 : t.val % 6 = 0) :
    ∀ s k, (outsAt0 m c t.val t.isLt).2.2.2.2.1 (ix2 s k) = Un (XX m c) (bat t.val t.isLt) s k := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro s k
  rw [e]
  exact (congrFun (soutA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)) (ix2 s k)).trans
    (unit_tab (iblk m c 0 t) (Xb m c (bat t.val t.isLt)) hx0 s k)

set_option maxHeartbeats 8000000 in
/-- First tile of a batch: the second scratch buffer holds the batch's exponentials. -/
theorem A_s1 (t : Fin cfg0.N) (h0 : t.val % 6 = 0) :
    ∀ s k, (outsAt0 m c t.val t.isLt).2.2.2.2.2.1 (ix2 s k) = En (YY m c) (bat t.val t.isLt) s k := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro s k
  rw [e]
  exact (congrFun (soutA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)) (ix2 s k)).trans
    (exp_tab (iblk m c 1 t) (Yb m c (bat t.val t.isLt)) hx1 s k)

set_option maxHeartbeats 8000000 in
/-- First tile of a batch: the third scratch buffer holds the batch's row sums. -/
theorem A_s2 (t : Fin cfg0.N) (h0 : t.val % 6 = 0) :
    ∀ s, (outsAt0 m c t.val t.isLt).2.2.2.2.2.2 (ix2 s 0) = Hn (YY m c) (bat t.val t.isLt) s := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro s
  rw [e]
  exact (congrFun (soutA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)) (ix2 s 0)).trans
    (ent_tab (iblk m c 1 t) (Yb m c (bat t.val t.isLt)) hx1 s)

set_option maxHeartbeats 8000000 in
/-- First tile of a batch: output row 2 holds zero plus the first tile's contribution. -/
theorem A_o2 (t : Fin cfg0.N) (h0 : t.val % 6 = 0) :
    ∀ lane, (outsAt0 m c t.val t.isLt).1 (ix3 0 0 lane) = part (cPos m c (bat t.val t.isLt)) (t.val % 6) := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro lane
  rw [e]
  refine (valA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)
    (til t.val) ho.1 ho.2 (Xb m c (bat t.val t.isLt)) (Yb m c (bat t.val t.isLt)) hx0 hx1 lane).trans ?_
  exact (part_first (cPos m c (bat t.val t.isLt)) t.val h0).symm

end Cert.KernelIdeal.Inv

end
-- ==== Proof.KernelInvA2.lean ====
/-
  The first tile of a batch (the body's reset branch): what the carried buffers hold after it. Output rows 3, 4, 5.
-/
import proofs.«138893_j63505386438847_2_alg».proof.Proof.KernelInvAux

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

set_option maxHeartbeats 8000000 in
/-- First tile of a batch: output row 3 holds zero plus the first tile's contribution. -/
theorem A_o3 (t : Fin cfg0.N) (h0 : t.val % 6 = 0) :
    ∀ lane, (outsAt0 m c t.val t.isLt).2.1 (ix3 0 0 lane) = part (cNeg m c (bat t.val t.isLt)) (t.val % 6) := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro lane
  rw [e]
  refine (valA3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)
    (til t.val) ho.1 ho.2 (Xb m c (bat t.val t.isLt)) (Yb m c (bat t.val t.isLt)) hx0 hx1 lane).trans ?_
  exact (part_first (cNeg m c (bat t.val t.isLt)) t.val h0).symm

set_option maxHeartbeats 8000000 in
/-- First tile of a batch: output row 4 holds zero plus the first tile's contribution. -/
theorem A_o4 (t : Fin cfg0.N) (h0 : t.val % 6 = 0) :
    ∀ lane, (outsAt0 m c t.val t.isLt).2.2.1 (ix3 0 0 lane) = part (cNp m c (bat t.val t.isLt)) (t.val % 6) := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro lane
  rw [e]
  refine (valA4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)
    (til t.val) ho.1 ho.2 (Xb m c (bat t.val t.isLt)) (Yb m c (bat t.val t.isLt)) hx0 hx1 lane).trans ?_
  exact (part_first (cNp m c (bat t.val t.isLt)) t.val h0).symm

set_option maxHeartbeats 8000000 in
/-- First tile of a batch: output row 5 holds zero plus the first tile's contribution. -/
theorem A_o5 (t : Fin cfg0.N) (h0 : t.val % 6 = 0) :
    ∀ lane, (outsAt0 m c t.val t.isLt).2.2.2.1 (ix3 0 0 lane) = part (cNn m c (bat t.val t.isLt)) (t.val % 6) := by
  have e := outsAt0_A m c t h0
  have ho := off_facts t
  have hx0 : ∀ s k, (iblk m c 0 t : Vec Ideal S1x2304x384 .f32) (ix3 0 s k) = Xb m c (bat t.val t.isLt) s k :=
    fun s k => iblk0_apply m c t s k
  have hx1 : ∀ s k, (iblk m c 1 t : Vec Ideal S1x2304x16 .f32) (ix3 0 s k) = Yb m c (bat t.val t.isLt) s k :=
    fun s k => iblk1_apply m c t s k
  intro lane
  rw [e]
  refine (valA5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (iblk m c 0 t) (iblk m c 1 t)
    (til t.val) ho.1 ho.2 (Xb m c (bat t.val t.isLt)) (Yb m c (bat t.val t.isLt)) hx0 hx1 lane).trans ?_
  exact (part_first (cNn m c (bat t.val t.isLt)) t.val h0).symm

end Cert.KernelIdeal.Inv

end
-- ==== Proof.KernelInvB1.lean ====
/-
  A later tile of a batch: what the carried buffers hold after it, from what the point before left. Scratch buffers and output rows 2, 3.
-/
import proofs.«138893_j63505386438847_2_alg».proof.Proof.KernelInvAux

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

set_option maxHeartbeats 8000000 in
/-- A later tile keeps the three scratch buffers. -/
theorem B_s (t : Fin cfg0.N) (h0 : ¬t.val % 6 = 0) (ih : Holds m c (t.val - 1) (Nat.lt_of_le_of_lt (Nat.sub_le _ _) t.isLt)) :
    (∀ s k, (outsAt0 m c t.val t.isLt).2.2.2.2.1 (ix2 s k) = Un (XX m c) (bat t.val t.isLt) s k)
    ∧ (∀ s k, (outsAt0 m c t.val t.isLt).2.2.2.2.2.1 (ix2 s k) = En (YY m c) (bat t.val t.isLt) s k)
    ∧ (∀ s, (outsAt0 m c t.val t.isLt).2.2.2.2.2.2 (ix2 s 0) = Hn (YY m c) (bat t.val t.isLt) s) := by
  have e := outsAt0_B m c t h0
  have ho := off_facts t
  have hb := bat_pred t h0
  have hx1 : ∀ s k, (iblk m c 1 t : Vec Ideal S1x2304x16 .f32) (ix3 0 s k) = Yb m c (bat t.val t.isLt) s k :=
    fun s k => iblk1_apply m c t s k
  have s0' : ∀ s k, (outsAt0 m c (t.val - 1) (Nat.lt_of_le_of_lt (Nat.sub_le _ _) t.isLt)).2.2.2.2.1 (ix2 s k) = Un (XX m c) (bat t.val t.isLt) s k := hb ▸ ih.s0
  have s1' : ∀ s k, (outsAt0 m c (t.val - 1) (Nat.lt_of_le_of_lt (Nat.sub_le _ _) t.isLt)).2.2.2.2.2.1 (ix2 s k) = En (YY m c) (bat t.val t.isLt) s k := hb ▸ ih.s1
  have s2' : ∀ s, (outsAt0 m c (t.val - 1) (Nat.lt_of_le_of_lt (Nat.sub_le _ _) t.isLt)).2.2.2.2.2.2 (ix2 s 0) = Hn (YY m c) (bat t.val t.isLt) s := hb ▸ ih.s2
  refine ⟨?_, ?_, ?_⟩
  · intro s k
    rw [e]
    exact s0' s k
  · intro s k
    rw [e]
    exact s1' s k
  · intro s
    rw [e]
    exact s2' s

set_option maxHeartbeats 8000000 in
/-- A later tile: output row 2 holds what the point before left plus this tile's contribution. -/
theorem B_o2 (t : Fin cfg0.N) (h0 : ¬t.val % 6 = 0) (ih : Holds m c (t.val - 1) (Nat.lt_of_le_of_lt (Nat.sub_le _ _) t.isLt)) :
    ∀ lane, (outsAt0 m c t.val t.isLt).1 (ix3 0 0 lane) = part (cPos m c (bat t.val t.isLt)) (t.val % 6) := by
  have e := outsAt0_B m c t h0
  have ho := off_facts t
  have hb := bat_pred t h0
  have hx1 : ∀ s k, (iblk m c 1 t : Vec Ideal S1x2304x16 .f32) (ix3 0 s k) = Yb m c (bat t.val t.isLt) s k :=
    fun s k => iblk1_apply m c t s k
  have s0' : ∀ s k, (outsAt0 m c (t.val - 1) (Nat.lt_of_le_of_lt (Nat.sub_le _ _) t.isLt)).2.2.2.2.1 (ix2 s k) = Un (XX m c) (bat t.val t.isLt) s k := hb ▸ ih.s0
  have s1' : ∀ s k, (outsAt0 m c (t.val - 1) (Nat.lt_of_le_of_lt (Nat.sub_le _ _) t.isLt)).2.2.2.2.2.1 (ix2 s k) = En (YY m c) (bat t.val t.isLt) s k := hb ▸ ih.s1
  have s2' : ∀ s, (outsAt0 m c (t.val - 1) (Nat.lt_of_le_of_lt (Nat.sub_le _ _) t.isLt)).2.2.2.2.2.2 (ix2 s 0) = Hn (YY m c) (bat t.val t.isLt) s := hb ▸ ih.s2
  have o' : ∀ lane, (outsAt0 m c (t.val - 1) (Nat.lt_of_le_of_lt (Nat.sub_le _ _) t.isLt)).1 (ix3 0 0 lane) = part (cPos m c (bat t.val t.isLt)) ((t.val - 1) % 6) := hb ▸ ih.o2
  intro lane
  rw [e]
  refine (valB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun hh => h0 ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (til t.val) ho.1 ho.2 (Un (XX m c) (bat t.val t.isLt)) (En (YY m c) (bat t.val t.isLt)) (Hn (YY m c) (bat t.val t.isLt)) (Yb m c (bat t.val t.isLt))
    s0' s1' s2' hx1 lane).trans ?_
  rw [part_next (cPos m c (bat t.val t.isLt)) t.val h0, ← o' lane]
  rfl

set_option maxHeartbeats 8000000 in
/-- A later tile: output row 3 holds what the point before left plus this tile's contribution. -/
theorem B_o3 (t : Fin cfg0.N) (h0 : ¬t.val % 6 = 0) (ih : Holds m c (t.val - 1) (Nat.lt_of_le_of_lt (Nat.sub_le _ _) t.isLt)) :
    ∀ lane, (outsAt0 m c t.val t.isLt).2.1 (ix3 0 0 lane) = part (cNeg m c (bat t.val t.isLt)) (t.val % 6) := by
  have e := outsAt0_B m c t h0
  have ho := off_facts t
  have hb := bat_pred t h0
  have hx1 : ∀ s k, (iblk m c 1 t : Vec Ideal S1x2304x16 .f32) (ix3 0 s k) = Yb m c (bat t.val t.isLt) s k :=
    fun s k => iblk1_apply m c t s k
  have s0' : ∀ s k, (outsAt0 m c (t.val - 1) (Nat.lt_of_le_of_lt (Nat.sub_le _ _) t.isLt)).2.2.2.2.1 (ix2 s k) = Un (XX m c) (bat t.val t.isLt) s k := hb ▸ ih.s0
  have s1' : ∀ s k, (outsAt0 m c (t.val - 1) (Nat.lt_of_le_of_lt (Nat.sub_le _ _) t.isLt)).2.2.2.2.2.1 (ix2 s k) = En (YY m c) (bat t.val t.isLt) s k := hb ▸ ih.s1
  have s2' : ∀ s, (outsAt0 m c (t.val - 1) (Nat.lt_of_le_of_lt (Nat.sub_le _ _) t.isLt)).2.2.2.2.2.2 (ix2 s 0) = Hn (YY m c) (bat t.val t.isLt) s := hb ▸ ih.s2
  have o' : ∀ lane, (outsAt0 m c (t.val - 1) (Nat.lt_of_le_of_lt (Nat.sub_le _ _) t.isLt)).2.1 (ix3 0 0 lane) = part (cNeg m c (bat t.val t.isLt)) ((t.val - 1) % 6) := hb ▸ ih.o3
  intro lane
  rw [e]
  refine (valB3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun hh => h0 ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (til t.val) ho.1 ho.2 (Un (XX m c) (bat t.val t.isLt)) (En (YY m c) (bat t.val t.isLt)) (Hn (YY m c) (bat t.val t.isLt)) (Yb m c (bat t.val t.isLt))
    s0' s1' s2' hx1 lane).trans ?_
  rw [part_next (cNeg m c (bat t.val t.isLt)) t.val h0, ← o' lane]
  rfl

end Cert.KernelIdeal.Inv

end
-- ==== Proof.KernelInvB2.lean ====
/-
  A later tile of a batch: what the carried buffers hold after it, from what the point before left. Output rows 4, 5.
-/
import proofs.«138893_j63505386438847_2_alg».proof.Proof.KernelInvAux

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

set_option maxHeartbeats 8000000 in
/-- A later tile: output row 4 holds what the point before left plus this tile's contribution. -/
theorem B_o4 (t : Fin cfg0.N) (h0 : ¬t.val % 6 = 0) (ih : Holds m c (t.val - 1) (Nat.lt_of_le_of_lt (Nat.sub_le _ _) t.isLt)) :
    ∀ lane, (outsAt0 m c t.val t.isLt).2.2.1 (ix3 0 0 lane) = part (cNp m c (bat t.val t.isLt)) (t.val % 6) := by
  have e := outsAt0_B m c t h0
  have ho := off_facts t
  have hb := bat_pred t h0
  have hx1 : ∀ s k, (iblk m c 1 t : Vec Ideal S1x2304x16 .f32) (ix3 0 s k) = Yb m c (bat t.val t.isLt) s k :=
    fun s k => iblk1_apply m c t s k
  have s0' : ∀ s k, (outsAt0 m c (t.val - 1) (Nat.lt_of_le_of_lt (Nat.sub_le _ _) t.isLt)).2.2.2.2.1 (ix2 s k) = Un (XX m c) (bat t.val t.isLt) s k := hb ▸ ih.s0
  have s1' : ∀ s k, (outsAt0 m c (t.val - 1) (Nat.lt_of_le_of_lt (Nat.sub_le _ _) t.isLt)).2.2.2.2.2.1 (ix2 s k) = En (YY m c) (bat t.val t.isLt) s k := hb ▸ ih.s1
  have s2' : ∀ s, (outsAt0 m c (t.val - 1) (Nat.lt_of_le_of_lt (Nat.sub_le _ _) t.isLt)).2.2.2.2.2.2 (ix2 s 0) = Hn (YY m c) (bat t.val t.isLt) s := hb ▸ ih.s2
  have o' : ∀ lane, (outsAt0 m c (t.val - 1) (Nat.lt_of_le_of_lt (Nat.sub_le _ _) t.isLt)).2.2.1 (ix3 0 0 lane) = part (cNp m c (bat t.val t.isLt)) ((t.val - 1) % 6) := hb ▸ ih.o4
  intro lane
  rw [e]
  refine (valB4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun hh => h0 ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (til t.val) ho.1 ho.2 (Un (XX m c) (bat t.val t.isLt)) (En (YY m c) (bat t.val t.isLt)) (Hn (YY m c) (bat t.val t.isLt)) (Yb m c (bat t.val t.isLt))
    s0' s1' s2' hx1 lane).trans ?_
  rw [part_next (cNp m c (bat t.val t.isLt)) t.val h0, ← o' lane]
  rfl

set_option maxHeartbeats 8000000 in
/-- A later tile: output row 5 holds what the point before left plus this tile's contribution. -/
theorem B_o5 (t : Fin cfg0.N) (h0 : ¬t.val % 6 = 0) (ih : Holds m c (t.val - 1) (Nat.lt_of_le_of_lt (Nat.sub_le _ _) t.isLt)) :
    ∀ lane, (outsAt0 m c t.val t.isLt).2.2.2.1 (ix3 0 0 lane) = part (cNn m c (bat t.val t.isLt)) (t.val % 6) := by
  have e := outsAt0_B m c t h0
  have ho := off_facts t
  have hb := bat_pred t h0
  have hx1 : ∀ s k, (iblk m c 1 t : Vec Ideal S1x2304x16 .f32) (ix3 0 s k) = Yb m c (bat t.val t.isLt) s k :=
    fun s k => iblk1_apply m c t s k
  have s0' : ∀ s k, (outsAt0 m c (t.val - 1) (Nat.lt_of_le_of_lt (Nat.sub_le _ _) t.isLt)).2.2.2.2.1 (ix2 s k) = Un (XX m c) (bat t.val t.isLt) s k := hb ▸ ih.s0
  have s1' : ∀ s k, (outsAt0 m c (t.val - 1) (Nat.lt_of_le_of_lt (Nat.sub_le _ _) t.isLt)).2.2.2.2.2.1 (ix2 s k) = En (YY m c) (bat t.val t.isLt) s k := hb ▸ ih.s1
  have s2' : ∀ s, (outsAt0 m c (t.val - 1) (Nat.lt_of_le_of_lt (Nat.sub_le _ _) t.isLt)).2.2.2.2.2.2 (ix2 s 0) = Hn (YY m c) (bat t.val t.isLt) s := hb ▸ ih.s2
  have o' : ∀ lane, (outsAt0 m c (t.val - 1) (Nat.lt_of_le_of_lt (Nat.sub_le _ _) t.isLt)).2.2.2.1 (ix3 0 0 lane) = part (cNn m c (bat t.val t.isLt)) ((t.val - 1) % 6) := hb ▸ ih.o5
  intro lane
  rw [e]
  refine (valB5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun hh => h0 ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
    (til t.val) ho.1 ho.2 (Un (XX m c) (bat t.val t.isLt)) (En (YY m c) (bat t.val t.isLt)) (Hn (YY m c) (bat t.val t.isLt)) (Yb m c (bat t.val t.isLt))
    s0' s1' s2' hx1 lane).trans ?_
  rw [part_next (cNn m c (bat t.val t.isLt)) t.val h0, ← o' lane]
  rfl

end Cert.KernelIdeal.Inv

end
-- ==== Proof.KernelInv.lean ====
/-
  The invariant of the carried buffers holds after every grid point: by induction on the point.

  At the first tile of a batch the scratch buffers are filled from the batch's blocks and every output row is zero plus the
  first tile's contribution; at a later tile the scratch buffers are kept and every output row gains that tile's contribution.
-/
import proofs.«138893_j63505386438847_2_alg».proof.Proof.KernelInvA1
import proofs.«138893_j63505386438847_2_alg».proof.Proof.KernelInvA2
import proofs.«138893_j63505386438847_2_alg».proof.Proof.KernelInvB1
import proofs.«138893_j63505386438847_2_alg».proof.Proof.KernelInvB2

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.GenP Cert.KernelIdeal.Point Cert.KernelIdeal.Cases
open Cert.PairLoss Cert.PairMath

variable (m : (ℓ : Loc nD τ sig) → Buf (Elt Ideal) ℓ) (c : Dev nD)

/-- The first tile of a batch. -/
theorem holdsA (t : Fin cfg0.N) (h0 : t.val % 6 = 0) : Holds m c t.val t.isLt :=
  ⟨A_s0 m c t h0, A_s1 m c t h0, A_s2 m c t h0, A_o2 m c t h0, A_o3 m c t h0, A_o4 m c t h0, A_o5 m c t h0⟩

/-- A later tile, from the point before. -/
theorem holdsB (t : Fin cfg0.N) (h0 : ¬t.val % 6 = 0) (ih : Holds m c (t.val - 1) (Nat.lt_of_le_of_lt (Nat.sub_le _ _) t.isLt)) : Holds m c t.val t.isLt :=
  ⟨(B_s m c t h0 ih).1, (B_s m c t h0 ih).2.1, (B_s m c t h0 ih).2.2, B_o2 m c t h0 ih, B_o3 m c t h0 ih, B_o4 m c t h0 ih,
    B_o5 m c t h0 ih⟩

/-- The invariant after every point. -/
theorem holds : ∀ (t : ℕ) (h : t < cfg0.N), Holds m c t h
  | 0, h => holdsA m c ⟨0, h⟩ rfl
  | t + 1, h => by
    by_cases h0 : (t + 1) % 6 = 0
    · exact holdsA m c ⟨t + 1, h⟩ h0
    · exact holdsB m c ⟨t + 1, h⟩ h0 (holds t (Nat.lt_of_succ_lt h))

end Cert.KernelIdeal.Inv

end
-- ==== Proof.KernelTail.lean ====
/-
  The host operations after the kernel region, read as one function of the four output arrays.

  Each [2, 1, 128] output array is cut to its first lane, flattened to [2] and summed from zero; the four scalars are then
  combined as both programs do: two quotients, each weighted by a scalar weight, added, times the constant one. The arrays
  are the pipeline's arrays as the region leaves them; the two weights are read as launched, no operation writing them.
-/
import proofs.«138893_j63505386438847_2_alg».proof.Proof.KernelIdealFrameP
import proofs.«138893_j63505386438847_2_alg».proof.Proof.KernelTailSum
import proofs.«138893_j63505386438847_2_alg».proof.Proof.PairLoss
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.GenP

variable (m : (ℓ : Loc nD τ sig) → Buf (Elt Ideal) ℓ)

set_option maxHeartbeats 4000000 in
/-- The result buffer after the operations that follow the region, from the four output arrays as the region leaves them. -/
theorem tail_eq (c : Dev nD) :
    Pipeline.afterTail₀ cfgs (dats m) 0 (V0 m) [hostOps1] c main_v22
      = PairLoss.combine shapeCasts_S1_S_ (TailSum.firstLaneSum ((dats m 0 c).arrAt 2 cfg0.N))
          (TailSum.firstLaneSum ((dats m 0 c).arrAt 3 cfg0.N)) (TailSum.firstLaneSum ((dats m 0 c).arrAt 4 cfg0.N))
          (TailSum.firstLaneSum ((dats m 0 c).arrAt 5 cfg0.N))
          (m ((c : Thread nD τ).loc main_arg2)) (m ((c : Thread nD τ).loc main_arg3)) := by
  have a2 : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) (fun w => (dats m 0 c).arrAt w cfg0.N) 2
  have a3 : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) (fun w => (dats m 0 c).arrAt w cfg0.N) 3
  have a4 : Pipeline.withArrays (cfgs 0).spec c (V0 m c) (fun w => (dats m 0 c).arrAt w (cfgs 0).N) (Proc.devRef .tc main_v2_2)
      = (dats m 0 c).arrAt 4 cfg0.N :=
    Pipeline.withArrays_arr spec0 launch0.win.arr_inj c (V0 m c) (fun w => (dats m 0 c).arrAt w cfg0.N) 4
  have a5 : Pipeline.withArrays (cfgs 0).spec c (V0 m c) (fun w => (dats m 0 c).arrAt w (cfgs 0).N) (Proc.devRef .tc main_v2_3)
      = (dats m 0 c).arrAt 5 cfg0.N :=
    Pipeline.withArrays_arr spec0 launch0.win.arr_inj c (V0 m c) (fun w => (dats m 0 c).arrAt w cfg0.N) 5
  have w2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  have w3 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by exact (by decide : ∀ w, Pipeline.arrRef spec0 w ≠ main_arg3))).trans
      (V_main_arg3 m c)
  unfold Pipeline.afterTail₀
  show StableHlo.after hostOps1 _ (Proc.devRef .tc main_v22) = _
  after_results_simp
  rw [a2, a3, a4, a5, w2, w3]
  rfl

end Cert.KernelIdeal.Tail

end
-- ==== Proof.KernelRun.lean ====
/-
  The idealized kernel program's run, read: after every weakly fair execution the result buffer holds the pairwise loss
  of the reshaped inputs, combined with the two weights, and the four argument arrays are unchanged.

  The two operations before the region re-lay the [2, 48, 48, ·] inputs as [2, 2304, ·]; the region leaves the four
  [2, 1, 128] arrays of accumulated totals; the operations after it sum their first lanes and combine the four sums.
-/
import proofs.«138893_j63505386438847_2_alg».proof.Proof.KernelFinal
import proofs.«138893_j63505386438847_2_alg».proof.Proof.KernelInv
import proofs.«138893_j63505386438847_2_alg».proof.Proof.KernelTail
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.GenP

variable (m : (ℓ : Loc nD τ sig) → Buf (Elt Ideal) ℓ) (ρ : Dev nD → PrngReg)

/-! ## The inputs as the region finds them -/

/-- The features as the region finds them: the first argument re-laid as [2, 2304, 384]. -/
theorem V_main_v0 (c : Dev nD) :
    V m c main_v0
      = shapeCast S2x2304x384 (m ((c : Thread nD τ).loc main_arg0)) shapeCasts_S2x48x48x384_S2x2304x384 := by
  show StableHlo.after hostOps0 (fun b => m (c, b)) (Proc.devRef .tc main_v0) = _
  after_results
  rfl

/-- The log-probabilities as the region finds them: the second argument re-laid as [2, 2304, 16]. -/
theorem V_main_v1 (c : Dev nD) :
    V m c main_v1
      = shapeCast S2x2304x16 (m ((c : Thread nD τ).loc main_arg1)) shapeCasts_S2x48x48x16_S2x2304x16 := by
  show StableHlo.after hostOps0 (fun b => m (c, b)) (Proc.devRef .tc main_v1) = _
  after_results
  rfl

/-- Re-laid real features are real: every entry is an entry of the argument. -/
theorem real_XX (c : Dev nD) (h : ∀ i, ∃ r : ℝ, m ((c : Thread nD τ).loc main_arg0) i = (r : EReal)) :
    ∀ i, ∃ r : ℝ, Inv.XX m c i = (r : EReal) := by
  intro i
  show ∃ r : ℝ, V m c main_v0 i = (r : EReal)
  rw [V_main_v0]
  exact h _

/-- Re-laid real log-probabilities are real. -/
theorem real_YY (c : Dev nD) (h : ∀ i, ∃ r : ℝ, m ((c : Thread nD τ).loc main_arg1) i = (r : EReal)) :
    ∀ i, ∃ r : ℝ, Inv.YY m c i = (r : EReal) := by
  intro i
  show ∃ r : ℝ, V m c main_v1 i = (r : EReal)
  rw [V_main_v1]
  exact h _

/-! ## The result -/

/-- The four first-lane sums are the loss's four totals, so their combination is the loss. -/
theorem result_eq (c : Dev nD) (hX : ∀ i, ∃ r : ℝ, Inv.XX m c i = (r : EReal))
    (hY : ∀ i, ∃ r : ℝ, Inv.YY m c i = (r : EReal)) :
    PairLoss.combine shapeCasts_S1_S_ (TailSum.firstLaneSum ((dats m 0 c).arrAt 2 cfg0.N))
        (TailSum.firstLaneSum ((dats m 0 c).arrAt 3 cfg0.N)) (TailSum.firstLaneSum ((dats m 0 c).arrAt 4 cfg0.N))
        (TailSum.firstLaneSum ((dats m 0 c).arrAt 5 cfg0.N))
        (m ((c : Thread nD τ).loc main_arg2)) (m ((c : Thread nD τ).loc main_arg3))
      = PairLoss.result (Inv.XX m c) (Inv.YY m c) shapeCasts_S1_S_ (m ((c : Thread nD τ).loc main_arg2))
          (m ((c : Thread nD τ).loc main_arg3)) := by
  unfold PairLoss.result
  rw [Final.total_pos m c (Inv.holds m c), Final.total_neg m c (Inv.holds m c) hX hY,
    Final.total_npos m c (Inv.holds m c), Final.total_nneg m c (Inv.holds m c)]

/-- The run, read: the result buffer at the loss of the reshaped inputs, the four arguments unchanged. -/
theorem run (hX : ∀ c i, ∃ r : ℝ, Inv.XX m c i = (r : EReal)) (hY : ∀ c i, ∃ r : ℝ, Inv.YY m c i = (r : EReal)) :
    θ_run defs (onTc (τ := τ) (main (F := Ideal))) ⟨m, fun _ => 0, ρ⟩ (fun r => ∀ c : Dev nD,
      r.2.mem ((c.tc : Thread nD τ).loc main_v22)
          = PairLoss.result (Inv.XX m c) (Inv.YY m c) shapeCasts_S1_S_ (m ((c.tc : Thread nD τ).loc main_arg2))
              (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans
        ((Tail.tail_eq m c).trans (result_eq m c (hX c) (hY c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (GenP.run_main m ρ)

end Cert.KernelIdeal.RunValue

end
-- ==== Proof.RefMath.lean ====
/-
  The arithmetic behind the reference's reading, on the extended reals and on 32-bit words.

  * The word 0x40000000 denotes 2, and for a real p:  (max(p, p) + log(1 + e^{-|p - p|})) - log 2 = p,  and (a + a) / 2 = a.
  * A sum over the indices of a rank-3 array is the triple sum over the coordinates.
  * A wrapping 32-bit sum of fewer than 2^31 words, each 0 or 1, is the number of ones; as an extended real that number
    is the sum of the indicators.
  * max(f, 0) is not 0 exactly when 0 < f, and min(f, 0) is not 0 exactly when f < 0.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IndicatorCount

noncomputable section

open scoped BigOperators

namespace Cert.RefMath

open Idealize.ShloMosaic Idealize.ShloMosaic.ValueIdx

/-! ## Words and the two real identities -/

/-- The word 0x40000000 denotes 2. -/
theorem two_word : Ideal.ofBits .f32 0x40000000#32 = ((2 : ℝ) : EReal) := by
  simp [Ideal.ofBits, Ideal.ieee]
  rw [← EReal.coe_mul]
  norm_num

/-- p - p = 0 for a real p. -/
theorem sub_self_real (p : ℝ) : (p : EReal) - (p : EReal) = 0 := by
  rw [← EReal.coe_sub, sub_self, EReal.coe_zero]

/-- The comparison "not equal" of a value with itself is the bit 0. -/
theorem cmp_une_self (x : EReal) : Ideal.cmp .une x x = 0#1 := by
  show BitVec.ofBool (decide (x ≠ x)) = 0#1
  rw [decide_eq_false (by simp)]; rfl

/-- log(1 + e^{-|0|}) = log 2. -/
theorem log1p_exp_zero : Ideal.log1p (Ideal.exp (-(max (0 : EReal) (-(0 : EReal))))) = ((Real.log 2 : ℝ) : EReal) := by
  rw [neg_zero, max_self, neg_zero, ← EReal.coe_zero, Ideal.exp_coe, Real.exp_zero, Ideal.log1p, EReal.coe_one,
    one_add_one_eq_two]
  have : (2 : EReal) = ((2 : ℝ) : EReal) := by norm_cast
  rw [this, Ideal.log_coe, if_neg (by norm_num)]

/-- log of the word of 2 is log 2. -/
theorem log_two_word : Ideal.log (Ideal.ofBits .f32 0x40000000#32) = ((Real.log 2 : ℝ) : EReal) := by
  rw [two_word, Ideal.log_coe, if_neg (by norm_num)]

/-- (p + log 2) - log 2 = p for a real p. -/
theorem add_sub_log_two (p : ℝ) : ((p : EReal) + ((Real.log 2 : ℝ) : EReal)) - ((Real.log 2 : ℝ) : EReal) = (p : EReal) := by
  rw [← EReal.coe_add, ← EReal.coe_sub, add_sub_cancel_right]

/-- (a + a) / 2 = a for a real a. -/
theorem half_double (a : ℝ) : Ideal.div ((a : EReal) + (a : EReal)) (Ideal.ofBits .f32 0x40000000#32) = (a : EReal) := by
  rw [two_word, Ideal.div_coe (by norm_num), ← EReal.coe_add, ← EReal.coe_mul]
  congr 1
  ring

/-! ## The order facts -/

/-- max(f, 0) ≠ 0 exactly when 0 < f. -/
theorem max_zero_ne_iff (f : EReal) : max f 0 ≠ 0 ↔ 0 < f := by
  constructor
  · intro h
    by_contra hn
    exact h (max_eq_right (not_lt.mp hn))
  · intro h
    rw [max_eq_left h.le]
    exact h.ne'

/-- min(f, 0) ≠ 0 exactly when f < 0. -/
theorem min_zero_ne_iff (f : EReal) : min f 0 ≠ 0 ↔ f < 0 := by
  constructor
  · intro h
    by_contra hn
    exact h (min_eq_right (not_lt.mp hn))
  · intro h
    rw [min_eq_left h.le]
    exact h.ne

/-- The bit of "x ≠ 0" is 1 exactly when x ≠ 0. -/
theorem cmp_une_eq_one_iff (x y : EReal) : Ideal.cmp .une x y = 1#1 ↔ x ≠ y := by
  show BitVec.ofBool (decide (x ≠ y)) = 1#1 ↔ x ≠ y
  by_cases h : x = y
  · simp [h]
  · simp [h]

/-! ## Rank-3 indices -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The number of indices of a rank-3 array. -/
theorem card_idx3 {n0 n1 n2 : Nat} : Fintype.card (⟨3, ![n0, n1, n2]⟩ : Shape).Idx = n0 * (n1 * n2) := by
  rw [Fintype.card_congr (idxEquiv3 (n0 := n0) (n1 := n1) (n2 := n2)), Fintype.card_prod, Fintype.card_prod,
    Fintype.card_fin, Fintype.card_fin, Fintype.card_fin]

/-! ## Counting -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A 32-bit word of a number below 2^31, read as a signed integer, is that number. -/
theorem toInt_ofNat_small (c : ℕ) (hc : c < 2 ^ 31) : (BitVec.ofNat 32 c).toInt = (c : ℤ) := by
  have h1 : (BitVec.ofNat 32 c).toNat = c := by
    rw [BitVec.toNat_ofNat]; exact Nat.mod_eq_of_lt (by omega)
  rw [BitVec.toInt_eq_toNat_of_lt (by rw [h1]; omega), h1]

/-- The number of indices satisfying a condition, as an extended real, is the sum of the indicators. -/
theorem card_filter_ereal {ι : Type} [Fintype ι] (P : ι → Prop) [DecidablePred P] :
    (((((Finset.univ.filter P).card : ℕ) : ℤ) : ℝ) : EReal) = ∑ i : ι, if P i then (1 : EReal) else 0 := by
  rw [Finset.card_filter]
  push_cast
  rw [coe_sum]
  refine Finset.sum_congr rfl fun i _ => ?_
  split <;> simp

/-- A 32-bit sum, from 0 and over all axes, of the zero-extended bits p of a rank-3 array with fewer than 2^31 entries does not
    wrap: converted to a float it is the number of entries whose bit is 1, the triple sum of the indicators. -/
theorem count_bits {n0 n1 n2 : ℕ} (hsmall : n0 * (n1 * n2) < 2 ^ 31)
    {axes : List (Fin (⟨3, ![n0, n1, n2]⟩ : Shape).rank)} (p : (⟨3, ![n0, n1, n2]⟩ : Shape).Idx → BitVec 1)
    (init : (⟨0, ![]⟩ : Shape).Idx → BitVec 32) (hinit : ∀ j, init j = 0#32)
    (h : (⟨3, ![n0, n1, n2]⟩ : Shape).ReducesTo axes ⟨0, ![]⟩) (hu : 0 < (⟨0, ![]⟩ : Shape).numel)
    (j : (⟨0, ![]⟩ : Shape).Idx)
    (Q : Fin n0 → Fin n1 → Fin n2 → Prop) [∀ a b c, Decidable (Q a b c)] (hQ : ∀ a b c, p (ix3 a b c) = 1#1 ↔ Q a b c) :
    FloatOps.sitofp (F := Ideal) .f32 (Host.reduce IntOp.addi (fun k => (p k).setWidth 32) init h hu j)
      = ∑ a, ∑ b, ∑ c, if Q a b c then (1 : EReal) else 0 := by
  rw [Host.reduce_eq_fold, Finset.filter_true_of_mem (fun i _ => funext fun b => b.elim0), hinit,
    IndicatorCount.fold_addi_setWidth_eq_card]
  have hc : (Finset.univ.filter fun k => p k = 1#1).card < 2 ^ 31 :=
    lt_of_le_of_lt (Finset.card_le_univ _) (by rw [card_idx3]; exact hsmall)
  show ((((BitVec.ofNat 32 (Finset.univ.filter fun k => p k = 1#1).card).toInt : ℝ)) : EReal) = _
  rw [toInt_ofNat_small _ hc, card_filter_ereal, sum_idx3]
  exact Finset.sum_congr rfl fun a _ => Finset.sum_congr rfl fun b _ => Finset.sum_congr rfl fun c _ =>
    if_congr (hQ a b c) rfl rfl

end Cert.RefMath

end
-- ==== Proof.RefValue.lean ====
/-
  The reference program computes the pairwise loss of its two reshaped arrays.

  X = the features as a [2, 2304, 384] array, Y = the log-probabilities as a [2, 2304, 16] array (the program's first two
  operations). Read operation by operation:
    * the normalised rows, their batched products and the shift give fcorr(n, s, l);
    * the mixture  logaddexp(Y, Y) - log 2  is Y itself wherever Y is a real number, so both halves of the divergence are
      the same cross term, and their mean (a + a) / 2 is that term, pcorr(n, s, l);
    * the two float totals are the sums over all (n, s, l) of the positive and the negative part of fcorr times pcorr;
    * the two integer counts, a 32-bit sum of 2·2304·2304 < 2^31 zeros and ones, are the numbers of pairs with fcorr > 0 and
      with fcorr < 0;
    * the last operations divide, weight, add and multiply by the word of 1.
-/
import proofs.«138893_j63505386438847_2_alg».proof.Proof.RefReadP
import proofs.«138893_j63505386438847_2_alg».proof.Proof.PairLoss
import proofs.«138893_j63505386438847_2_alg».proof.Proof.RefMath

noncomputable section

open scoped BigOperators

namespace Cert.RefValue

open Cert.ReferenceIdeal Cert.ReferenceIdeal.ReadP Idealize.ShloMosaic Idealize.ShloMosaic.ValueIdx Cert.RefMath

/-! ## Index equations: the composed index functions of the layout operations at coordinates -/

theorem idx8 (n : Fin 2) (s : Fin 2304) (c : Fin 384) : idx_main_v8 (ix3 n s c) = ix3 n s (0 : Fin 1) :=
  funext fun a => Fin.ext (by match a with | ⟨0, _⟩ => rfl | ⟨1, _⟩ => rfl | ⟨2, _⟩ => rfl)
theorem idx4 (n : Fin 2) (s : Fin 2304) (u : Fin 1) : idx_main_v4 (ix3 n s u) = ix2 n s :=
  funext fun a => Fin.ext (by match a with | ⟨0, _⟩ => rfl | ⟨1, _⟩ => rfl)
theorem idx3 (n : Fin 2) (s : Fin 2304) (k : Fin 384) : idx_main_v3 (ix2 n s) k = ix3 n s k :=
  funext fun a => Fin.ext (by match a with | ⟨0, _⟩ => rfl | ⟨1, _⟩ => rfl | ⟨2, _⟩ => rfl)
theorem lidx10 (n : Fin 2) (s l : Fin 2304) (k : Fin 384) : lidx_main_v10 (ix3 n s l) k = ix3 n s k :=
  funext fun a => Fin.ext (by match a with | ⟨0, _⟩ => rfl | ⟨1, _⟩ => rfl | ⟨2, _⟩ => rfl)
theorem ridx10 (n : Fin 2) (s l : Fin 2304) (k : Fin 384) : ridx_main_v10 (ix3 n s l) k = ix3 n l k :=
  funext fun a => Fin.ext (by match a with | ⟨0, _⟩ => rfl | ⟨1, _⟩ => rfl | ⟨2, _⟩ => rfl)
theorem idx36 (n : Fin 2) (s l : Fin 2304) : idx_main_v36 (ix3 n s l) = ix3 n s (0 : Fin 1) :=
  funext fun a => Fin.ext (by match a with | ⟨0, _⟩ => rfl | ⟨1, _⟩ => rfl | ⟨2, _⟩ => rfl)
theorem idx34 (n : Fin 2) (s : Fin 2304) (u : Fin 1) : idx_main_v34 (ix3 n s u) = ix2 n s :=
  funext fun a => Fin.ext (by match a with | ⟨0, _⟩ => rfl | ⟨1, _⟩ => rfl)
theorem idx33 (n : Fin 2) (s : Fin 2304) (k : Fin 16) : idx_main_v33 (ix2 n s) k = ix3 n s k :=
  funext fun a => Fin.ext (by match a with | ⟨0, _⟩ => rfl | ⟨1, _⟩ => rfl | ⟨2, _⟩ => rfl)
theorem lidx35 (n : Fin 2) (s l : Fin 2304) (k : Fin 16) : lidx_main_v35 (ix3 n s l) k = ix3 n s k :=
  funext fun a => Fin.ext (by match a with | ⟨0, _⟩ => rfl | ⟨1, _⟩ => rfl | ⟨2, _⟩ => rfl)
theorem ridx35 (n : Fin 2) (s l : Fin 2304) (k : Fin 16) : ridx_main_v35 (ix3 n s l) k = ix3 n l k :=
  funext fun a => Fin.ext (by match a with | ⟨0, _⟩ => rfl | ⟨1, _⟩ => rfl | ⟨2, _⟩ => rfl)
theorem idx43 (n : Fin 2) (s l : Fin 2304) : idx_main_v43 (ix3 n s l) = ix3 n s (0 : Fin 1) :=
  funext fun a => Fin.ext (by match a with | ⟨0, _⟩ => rfl | ⟨1, _⟩ => rfl | ⟨2, _⟩ => rfl)
theorem idx41 (n : Fin 2) (s : Fin 2304) (u : Fin 1) : idx_main_v41 (ix3 n s u) = ix2 n s :=
  funext fun a => Fin.ext (by match a with | ⟨0, _⟩ => rfl | ⟨1, _⟩ => rfl)
theorem idx40 (n : Fin 2) (s : Fin 2304) (k : Fin 16) : idx_main_v40 (ix2 n s) k = ix3 n s k :=
  funext fun a => Fin.ext (by match a with | ⟨0, _⟩ => rfl | ⟨1, _⟩ => rfl | ⟨2, _⟩ => rfl)
theorem lidx42 (n : Fin 2) (s l : Fin 2304) (k : Fin 16) : lidx_main_v42 (ix3 n s l) k = ix3 n s k :=
  funext fun a => Fin.ext (by match a with | ⟨0, _⟩ => rfl | ⟨1, _⟩ => rfl | ⟨2, _⟩ => rfl)
theorem ridx42 (n : Fin 2) (s l : Fin 2304) (k : Fin 16) : ridx_main_v42 (ix3 n s l) k = ix3 n l k :=
  funext fun a => Fin.ext (by match a with | ⟨0, _⟩ => rfl | ⟨1, _⟩ => rfl | ⟨2, _⟩ => rfl)

/-! ## The shifted cosine -/

section Features

variable (x0 : (⟨S2x48x48x384, .f32⟩ : BufTy).Contents (Elt Ideal))

/-- The divided row is the unit row. -/
theorem unit_row (n : Fin 2) (s : Fin 2304) (c : Fin 384) :
    val_main_v9 (F := Ideal) x0 (ix3 n s c) = PairLoss.unitRow (val_main_v0 (F := Ideal) x0) n s c := by
  simp only [val_main_v9_apply, val_main_v8_apply, idx8, val_main_v7_apply, val_main_v5_apply, val_main_v4_apply, idx4,
    val_main_v3_apply, idx3, val_main_v2_apply, val_main_cst_apply, val_main_v6_apply, val_main_cst_0_apply,
    Ideal.hostDivf_def, Ideal.maximumf_def, Ideal.hostUnary_sqrt_def, Ideal.mulf_def, Ideal.ofBits_def,
    Ideal.ofBits_zero_f32, zero_add]
  rfl

/-- Operation %12 at (n, s, l) is the shifted cosine of rows s and l. -/
theorem fcorr_eq (n : Fin 2) (s l : Fin 2304) :
    val_main_v12 (F := Ideal) x0 (ix3 n s l) = PairLoss.fcorr (val_main_v0 (F := Ideal) x0) n s l := by
  simp only [val_main_v12_apply, val_main_v10_apply, lidx10, ridx10, unit_row, val_main_v11_apply, val_main_cst_1_apply,
    Ideal.subf_def, Ideal.ofBits_def]
  rfl

end Features

/-! ## The mixture and the cross term -/

section LogProbs

variable (x1 : (⟨S2x48x48x16, .f32⟩ : BufTy).Contents (Elt Ideal)) (h1 : ∀ i, ∃ r : ℝ, x1 i = (r : EReal))

include h1 in
/-- The reshaped log-probabilities are real numbers. -/
theorem real_v1 (i : S2x2304x16.Idx) : ∃ r : ℝ, val_main_v1 (F := Ideal) x1 i = (r : EReal) := by
  rw [val_main_v1_apply]; exact h1 _

include h1 in
/-- Operation %30, logaddexp(Y, Y) - log 2, is Y: Y - Y = 0 is not different from itself, so the selection takes
    max(Y, Y) + log(1 + e^{-|0|}) = Y + log 2. -/
theorem mix_eq (i : S2x2304x16.Idx) : val_main_v30 (F := Ideal) x1 i = val_main_v1 (F := Ideal) x1 i := by
  obtain ⟨p, hp⟩ := real_v1 x1 h1 i
  rw [val_main_v30_apply, val_main_v26_apply, val_main_v19_apply, val_main_v25_apply, val_main_v17_apply,
    val_main_v24_apply, val_main_v23_apply, val_main_v22_apply, val_main_v21_apply, val_main_v18_apply,
    val_main_v29_apply, val_main_v28_apply, val_main_v27_apply, val_main_cst_4_apply, hp]
  simp only [Ideal.subf_def, Ideal.addf_def, Ideal.maximumf_def, Ideal.hostUnary_exp_def, Ideal.hostUnary_log1p_def,
    Ideal.hostUnary_log_def, Ideal.hostNegf_def, Ideal.hostAbsf_def, Ideal.negf_def, Ideal.absf_def, Ideal.cmpf_def,
    Ideal.ofBits_def, sub_self_real, cmp_une_self, select_zero, max_self, log1p_exp_zero, log_two_word, add_sub_log_two]

/-- For real entries the cross term is a real number. -/
theorem pcorr_real (Y : PairLoss.SY.Idx → EReal) (hY : ∀ i, ∃ r : ℝ, Y i = (r : EReal)) (n : Fin 2) (s l : Fin 2304) :
    ∃ a : ℝ, PairLoss.pcorr Y n s l = (a : EReal) := by
  choose Y' hY' using hY
  refine ⟨(∑ k : Fin 16, Real.exp (Y' (ix3 n s k)) * Y' (ix3 n s k))
    - ∑ k : Fin 16, Real.exp (Y' (ix3 n s k)) * Y' (ix3 n l k), ?_⟩
  unfold PairLoss.pcorr PairLoss.ent PairLoss.cross PairLoss.ex
  simp only [hY', Ideal.exp_coe, ← EReal.coe_mul, ← coe_sum, ← EReal.coe_sub]

include h1 in
/-- Operation %37 (and %44, the same operations again) at (n, s, l) is the cross term. -/
theorem half_eq (n : Fin 2) (s l : Fin 2304) :
    val_main_v37 (F := Ideal) x1 (ix3 n s l) = PairLoss.pcorr (val_main_v1 (F := Ideal) x1) n s l := by
  simp only [val_main_v37_apply, val_main_v36_apply, idx36, val_main_v34_apply, idx34, val_main_v33_apply, idx33,
    val_main_v32_apply, val_main_v31_apply, val_main_cst_5_apply, val_main_v35_apply, lidx35, ridx35, mix_eq x1 h1,
    Ideal.subf_def, Ideal.mulf_def, Ideal.hostUnary_exp_def, Ideal.ofBits_def, Ideal.ofBits_zero_f32, zero_add]
  rfl

include h1 in
theorem half_eq' (n : Fin 2) (s l : Fin 2304) :
    val_main_v44 (F := Ideal) x1 (ix3 n s l) = PairLoss.pcorr (val_main_v1 (F := Ideal) x1) n s l := by
  simp only [val_main_v44_apply, val_main_v43_apply, idx43, val_main_v41_apply, idx41, val_main_v40_apply, idx40,
    val_main_v39_apply, val_main_v38_apply, val_main_cst_6_apply, val_main_v42_apply, lidx42, ridx42, mix_eq x1 h1,
    Ideal.subf_def, Ideal.mulf_def, Ideal.hostUnary_exp_def, Ideal.ofBits_def, Ideal.ofBits_zero_f32, zero_add]
  rfl

include h1 in
/-- Operation %47, the mean of the two halves, at (n, s, l) is the cross term. -/
theorem pcorr_eq (n : Fin 2) (s l : Fin 2304) :
    val_main_v47 (F := Ideal) x1 (ix3 n s l) = PairLoss.pcorr (val_main_v1 (F := Ideal) x1) n s l := by
  obtain ⟨a, ha⟩ := pcorr_real (val_main_v1 (F := Ideal) x1) (real_v1 x1 h1) n s l
  rw [val_main_v47_apply, val_main_v45_apply, half_eq x1 h1, half_eq' x1 h1, val_main_v46_apply, val_main_cst_7_apply, ha]
  simp only [Ideal.hostDivf_def, Ideal.addf_def, Ideal.ofBits_def, half_double]

end LogProbs

/-! ## The totals and the counts -/

section Totals

variable (x0 : (⟨S2x48x48x384, .f32⟩ : BufTy).Contents (Elt Ideal))
  (x1 : (⟨S2x48x48x16, .f32⟩ : BufTy).Contents (Elt Ideal)) (h1 : ∀ i, ∃ r : ℝ, x1 i = (r : EReal))

include h1 in
/-- Operation %53 is the total of the positive parts times the cross terms. -/
theorem pos_total : val_main_v53 (F := Ideal) x0 x1
    = fun _ => PairLoss.posTot (val_main_v0 (F := Ideal) x0) (val_main_v1 (F := Ideal) x1) := by
  funext i
  rw [val_main_v53_apply, val_main_cst_8_apply]
  simp only [Ideal.ofBits_def, Ideal.ofBits_zero_f32, zero_add]
  refine (sum_idx3 (n0 := 2) (n1 := 2304) (n2 := 2304) (val_main_v52 (F := Ideal) x0 x1)).trans ?_
  refine Finset.sum_congr rfl fun n _ => Finset.sum_congr rfl fun s _ => Finset.sum_congr rfl fun l _ => ?_
  simp only [val_main_v52_apply, val_main_v14_apply, val_main_v13_apply, val_main_cst_2_apply, fcorr_eq, pcorr_eq x1 h1,
    Ideal.mulf_def, Ideal.maximumf_def, Ideal.ofBits_def, Ideal.ofBits_zero_f32]

include h1 in
/-- Operation %56 is the total of the negative parts times the cross terms. -/
theorem neg_total : val_main_v56 (F := Ideal) x0 x1
    = fun _ => PairLoss.negTot (val_main_v0 (F := Ideal) x0) (val_main_v1 (F := Ideal) x1) := by
  funext i
  rw [val_main_v56_apply, val_main_cst_9_apply]
  simp only [Ideal.ofBits_def, Ideal.ofBits_zero_f32, zero_add]
  refine (sum_idx3 (n0 := 2) (n1 := 2304) (n2 := 2304) (val_main_v55 (F := Ideal) x0 x1)).trans ?_
  refine Finset.sum_congr rfl fun n _ => Finset.sum_congr rfl fun s _ => Finset.sum_congr rfl fun l _ => ?_
  simp only [val_main_v55_apply, val_main_v16_apply, val_main_v15_apply, val_main_cst_3_apply, fcorr_eq, pcorr_eq x1 h1,
    Ideal.mulf_def, Ideal.minimumf_def, Ideal.ofBits_def, Ideal.ofBits_zero_f32]

/-- Operation %49, the converted 32-bit count of the nonzero positive parts, is the number of pairs with fcorr > 0. -/
theorem pos_count : val_main_v49 (F := Ideal) x0 = fun _ => PairLoss.nPos (val_main_v0 (F := Ideal) x0) := by
  funext j
  rw [val_main_v49_apply]
  unfold val_main_v48
  refine (count_bits (n0 := 2) (n1 := 2304) (n2 := 2304) (by norm_num) (val_main_call0_v1 (F := Ideal) x0)
    (val_main_call0_c (F := Ideal)) (fun _ => rfl) _ _ j
    (fun n s l => 0 < PairLoss.fcorr (val_main_v0 (F := Ideal) x0) n s l) (fun n s l => ?_)).trans rfl
  simp only [val_main_call0_v1_apply, val_main_v14_apply, val_main_v13_apply, val_main_cst_2_apply, val_main_call0_v0_apply,
    val_main_call0_cst_apply, fcorr_eq, Ideal.cmpf_def, Ideal.maximumf_def, Ideal.ofBits_def, Ideal.ofBits_zero_f32]
  rw [cmp_une_eq_one_iff, max_zero_ne_iff]

/-- Operation %51, the converted 32-bit count of the nonzero negative parts, is the number of pairs with fcorr < 0. -/
theorem neg_count : val_main_v51 (F := Ideal) x0 = fun _ => PairLoss.nNeg (val_main_v0 (F := Ideal) x0) := by
  funext j
  rw [val_main_v51_apply]
  unfold val_main_v50
  refine (count_bits (n0 := 2) (n1 := 2304) (n2 := 2304) (by norm_num) (val_main_call1_v1 (F := Ideal) x0)
    (val_main_call1_c (F := Ideal)) (fun _ => rfl) _ _ j
    (fun n s l => PairLoss.fcorr (val_main_v0 (F := Ideal) x0) n s l < 0) (fun n s l => ?_)).trans rfl
  simp only [val_main_call1_v1_apply, val_main_v16_apply, val_main_v15_apply, val_main_cst_3_apply, val_main_call1_v0_apply,
    val_main_call1_cst_apply, fcorr_eq, Ideal.cmpf_def, Ideal.minimumf_def, Ideal.ofBits_def, Ideal.ofBits_zero_f32]
  rw [cmp_une_eq_one_iff, min_zero_ne_iff]

end Totals

/-! ## The result -/

/-- The reference's result is the pairwise loss of the two reshaped arrays and the two weights. -/
theorem ref_result (x0 : (⟨S2x48x48x384, .f32⟩ : BufTy).Contents (Elt Ideal))
    (x1 : (⟨S2x48x48x16, .f32⟩ : BufTy).Contents (Elt Ideal)) (x2 x3 : (⟨S1, .f32⟩ : BufTy).Contents (Elt Ideal))
    (h0 : ∀ i, ∃ r : ℝ, x0 i = (r : EReal)) (h1 : ∀ i, ∃ r : ℝ, x1 i = (r : EReal)) :
    val_main_v63 (F := Ideal) x0 x1 x2 x3
      = PairLoss.result (val_main_v0 (F := Ideal) x0) (val_main_v1 (F := Ideal) x1) Cert.ReferenceIdeal.Gen.shapeCasts_S1_S_ x2 x3 := by
  unfold val_main_v63 val_main_v62 val_main_v59 val_main_v61 val_main_v54 val_main_v57
  rw [pos_total x0 x1 h1, neg_total x0 x1 h1, pos_count x0, neg_count x0]
  rfl

end Cert.RefValue

end
-- ==== Proof.lean ====
/-
  Both programs compute the pairwise loss of PairLoss.lean: with u the unit rows of the features and Y the log-probabilities,
  ((Σ max(f,0)·p / #{f > 0})·w₂ + (Σ min(f,0)·p / #{f < 0})·w₃)·1 over all pairs of positions, where f is the shifted cosine
  of two unit rows and p the cross term of two rows of Y. The reference sums over all pairs at once; the kernel accumulates
  six tiles of 384 positions per batch, left to right from zero, and its negative part as (Σ f·p) − (Σ max(f,0)·p). The two
  agree by the commutative monoid laws of + and, for the negative part, by f − max(f,0) = min(f,0) in ℝ, which is where the
  finiteness of the inputs is used: every quantity is then a real number.
-/
import proofs.«138893_j63505386438847_2_alg».proof.Defs
import proofs.«138893_j63505386438847_2_alg».proof.Proof.Gen.Kernel
import proofs.«138893_j63505386438847_2_alg».proof.Proof.Gen.Kernel.Skeleton
import proofs.«138893_j63505386438847_2_alg».proof.Proof.Gen.Kernel.Launch
import proofs.«138893_j63505386438847_2_alg».proof.Proof.Gen.Kernel.Points
import proofs.«138893_j63505386438847_2_alg».proof.Proof.Gen.KernelIdeal
import proofs.«138893_j63505386438847_2_alg».proof.Proof.Gen.KernelIdeal.Skeleton
import proofs.«138893_j63505386438847_2_alg».proof.Proof.Gen.KernelIdeal.Launch
import proofs.«138893_j63505386438847_2_alg».proof.Proof.Gen.KernelIdeal.Points
import proofs.«138893_j63505386438847_2_alg».proof.Proof.Gen.ReferenceIdeal
import proofs.«138893_j63505386438847_2_alg».proof.Proof.Gen.Pre_finite_inputs
import proofs.«138893_j63505386438847_2_alg».proof.Proof.KernelFrameP
import proofs.«138893_j63505386438847_2_alg».proof.Proof.KernelRun
import proofs.«138893_j63505386438847_2_alg».proof.Proof.RefRunP
import proofs.«138893_j63505386438847_2_alg».proof.Proof.RefReadP
import proofs.«138893_j63505386438847_2_alg».proof.Proof.RefValue
import proofs.«138893_j63505386438847_2_alg».proof.Proof.PairMath
import Idealize.ShloMosaic.Adequacy
import Idealize.ShloMosaic.Init

noncomputable section

namespace Cert.Proof

open Idealize.ShloMosaic Idealize.SL.Sem Idealize.ShloMosaic.TcCoe

/-- The kernel runs and leaves its arguments unchanged. -/
theorem frame_k : Cert.frame_Kernel := fun m ρ _ => Cert.Kernel.GenP.frame m ρ

/-- The idealized kernel runs and leaves its arguments unchanged. -/
theorem frame_ki : Cert.frame_KernelIdeal := fun m ρ _ => Cert.KernelIdeal.GenP.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals, from memories that agree on the four arguments, of which the first two are finite: the kernel's
    result and the reference's are both the pairwise loss of the two re-laid arrays and the two weights. -/
theorem algebraic : Cert.algebraic_KernelIdeal_ReferenceIdeal := by
  intro m ρ m' ρ' hpre hagree
  -- every entry of the first two arguments is a real number
  have hfin := fun c : Dev Cert.KernelIdeal.nD => Cert.PairMath.finite_of_pre _ _ _ _ (hpre c)
  -- the arrays the region finds are the reference's re-laid arrays
  have e0 : ∀ c : Dev Cert.KernelIdeal.nD, Cert.KernelIdeal.Inv.XX m c
      = Cert.ReferenceIdeal.ReadP.val_main_v0 (F := Ideal) (m ((c.tc : Thread Cert.KernelIdeal.nD Cert.KernelIdeal.τ).loc Cert.KernelIdeal.main_arg0)) :=
    fun c => (Cert.KernelIdeal.RunValue.V_main_v0 m c).trans rfl
  have e1 : ∀ c : Dev Cert.KernelIdeal.nD, Cert.KernelIdeal.Inv.YY m c
      = Cert.ReferenceIdeal.ReadP.val_main_v1 (F := Ideal) (m ((c.tc : Thread Cert.KernelIdeal.nD Cert.KernelIdeal.τ).loc Cert.KernelIdeal.main_arg1)) :=
    fun c => (Cert.KernelIdeal.RunValue.V_main_v1 m c).trans rfl
  have hX : ∀ c i, ∃ r : ℝ, Cert.KernelIdeal.Inv.XX m c i = (r : EReal) := fun c =>
    Cert.KernelIdeal.RunValue.real_XX m c (hfin c).1
  have hY : ∀ c i, ∃ r : ℝ, Cert.KernelIdeal.Inv.YY m c i = (r : EReal) := fun c =>
    Cert.KernelIdeal.RunValue.real_YY m c (hfin c).2
  refine ⟨fun c => Cert.PairLoss.result (Cert.KernelIdeal.Inv.XX m c) (Cert.KernelIdeal.Inv.YY m c) Cert.KernelIdeal.Gen.shapeCasts_S1_S_
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RunValue.run m ρ hX hY, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v63_eq, (hagree c).1, (hagree c).2.1, (hagree c).2.2.1, (hagree c).2.2.2,
    Cert.RefValue.ref_result _ _ _ _ (hfin c).1 (hfin c).2]
  beta_reduce
  rw [e0 c, e1 c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
